-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "norm_floor_sq" .f32 0x179ABE15#32 ((5316911940649 / 5316911983139663491615228241121378304 : ℝ) : EReal)
  ∧ IdealRules.sign_bit.Statement Cert.KernelIdeal.S3000x64 .f32
  ∧ IdealRules.named_const.Statement Cert.KernelIdeal.κ "norm_floor_sq" .f32 0x179ABE15#32 ((5316911940649 / 5316911983139663491615228241121378304 : ℝ) : EReal)
  ∧ IdealRules.sign_bit.Statement Cert.KernelIdeal.S3000x64 .f32
  ∧ IdealRules.named_const.Statement Cert.KernelIdeal.κ "norm_floor_sq" .f32 0x179ABE15#32 ((5316911940649 / 5316911983139663491615228241121378304 : ℝ) : EReal)
  ∧ IdealRules.sign_bit.Statement Cert.KernelIdeal.S3000x64 .f32
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S75000x64 : Shape := ⟨2, ![75000, 64]⟩
abbrev S3x225000x64 : Shape := ⟨3, ![3, 225000, 64]⟩
abbrev S2x3200000 : Shape := ⟨2, ![2, 3200000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S75000x64 : S_.BroadcastsInDim S75000x64 (![] : Fin 0 → Fin S75000x64.rank)
  reducesTo_S75000x64_S_d0_1 : S75000x64.ReducesTo [0, 1] S_
  bcast_S_S3x225000x64 : S_.BroadcastsInDim S3x225000x64 (![] : Fin 0 → Fin S3x225000x64.rank)
  reducesTo_S3x225000x64_S_d0_1_2 : S3x225000x64.ReducesTo [0, 1, 2] S_

variable [Facts]

def fn {F : FTy → Type} [FloatOps F] (main_arg0 : FVec F S150000x64 .f32) (main_arg1 : FVec F S75000x64 .f32) (main_arg2 : FVec F S3x225000x64 .f32) (main_arg3 : IVec S2x3200000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S75000x64 .f32 := Host.absf main_arg1
  let main_cst_0 : FVec F S_ .f32 := constant S_ .f32 0x7F800000#32
  let main_v5 : FVec F S75000x64 .f32 := broadcastInDim S75000x64 ![] bcast_S_S75000x64 main_cst_0
  let main_v6 : IVec S75000x64 1 := cmpf .olt main_v4 main_v5
  let main_c_1 : IVec S_ 1 := constantI S_ 1 1#1
  let main_v7 : IVec S_ 1 := (fun x v => Host.reduce IntOp.andi x v reducesTo_S75000x64_S_d0_1 h_S_) main_v6 main_c_1
  let main_v8 : IVec S_ 1 := andi main_v3 main_v7
  let main_v9 : FVec F S3x225000x64 .f32 := Host.absf main_arg2
  let main_cst_2 : FVec F S_ .f32 := constant S_ .f32 0x7F800000#32
  let main_v10 : FVec F S3x225000x64 .f32 := broadcastInDim S3x225000x64 ![] bcast_S_S3x225000x64 main_cst_2
  let main_v11 : IVec S3x225000x64 1 := cmpf .olt main_v9 main_v10
  let main_c_3 : IVec S_ 1 := constantI S_ 1 1#1
  let main_v12 : IVec S_ 1 := (fun x v => Host.reduce IntOp.andi x v reducesTo_S3x225000x64_S_d0_1_2 h_S_) main_v11 main_c_3
  let main_v13 : IVec S_ 1 := andi main_v8 main_v12
  main_v13
-- ==== Kernel.lean ====
abbrev S150000x64 : Shape := ⟨2, ![150000, 64]⟩
abbrev S75000x64 : Shape := ⟨2, ![75000, 64]⟩
abbrev S3x225000x64 : Shape := ⟨3, ![3, 225000, 64]⟩
abbrev S2x3200000 : Shape := ⟨2, ![2, 3200000]⟩
abbrev S225000x64 : Shape := ⟨2, ![225000, 64]⟩
abbrev S1x3200000 : Shape := ⟨2, ![1, 3200000]⟩
abbrev S3200000 : Shape := ⟨1, ![3200000]⟩
abbrev S_ : Shape := ⟨0, ![]⟩
abbrev S225000 : Shape := ⟨1, ![225000]⟩
abbrev S3200000x1 : Shape := ⟨2, ![3200000, 1]⟩
abbrev S3200000x64 : Shape := ⟨2, ![3200000, 64]⟩
abbrev S1x225000x64 : Shape := ⟨3, ![1, 225000, 64]⟩
abbrev S3000x64 : Shape := ⟨2, ![3000, 64]⟩
abbrev S3000 : Shape := ⟨1, ![3000]⟩
abbrev S3000x1 : Shape := ⟨2, ![3000, 1]⟩

abbrev nBuf : Space → Nat
  | .hbm => 115
  | .vmem => 28
  | .smem => 0
  | _ => 0

abbrev bufTy : (tb : Table) → Fin (tcTables nBuf tb) → BufTy
  | .hbm, ⟨0, _⟩ => ⟨S150000x64, .f32⟩
  | .hbm, ⟨1, _⟩ => ⟨S75000x64, .f32⟩
  | .hbm, ⟨2, _⟩ => ⟨S3x225000x64, .f32⟩
  | .hbm, ⟨3, _⟩ => ⟨S2x3200000, .i32⟩
  | .hbm, ⟨4, _⟩ => ⟨S225000x64, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S225000, .f32⟩
  | .hbm, ⟨13, _⟩ => ⟨S3200000x1, .i32⟩
  | .hbm, ⟨14, _⟩ => ⟨S225000, .f32⟩
  | .hbm, ⟨15, _⟩ => ⟨S_, .f32⟩
  | .hbm, ⟨16, _⟩ => ⟨S225000, .f32⟩
  | .hbm, ⟨17, _⟩ => ⟨S225000, .i1⟩
  | .hbm, ⟨18, _⟩ => ⟨S_, .f32⟩
  | .hbm, ⟨19, _⟩ => ⟨S225000, .f32⟩
  | .hbm, ⟨20, _⟩ => ⟨S225000, .i1⟩
  | .hbm, ⟨21, _⟩ => ⟨S_, .f32⟩
  | .hbm, ⟨22, _⟩ => ⟨S_, .f32⟩
  | .hbm, ⟨23, _⟩ => ⟨S225000, .f32⟩
  | .hbm, ⟨24, _⟩ => ⟨S225000, .f32⟩
  | .hbm, ⟨25, _⟩ => ⟨S225000, .f32⟩
  | .hbm, ⟨26, _⟩ => ⟨S_, .f32⟩
  | .hbm, ⟨27, _⟩ => ⟨S225000, .f32⟩
  | .hbm, ⟨28, _⟩ => ⟨S225000, .f32⟩
  | .hbm, ⟨29, _⟩ => ⟨S_, .f32⟩
  | .hbm, ⟨30, _⟩ => ⟨S_, .f32⟩
  | .hbm, ⟨31, _⟩ => ⟨S225000, .f32⟩
  | .hbm, ⟨32, _⟩ => ⟨S225000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000, .f32⟩
  | .hbm, ⟨51, _⟩ => ⟨S3200000, .f32⟩
  | .hbm, ⟨52, _⟩ => ⟨S_, .f32⟩
  | .hbm, ⟨53, _⟩ => ⟨S225000x64, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x64, .f32⟩
  | .hbm, ⟨63, _⟩ => ⟨S3200000x1, .f32⟩
  | .hbm, ⟨64, _⟩ => ⟨S3200000x64, .f32⟩
  | .hbm, ⟨65, _⟩ => ⟨S3200000x64, .f32⟩
  | .hbm, ⟨66, _⟩ => ⟨S_, .f32⟩
  | .hbm, ⟨67, _⟩ => ⟨S225000x64, .f32⟩
  | .hbm, ⟨68, _⟩ => ⟨S3200000x1, .i32⟩
  | .hbm, ⟨69, _⟩ => ⟨S225000x64, .f32⟩
  | .hbm, ⟨70, _⟩ => ⟨S1x225000x64, .f32⟩
  | .hbm, ⟨71, _⟩ => ⟨S225000x64, .f32⟩
  | .hbm, ⟨72, _⟩ => ⟨S225000x64, .f32⟩
  | .hbm, ⟨73, _⟩ => ⟨S225000x64, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x64, .f32⟩
  | .hbm, ⟨83, _⟩ => ⟨S3200000x1, .f32⟩
  | .hbm, ⟨84, _⟩ => ⟨S3200000x64, .f32⟩
  | .hbm, ⟨85, _⟩ => ⟨S3200000x64, .f32⟩
  | .hbm, ⟨86, _⟩ => ⟨S_, .f32⟩
  | .hbm, ⟨87, _⟩ => ⟨S225000x64, .f32⟩
  | .hbm, ⟨88, _⟩ => ⟨S3200000x1, .i32⟩
  | .hbm, ⟨89, _⟩ => ⟨S225000x64, .f32⟩
  | .hbm, ⟨90, _⟩ => ⟨S1x225000x64, .f32⟩
  | .hbm, ⟨91, _⟩ => ⟨S225000x64, .f32⟩
  | .hbm, ⟨92, _⟩ => ⟨S225000x64, .f32⟩
  | .hbm, ⟨93, _⟩ => ⟨S225000x64, .f32⟩
  | .hbm, ⟨94, _⟩ => ⟨S_, .i32⟩
  | .hbm, ⟨95, _⟩ => ⟨S3200000, .i32⟩
  | .hbm, ⟨96, _⟩ => ⟨S3200000, .i1⟩
  | .hbm, ⟨97, _⟩ => ⟨S_, .i32⟩
  | .hbm, ⟨98, _⟩ => ⟨S3200000, .i32⟩
  | .hbm, ⟨99, _⟩ => ⟨S3200000, .i32⟩
  | .hbm, ⟨100, _⟩ => ⟨S3200000, .i32⟩
  | .hbm, ⟨101, _⟩ => ⟨S3200000x1, .i32⟩
  | .hbm, ⟨102, _⟩ => ⟨S3200000x64, .f32⟩
  | .hbm, ⟨103, _⟩ => ⟨S3200000x1, .f32⟩
  | .hbm, ⟨104, _⟩ => ⟨S3200000x64, .f32⟩
  | .hbm, ⟨105, _⟩ => ⟨S3200000x64, .f32⟩
  | .hbm, ⟨106, _⟩ => ⟨S_, .f32⟩
  | .hbm, ⟨107, _⟩ => ⟨S225000x64, .f32⟩
  | .hbm, ⟨108, _⟩ => ⟨S3200000x1, .i32⟩
  | .hbm, ⟨109, _⟩ => ⟨S225000x64, .f32⟩
  | .hbm, ⟨110, _⟩ => ⟨S1x225000x64, .f32⟩
  | .hbm, ⟨111, _⟩ => ⟨S225000x64, .f32⟩
  | .hbm, ⟨112, _⟩ => ⟨S225000x64, .f32⟩
  | .hbm, ⟨113, _⟩ => ⟨S150000x64, .f32⟩
  | .hbm, ⟨114, _⟩ => ⟨S75000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S3000x64, .f32⟩
  | .local _ .vmem, ⟨19, _⟩ => ⟨S3000x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_cst_1 : Ref sig .tc := ⟨.hbm, 15, rfl⟩
abbrev main_call0_v9 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_v12 : Ref sig .tc := ⟨.hbm, 20, rfl⟩
abbrev main_call0_cst_3 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v13 : Ref sig .tc := ⟨.hbm, 24, rfl⟩
abbrev main_call0_v14 : Ref sig .tc := ⟨.hbm, 25, rfl⟩
abbrev main_call0_cst_4 : Ref sig .tc := ⟨.hbm, 26, rfl⟩
abbrev main_call0_v15 : Ref sig .tc := ⟨.hbm, 27, rfl⟩
abbrev main_call0_v16 : Ref sig .tc := ⟨.hbm, 28, rfl⟩
abbrev main_call0_cst_5 : Ref sig .tc := ⟨.hbm, 29, rfl⟩
abbrev main_call0_call1_v0 : Ref sig .tc := ⟨.hbm, 30, rfl⟩
abbrev main_call0_call1_v1 : Ref sig .tc := ⟨.hbm, 31, rfl⟩
abbrev main_call0_v17 : Ref sig .tc := ⟨.hbm, 32, rfl⟩
abbrev main_call0_c : Ref sig .tc := ⟨.hbm, 33, rfl⟩
abbrev main_call0_v18 : Ref sig .tc := ⟨.hbm, 34, rfl⟩
abbrev main_call0_v19 : Ref sig .tc := ⟨.hbm, 35, rfl⟩
abbrev main_call0_c_6 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_c_7 : Ref sig .tc := ⟨.hbm, 42, rfl⟩
abbrev main_call0_v25 : Ref sig .tc := ⟨.hbm, 43, rfl⟩
abbrev main_call0_v26 : Ref sig .tc := ⟨.hbm, 44, rfl⟩
abbrev main_call0_c_8 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_cst_9 : Ref sig .tc := ⟨.hbm, 52, rfl⟩
abbrev main_call0_v33 : Ref sig .tc := ⟨.hbm, 53, rfl⟩
abbrev main_call0_c_10 : Ref sig .tc := ⟨.hbm, 54, rfl⟩
abbrev main_call0_v34 : Ref sig .tc := ⟨.hbm, 55, rfl⟩
abbrev main_call0_v35 : Ref sig .tc := ⟨.hbm, 56, rfl⟩
abbrev main_call0_c_11 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_cst_12 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49_0 : Ref sig .tc := ⟨.hbm, 72, rfl⟩
abbrev main_call0_v49_1 : Ref sig .tc := ⟨.hbm, 73, rfl⟩
abbrev main_call0_c_13 : Ref sig .tc := ⟨.hbm, 74, rfl⟩
abbrev main_call0_v50 : Ref sig .tc := ⟨.hbm, 75, rfl⟩
abbrev main_call0_v51 : Ref sig .tc := ⟨.hbm, 76, rfl⟩
abbrev main_call0_c_14 : Ref sig .tc := ⟨.hbm, 77, rfl⟩
abbrev main_call0_v52 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_cst_15 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_call0_v63 : Ref sig .tc := ⟨.hbm, 90, rfl⟩
abbrev main_call0_v64 : Ref sig .tc := ⟨.hbm, 91, rfl⟩
abbrev main_call0_v65_0 : Ref sig .tc := ⟨.hbm, 92, rfl⟩
abbrev main_call0_v65_1 : Ref sig .tc := ⟨.hbm, 93, rfl⟩
abbrev main_call0_c_16 : Ref sig .tc := ⟨.hbm, 94, rfl⟩
abbrev main_call0_v66 : Ref sig .tc := ⟨.hbm, 95, rfl⟩
abbrev main_call0_v67 : Ref sig .tc := ⟨.hbm, 96, rfl⟩
abbrev main_call0_c_17 : Ref sig .tc := ⟨.hbm, 97, rfl⟩
abbrev main_call0_v68 : Ref sig .tc := ⟨.hbm, 98, rfl⟩
abbrev main_call0_v69 : Ref sig .tc := ⟨.hbm, 99, rfl⟩
abbrev main_call0_v70 : Ref sig .tc := ⟨.hbm, 100, rfl⟩
abbrev main_call0_v71 : Ref sig .tc := ⟨.hbm, 101, rfl⟩
abbrev main_call0_v72 : Ref sig .tc := ⟨.hbm, 102, rfl⟩
abbrev main_call0_v73 : Ref sig .tc := ⟨.hbm, 103, rfl⟩
abbrev main_call0_v74 : Ref sig .tc := ⟨.hbm, 104, rfl⟩
abbrev main_call0_v75 : Ref sig .tc := ⟨.hbm, 105, rfl⟩
abbrev main_call0_cst_18 : Ref sig .tc := ⟨.hbm, 106, rfl⟩
abbrev main_call0_v76 : Ref sig .tc := ⟨.hbm, 107, rfl⟩
abbrev main_call0_v77 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_v0_0 : Ref sig .tc := ⟨.hbm, 113, rfl⟩
abbrev main_v0_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [BitOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S150000x64_S75000x64_S225000x64_d0 : Shape.Concatenates [S150000x64, S75000x64] S225000x64 0
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S225000 : S_.BroadcastsInDim S225000 (![] : Fin 0 → Fin S225000.rank)
  bcast_S3200000_S3200000x1_0 : S3200000.BroadcastsInDim S3200000x1 (![0] : Fin 1 → Fin S3200000x1.rank)
  bcast_S_S225000x64 : S_.BroadcastsInDim S225000x64 (![] : Fin 0 → Fin S225000x64.rank)
  bcast_S3200000x1_S3200000x64_0_1 : S3200000x1.BroadcastsInDim S3200000x64 (![0, 1] : Fin 2 → Fin S3200000x64.rank)
  slices_S3x225000x64_S1x225000x64_0_0_0 : S3x225000x64.Slices ![0, 0, 0] S1x225000x64
  shapeCasts_S1x225000x64_S225000x64 : S1x225000x64.ShapeCasts S225000x64
  slices_S3x225000x64_S1x225000x64_1_0_0 : S3x225000x64.Slices ![1, 0, 0] S1x225000x64
  slices_S3x225000x64_S1x225000x64_2_0_0 : S3x225000x64.Slices ![2, 0, 0] S1x225000x64
  slices_S225000x64_S150000x64_0_0 : S225000x64.Slices ![0, 0] S150000x64
  slices_S225000x64_S75000x64_150000_0 : S225000x64.Slices ![150000, 0] S75000x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  reduces_S3000x64_S3000 : S3000x64.Reduces [1] S3000
  shapeCasts_S3000_S3000x1 : S3000.ShapeCasts S3000x1
  broadcasts_S3000x1_S3000x64 : S3000x1.Broadcasts S3000x64
  scatter_S225000_S3200000x1_S3200000_n_0_0_1_wf : ScatterDims.WF S225000 S3200000x1 S3200000 [] [0] [0] 1
  gather_S225000_S3200000x1_S3200000_n_0_n_n_0_1_1_wf : GatherDims.WF S225000 S3200000x1 S3200000 [] [0] [] [0] [] 1 ![1]
  gather_S225000x64_S3200000x1_S3200000x64_1_0_n_n_0_1_164_wf : GatherDims.WF S225000x64 S3200000x1 S3200000x64 [1] [0] [] [0] [] 1 ![1, 64]
  scatter_S225000x64_S3200000x1_S3200000x64_1_0_0_1_wf : ScatterDims.WF S225000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S225000x64.size a
  hwx0_0 : ∀ i : grid0.Coords, EltTy.bits .f32 = 32 ∨ (Rect.block (s := S225000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S225000x64.size a
  hwx0_1 : ∀ i : grid0.Coords, EltTy.bits .f32 = 32 ∨ (Rect.block (s := S225000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S225000x64.size a
  hwx0_2 : ∀ i : grid0.Coords, EltTy.bits .f32 = 32 ∨ (Rect.block (s := S225000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S225000x64.size a
  hwx0_3 : ∀ i : grid0.Coords, EltTy.bits .f32 = 32 ∨ (Rect.block (s := S225000x64) S3000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x64.size a ≤ S225000x64.size a
  hwx0_4 : ∀ i : grid0.Coords, EltTy.bits .f32 = 32 ∨ (Rect.block (s := S225000x64) S3000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S225000x64.size a
  hwx1_0 : ∀ i : grid1.Coords, EltTy.bits .f32 = 32 ∨ (Rect.block (s := S225000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S225000x64.size a
  hwx1_1 : ∀ i : grid1.Coords, EltTy.bits .f32 = 32 ∨ (Rect.block (s := S225000x64) S3000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S225000x64.size a
  hwx1_2 : ∀ i : grid1.Coords, EltTy.bits .f32 = 32 ∨ (Rect.block (s := S225000x64) S3000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x64.size a ≤ S225000x64.size a
  hwx1_3 : ∀ i : grid1.Coords, EltTy.bits .f32 = 32 ∨ (Rect.block (s := S225000x64) S3000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x64.size a ≤ S225000x64.size a
  hwx1_4 : ∀ i : grid1.Coords, EltTy.bits .f32 = 32 ∨ (Rect.block (s := S225000x64) S3000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S225000x64.size a
  hwx2_0 : ∀ i : grid2.Coords, EltTy.bits .f32 = 32 ∨ (Rect.block (s := S225000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S225000x64.size a
  hwx2_1 : ∀ i : grid2.Coords, EltTy.bits .f32 = 32 ∨ (Rect.block (s := S225000x64) S3000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S225000x64.size a
  hwx2_2 : ∀ i : grid2.Coords, EltTy.bits .f32 = 32 ∨ (Rect.block (s := S225000x64) S3000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S225000x64.size a
  hwx2_3 : ∀ i : grid2.Coords, EltTy.bits .f32 = 32 ∨ (Rect.block (s := S225000x64) S3000x64.size (cc2_transform_3 i) (hinb2_3 i)).WholeWords (EltTy.packing .f32)

variable [Facts₀]

def scatter_S225000_S3200000x1_S3200000_n_0_0_1 : ScatterDims S225000 S3200000x1 S3200000 where
  updateWindowDims := []
  insertedWindowDims := [0]
  scatterDimsToOperandDims := [0]
  indexVectorDim := 1
  wf := scatter_S225000_S3200000x1_S3200000_n_0_0_1_wf
def gather_S225000_S3200000x1_S3200000_n_0_n_n_0_1_1 : GatherDims S225000 S3200000x1 S3200000 where
  offsetDims := []
  collapsedSliceDims := [0]
  operandBatchingDims := []
  startIndicesBatchingDims := []
  startIndexMap := [0]
  indexVectorDim := 1
  sliceSizes := ![1]
  wf := gather_S225000_S3200000x1_S3200000_n_0_n_n_0_1_1_wf
def gather_S225000x64_S3200000x1_S3200000x64_1_0_n_n_0_1_164 : GatherDims S225000x64 S3200000x1 S3200000x64 where
  offsetDims := [1]
  collapsedSliceDims := [0]
  operandBatchingDims := []
  startIndicesBatchingDims := []
  startIndexMap := [0]
  indexVectorDim := 1
  sliceSizes := ![1, 64]
  wf := gather_S225000x64_S3200000x1_S3200000x64_1_0_n_n_0_1_164_wf
def scatter_S225000x64_S3200000x1_S3200000x64_1_0_0_1 : ScatterDims S225000x64 S3200000x1 S3200000x64 where
  updateWindowDims := [1]
  insertedWindowDims := [0]
  scatterDimsToOperandDims := [0]
  indexVectorDim := 1
  wf := scatter_S225000x64_S3200000x1_S3200000x64_1_0_0_1_wf

abbrev win0_0 : Pipeline.Window sig grid0 :=
  Pipeline.Window.ofSpec (Memref.whole main_call0_v46) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v48) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v33) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v49_0) S3000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v49_1) S3000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v62) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v64) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v49_1) S3000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v65_0) S3000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v65_1) S3000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v78) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v80) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v65_1) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v81) S3000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  halias0_4 : Pipeline.Aliased win0 2 4
  halias1_4 : Pipeline.Aliased win1 2 4
  halias2_3 : Pipeline.Aliased win2 2 3

variable [Facts]
-- ==== ReferenceIdeal.lean ====
abbrev S150000x64 : Shape := ⟨2, ![150000, 64]⟩
abbrev S75000x64 : Shape := ⟨2, ![75000, 64]⟩
abbrev S3x225000x64 : Shape := ⟨3, ![3, 225000, 64]⟩
abbrev S2x3200000 : Shape := ⟨2, ![2, 3200000]⟩
abbrev S225000x64 : Shape := ⟨2, ![225000, 64]⟩
abbrev S1x3200000 : Shape := ⟨2, ![1, 3200000]⟩
abbrev S3200000 : Shape := ⟨1, ![3200000]⟩
abbrev S_ : Shape := ⟨0, ![]⟩
abbrev S225000 : Shape := ⟨1, ![225000]⟩
abbrev S3200000x1 : Shape := ⟨2, ![3200000, 1]⟩
abbrev S3200000x64 : Shape := ⟨2, ![3200000, 64]⟩
abbrev S1x225000x64 : Shape := ⟨3, ![1, 225000, 64]⟩
abbrev S225000x1 : Shape := ⟨2, ![225000, 1]⟩
abbrev S225000x1x64 : Shape := ⟨3, ![225000, 1, 64]⟩
abbrev S225000x3x64 : Shape := ⟨3, ![225000, 3, 64]⟩

abbrev nBuf : Space → Nat
  | .hbm => 168
  | .vmem => 0
  | .smem => 0
  | _ => 0

abbrev hbmTy0_0 (i : Nat) : BufTy := match i % 128 with
  | 0 => ⟨S150000x64, .f32⟩
  | 1 => ⟨S75000x64, .f32⟩
  | 2 => ⟨S3x225000x64, .f32⟩
  | 3 => ⟨S2x3200000, .i32⟩
  | 4 => ⟨S225000x64, .f32⟩
  | 5 => ⟨S1x3200000, .i32⟩
  | 6 => ⟨S3200000, .i32⟩
  | 7 => ⟨S1x3200000, .i32⟩
  | 8 => ⟨S3200000, .i32⟩
  | 9 => ⟨S_, .f32⟩
  | 10 => ⟨S3200000, .f32⟩
  | 11 => ⟨S_, .f32⟩
  | 12 => ⟨S225000, .f32⟩
  | 13 => ⟨S3200000x1, .i32⟩
  | 14 => ⟨S225000, .f32⟩
  | 15 => ⟨S_, .f32⟩
  | 16 => ⟨S225000, .f32⟩
  | 17 => ⟨S225000, .i1⟩
  | 18 => ⟨S_, .f32⟩
  | 19 => ⟨S225000, .f32⟩
  | 20 => ⟨S225000, .i1⟩
  | 21 => ⟨S_, .f32⟩
  | 22 => ⟨S_, .f32⟩
  | 23 => ⟨S225000, .f32⟩
  | 24 => ⟨S225000, .f32⟩
  | 25 => ⟨S225000, .f32⟩
  | 26 => ⟨S_, .f32⟩
  | 27 => ⟨S225000, .f32⟩
  | 28 => ⟨S225000, .f32⟩
  | 29 => ⟨S_, .f32⟩
  | 30 => ⟨S_, .f32⟩
  | 31 => ⟨S225000, .f32⟩
  | 32 => ⟨S225000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S225000x64, .f32⟩
  | 66 => ⟨S3200000x1, .i32⟩
  | 67 => ⟨S225000x64, .f32⟩
  | 68 => ⟨S1x225000x64, .f32⟩
  | 69 => ⟨S225000x64, .f32⟩
  | 70 => ⟨S225000x64, .f32⟩
  | 71 => ⟨S_, .f32⟩
  | 72 => ⟨S225000, .f32⟩
  | 73 => ⟨S225000x1, .f32⟩
  | 74 => ⟨S225000x1, .f32⟩
  | 75 => ⟨S_, .f32⟩
  | 76 => ⟨S_, .f32⟩
  | 77 => ⟨S225000x1, .f32⟩
  | 78 => ⟨S225000x1, .f32⟩
  | 79 => ⟨S225000x64, .f32⟩
  | 80 => ⟨S225000x64, .f32⟩
  | 81 => ⟨S225000x64, .f32⟩
  | 82 => ⟨S225000x64, .f32⟩
  | 83 => ⟨S_, .f32⟩
  | 84 => ⟨S225000x64, .f32⟩
  | 85 => ⟨S225000x64, .f32⟩
  | 86 => ⟨S225000x64, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x64, .f32⟩
  | 96 => ⟨S3200000x1, .f32⟩
  | 97 => ⟨S3200000x64, .f32⟩
  | 98 => ⟨S3200000x64, .f32⟩
  | 99 => ⟨S_, .f32⟩
  | 100 => ⟨S225000x64, .f32⟩
  | 101 => ⟨S3200000x1, .i32⟩
  | 102 => ⟨S225000x64, .f32⟩
  | 103 => ⟨S1x225000x64, .f32⟩
  | 104 => ⟨S225000x64, .f32⟩
  | 105 => ⟨S225000x64, .f32⟩
  | 106 => ⟨S_, .f32⟩
  | 107 => ⟨S225000, .f32⟩
  | 108 => ⟨S225000x1, .f32⟩
  | 109 => ⟨S225000x1, .f32⟩
  | 110 => ⟨S_, .f32⟩
  | 111 => ⟨S_, .f32⟩
  | 112 => ⟨S225000x1, .f32⟩
  | 113 => ⟨S225000x1, .f32⟩
  | 114 => ⟨S225000x64, .f32⟩
  | 115 => ⟨S225000x64, .f32⟩
  | 116 => ⟨S225000x64, .f32⟩
  | 117 => ⟨S225000x64, .f32⟩
  | 118 => ⟨S_, .f32⟩
  | 119 => ⟨S225000x64, .f32⟩
  | 120 => ⟨S225000x64, .f32⟩
  | 121 => ⟨S225000x64, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S150000x64, .f32⟩

abbrev hbmTy0_1 (i : Nat) : BufTy := match i % 128 with
  | 0 => ⟨S3200000, .i32⟩
  | 1 => ⟨S3200000x1, .i32⟩
  | 2 => ⟨S3200000x64, .f32⟩
  | 3 => ⟨S3200000x1, .f32⟩
  | 4 => ⟨S3200000x64, .f32⟩
  | 5 => ⟨S3200000x64, .f32⟩
  | 6 => ⟨S_, .f32⟩
  | 7 => ⟨S225000x64, .f32⟩
  | 8 => ⟨S3200000x1, .i32⟩
  | 9 => ⟨S225000x64, .f32⟩
  | 10 => ⟨S1x225000x64, .f32⟩
  | 11 => ⟨S225000x64, .f32⟩
  | 12 => ⟨S225000x64, .f32⟩
  | 13 => ⟨S_, .f32⟩
  | 14 => ⟨S225000, .f32⟩
  | 15 => ⟨S225000x1, .f32⟩
  | 16 => ⟨S225000x1, .f32⟩
  | 17 => ⟨S_, .f32⟩
  | 18 => ⟨S_, .f32⟩
  | 19 => ⟨S225000x1, .f32⟩
  | 20 => ⟨S225000x1, .f32⟩
  | 21 => ⟨S225000x64, .f32⟩
  | 22 => ⟨S225000x64, .f32⟩
  | 23 => ⟨S225000x64, .f32⟩
  | 24 => ⟨S225000x64, .f32⟩
  | 25 => ⟨S_, .f32⟩
  | 26 => ⟨S225000x64, .f32⟩
  | 27 => ⟨S225000x64, .f32⟩
  | 28 => ⟨S225000x64, .f32⟩
  | 29 => ⟨S225000x1x64, .f32⟩
  | 30 => ⟨S225000x1x64, .f32⟩
  | 31 => ⟨S225000x1x64, .f32⟩
  | 32 => ⟨S225000x3x64, .f32⟩
  | 33 => ⟨S_, .f32⟩
  | 34 => ⟨S225000x64, .f32⟩
  | 35 => ⟨S_, .f32⟩
  | 36 => ⟨S225000x64, .f32⟩
  | 37 => ⟨S225000x64, .f32⟩
  | 38 => ⟨S150000x64, .f32⟩
  | 39 => ⟨S75000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call2_v0 : Ref sig .tc := ⟨.hbm, 70, rfl⟩
abbrev main_call2_cst : Ref sig .tc := ⟨.hbm, 71, rfl⟩
abbrev main_call2_v1 : Ref sig .tc := ⟨.hbm, 72, rfl⟩
abbrev main_call2_v2 : Ref sig .tc := ⟨.hbm, 73, rfl⟩
abbrev main_v48 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call4_v0 : Ref sig .tc := ⟨.hbm, 105, rfl⟩
abbrev main_call4_cst : Ref sig .tc := ⟨.hbm, 106, rfl⟩
abbrev main_call4_v1 : Ref sig .tc := ⟨.hbm, 107, rfl⟩
abbrev main_call4_v2 : Ref sig .tc := ⟨.hbm, 108, rfl⟩
abbrev main_v72 : Ref sig .tc := ⟨.hbm, 109, rfl⟩
abbrev main_cst_17 : Ref sig .tc := ⟨.hbm, 110, rfl⟩
abbrev main_call5_v0 : Ref sig .tc := ⟨.hbm, 111, rfl⟩
abbrev main_call5_v1 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_19 : Ref sig .tc := ⟨.hbm, 122, rfl⟩
abbrev main_v81 : Ref sig .tc := ⟨.hbm, 123, rfl⟩
abbrev main_v82 : Ref sig .tc := ⟨.hbm, 124, rfl⟩
abbrev main_c_20 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_21 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call6_v0 : Ref sig .tc := ⟨.hbm, 140, rfl⟩
abbrev main_call6_cst : Ref sig .tc := ⟨.hbm, 141, rfl⟩
abbrev main_call6_v1 : Ref sig .tc := ⟨.hbm, 142, rfl⟩
abbrev main_call6_v2 : Ref sig .tc := ⟨.hbm, 143, rfl⟩
abbrev main_v96 : Ref sig .tc := ⟨.hbm, 144, rfl⟩
abbrev main_cst_22 : Ref sig .tc := ⟨.hbm, 145, rfl⟩
abbrev main_call7_v0 : Ref sig .tc := ⟨.hbm, 146, rfl⟩
abbrev main_call7_v1 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_24 : Ref sig .tc := ⟨.hbm, 161, rfl⟩
abbrev main_v109 : Ref sig .tc := ⟨.hbm, 162, rfl⟩
abbrev main_cst_25 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩

abbrev nD : Nat := 1
abbrev τ : Topo := Topo.v7x

variable {F : FTy → Type} [FloatOps F]

class Facts₀ : Prop where
  concatenates_S150000x64_S75000x64_S225000x64_d0 : Shape.Concatenates [S150000x64, S75000x64] S225000x64 0
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S225000 : S_.BroadcastsInDim S225000 (![] : Fin 0 → Fin S225000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S225000x64 : S_.BroadcastsInDim S225000x64 (![] : Fin 0 → Fin S225000x64.rank)
  slices_S3x225000x64_S1x225000x64_0_0_0 : S3x225000x64.Slices ![0, 0, 0] S1x225000x64
  shapeCasts_S1x225000x64_S225000x64 : S1x225000x64.ShapeCasts S225000x64
  reducesTo_S225000x64_S225000_d1 : S225000x64.ReducesTo [1] S225000
  h_S_ : 0 < S_.numel
  bcast_S225000_S225000x1_0 : S225000.BroadcastsInDim S225000x1 (![0] : Fin 1 → Fin S225000x1.rank)
  bcast_S_S225000x1 : S_.BroadcastsInDim S225000x1 (![] : Fin 0 → Fin S225000x1.rank)
  bcast_S225000x1_S225000x64_0_1 : S225000x1.BroadcastsInDim S225000x64 (![0, 1] : Fin 2 → Fin S225000x64.rank)
  slices_S3x225000x64_S1x225000x64_1_0_0 : S3x225000x64.Slices ![1, 0, 0] S1x225000x64
  slices_S3x225000x64_S1x225000x64_2_0_0 : S3x225000x64.Slices ![2, 0, 0] S1x225000x64
  bcast_S225000x64_S225000x1x64_0_2 : S225000x64.BroadcastsInDim S225000x1x64 (![0, 2] : Fin 2 → Fin S225000x1x64.rank)
  concatenates_S225000x1x64_S225000x1x64_S225000x1x64_S225000x3x64_d1 : Shape.Concatenates [S225000x1x64, S225000x1x64, S225000x1x64] S225000x3x64 1
  reducesTo_S225000x3x64_S225000x64_d1 : S225000x3x64.ReducesTo [1] S225000x64
  slices_S225000x64_S150000x64_0_0 : S225000x64.Slices ![0, 0] S150000x64
  slices_S225000x64_S75000x64_150000_0 : S225000x64.Slices ![150000, 0] S75000x64
  scatter_S225000_S3200000x1_S3200000_n_0_0_1_wf : ScatterDims.WF S225000 S3200000x1 S3200000 [] [0] [0] 1
  gather_S225000_S3200000x1_S3200000_n_0_n_n_0_1_1_wf : GatherDims.WF S225000 S3200000x1 S3200000 [] [0] [] [0] [] 1 ![1]
  gather_S225000x64_S3200000x1_S3200000x64_1_0_n_n_0_1_164_wf : GatherDims.WF S225000x64 S3200000x1 S3200000x64 [1] [0] [] [0] [] 1 ![1, 64]
  scatter_S225000x64_S3200000x1_S3200000x64_1_0_0_1_wf : ScatterDims.WF S225000x64 S3200000x1 S3200000x64 [1] [0] [0] 1

variable [Facts₀]

def scatter_S225000_S3200000x1_S3200000_n_0_0_1 : ScatterDims S225000 S3200000x1 S3200000 where
  updateWindowDims := []
  insertedWindowDims := [0]
  scatterDimsToOperandDims := [0]
  indexVectorDim := 1
  wf := scatter_S225000_S3200000x1_S3200000_n_0_0_1_wf
def gather_S225000_S3200000x1_S3200000_n_0_n_n_0_1_1 : GatherDims S225000 S3200000x1 S3200000 where
  offsetDims := []
  collapsedSliceDims := [0]
  operandBatchingDims := []
  startIndicesBatchingDims := []
  startIndexMap := [0]
  indexVectorDim := 1
  sliceSizes := ![1]
  wf := gather_S225000_S3200000x1_S3200000_n_0_n_n_0_1_1_wf
def gather_S225000x64_S3200000x1_S3200000x64_1_0_n_n_0_1_164 : GatherDims S225000x64 S3200000x1 S3200000x64 where
  offsetDims := [1]
  collapsedSliceDims := [0]
  operandBatchingDims := []
  startIndicesBatchingDims := []
  startIndexMap := [0]
  indexVectorDim := 1
  sliceSizes := ![1, 64]
  wf := gather_S225000x64_S3200000x1_S3200000x64_1_0_n_n_0_1_164_wf
def scatter_S225000x64_S3200000x1_S3200000x64_1_0_0_1 : ScatterDims S225000x64 S3200000x1 S3200000x64 where
  updateWindowDims := [1]
  insertedWindowDims := [0]
  scatterDimsToOperandDims := [0]
  indexVectorDim := 1
  wf := scatter_S225000x64_S3200000x1_S3200000x64_1_0_0_1_wf

class Facts : Prop extends Facts₀ where

variable [Facts]
-- ==== Proof.KRun.lean ====
/-
  The idealized kernel program's run, with its two results kept.

  @main is seven segments: four stretches of host operations around three pipelined regions. Along them the buffer
  contents at each boundary are a fold from the launch memory (a stretch applies its operations; a region leaves its
  arrays at what its write-backs give and every other buffer as it found it). Every weakly fair execution
  terminates in a state whose unscoped buffers hold the last fold's contents; read at the two result buffers, and at
  the four arguments (which no segment writes), that is the statement here.
-/
import proofs.«112868_j41523743817917_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the contents the
    last boundary's fold gives it, and the arguments as launched. -/
theorem run : θ_run defs (onTc (τ := τ) (main (F := F))) ⟨m, fun _ => 0, ρ⟩ (fun r => ∀ c : Dev nD,
      r.2.mem ((c.tc : Thread nD τ).loc main_v0_0) = W7 m ρ c (Proc.devRef .tc main_v0_0)
      ∧ r.2.mem ((c.tc : Thread nD τ).loc main_v0_1) = W7 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KRun

end
-- ==== Proof.Law.lean ====
/-
  The scalar mathematics of one perturbed layer and of the final mean, on the extended reals.

  One layer adds to an aggregated entry a its sign times a normalised noise entry times a step:
      a + sign(a) · (n / ‖row‖) · ε,
  the row's norm floored. One program floors the SQUARED norm before the inverse square root,
      n · rsqrt(max(ss, f²)),
  the other floors the norm before the division,
      n / max(f, sqrt ss),
  where ss is the row's sum of squares and f > 0 the floor. For a real row these agree: ss is a non-negative real, the
  square root is monotone, so sqrt(max(ss, f²)) = max(sqrt ss, f) > 0, and a product with a reciprocal of a non-zero real is
  the quotient. The sign written as "±1 by the order unless the magnitude is zero, then the value itself" is the sign
  function, at the infinities too. The mean of three layers taken as a running sum from zero times 1/3 is the
  three-term sum from zero divided by 3.
-/
import Mathlib
import Idealize.ShloMosaic.PureOps.Ideal

noncomputable section

namespace Cert.Law

open Idealize.ShloMosaic

/-- The floor of the norm: the value of the binary32 word 0x2B8CBCCC (the float nearest 1e-12). -/
def floorR : ℝ := 2305843 / 2305843009213693952

/-- Its square, exactly. -/
def floorSqR : ℝ := 5316911940649 / 5316911983139663491615228241121378304

theorem floor_pos : 0 < floorR := by unfold floorR; norm_num

theorem floor_sq : floorR * floorR = floorSqR := by unfold floorR floorSqR; norm_num

/-! ## The float words the two programs spell, as extended reals -/

theorem word_floor : Ideal.ofBits .f32 0x2B8CBCCC#32 = ((floorR : ℝ) : EReal) := by
  unfold floorR
  simp [Ideal.ofBits, Ideal.ieee, -EReal.coe_mul]; norm_num

theorem word_zero : Ideal.ofBits .f32 0x00000000#32 = 0 := by
  simp [Ideal.ofBits, Ideal.ieee]

theorem word_one : Ideal.ofBits .f32 0x3F800000#32 = 1 := by
  simp [Ideal.ofBits, Ideal.ieee, -EReal.coe_mul]; norm_num

theorem word_neg_one : Ideal.ofBits .f32 0xBF800000#32 = -1 := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

/-! ## The sign -/

/-- The sign spelt by comparisons: where the magnitude max(x, -x) is positive, -1 below zero and 1 otherwise; where it
    is not, x itself (which is then zero). -/
def selSign (x : EReal) : EReal :=
  Scalar.select (Ideal.cmp .ogt (max x (-x)) 0) (Scalar.select (Ideal.cmp .olt x 0) (-1) 1) x

theorem selSign_eq (x : EReal) : selSign x = Ideal.sign x := by
  unfold selSign Scalar.select Ideal.cmp
  induction x using EReal.rec with
  | bot => simp
  | top => simp
  | coe r =>
    rw [Ideal.sign_coe]
    rcases lt_trichotomy r 0 with h | h | h
    · have h1 : ((r : ℝ) : EReal) < 0 := by exact_mod_cast h
      have h2 : (0 : EReal) < max (r : EReal) (-(r : EReal)) := by
        apply lt_max_of_lt_right
        rw [← EReal.coe_neg]; exact_mod_cast neg_pos.mpr h
      simp [h1, h2, sign_neg h]
    · subst h; simp
    · have h1 : ¬ ((r : ℝ) : EReal) < 0 := by
        rw [not_lt]; exact_mod_cast h.le
      have h2 : (0 : EReal) < max (r : EReal) (-(r : EReal)) := by
        apply lt_max_of_lt_left; exact_mod_cast h
      simp [h1, h2, sign_pos h]

/-! ## The floored normalisation -/

/-- A finite sum of real numbers read on the extended reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Flooring under the root against flooring after it, over the reals. -/
theorem real_floor (s f : ℝ) (hs : 0 ≤ s) (hf : 0 < f) : (Real.sqrt (max s (f * f)))⁻¹ = 1 / max f (Real.sqrt s) := by
  have hsq : Real.sqrt (f * f) = f := Real.sqrt_mul_self hf.le
  have : Real.sqrt (max s (f * f)) = max f (Real.sqrt s) := by
    rcases le_total s (f * f) with h | h
    · rw [max_eq_right h, hsq]
      have : Real.sqrt s ≤ f := by
        calc Real.sqrt s ≤ Real.sqrt (f * f) := Real.sqrt_le_sqrt h
          _ = f := hsq
      rw [max_eq_left this]
    · rw [max_eq_left h]
      have : f ≤ Real.sqrt s := by
        calc f = Real.sqrt (f * f) := hsq.symm
          _ ≤ Real.sqrt s := Real.sqrt_le_sqrt h
      rw [max_eq_right this]
  rw [this, one_div]

/-- The normalised noise entry, both ways, for a real row: the product with the inverse square root of the floored sum of
    squares is the quotient by the floored norm (the sum taken from zero). -/
theorem norm_floor {K : ℕ} (nz : Fin K → ℝ) (j : Fin K) :
    ((nz j : ℝ) : EReal) * Ideal.rsqrt (max (∑ k : Fin K, ((nz k : ℝ) : EReal) * ((nz k : ℝ) : EReal)) ((floorSqR : ℝ) : EReal))
      = Ideal.div ((nz j : ℝ) : EReal) (max ((floorR : ℝ) : EReal) (Ideal.sqrt (0 + ∑ k : Fin K, ((nz k : ℝ) : EReal) * ((nz k : ℝ) : EReal)))) := by
  have hsum : (∑ k : Fin K, ((nz k : ℝ) : EReal) * ((nz k : ℝ) : EReal)) = ((∑ k : Fin K, nz k * nz k : ℝ) : EReal) := by
    rw [← coe_sum]; exact Finset.sum_congr rfl fun k _ => (EReal.coe_mul _ _).symm
  set s : ℝ := ∑ k : Fin K, nz k * nz k with hs
  have hs0 : 0 ≤ s := Finset.sum_nonneg fun k _ => mul_self_nonneg (nz k)
  rw [hsum, zero_add]
  have hM : 0 < max s floorSqR := lt_max_of_lt_right (by rw [← floor_sq]; exact mul_pos floor_pos floor_pos)
  have e1 : max ((s : ℝ) : EReal) ((floorSqR : ℝ) : EReal) = ((max s floorSqR : ℝ) : EReal) := (EReal.coe_strictMono.monotone.map_max).symm
  rw [e1, Ideal.rsqrt_coe, if_neg (not_lt.mpr hM.le), if_neg hM.ne', Ideal.sqrt_coe, if_neg (not_lt.mpr hs0)]
  have e2 : max ((floorR : ℝ) : EReal) ((Real.sqrt s : ℝ) : EReal) = ((max floorR (Real.sqrt s) : ℝ) : EReal) := (EReal.coe_strictMono.monotone.map_max).symm
  have hD : max floorR (Real.sqrt s) ≠ 0 := (lt_max_of_lt_left floor_pos).ne'
  rw [e2, Ideal.div_coe hD, ← floor_sq, real_floor s floorR hs0 floor_pos]

/-! ## One layer, and the mean -/

/-- One perturbed entry with the squared norm floored under the inverse root. -/
def layerSq (a n ss c ε : EReal) : EReal := a + selSign a * (n * Ideal.rsqrt (max ss c)) * ε

/-- One perturbed entry with the norm floored before the division, the row's sum taken from zero. -/
def layerDiv (a n ss f ε : EReal) : EReal := a + Ideal.sign a * Ideal.div n (max f (Ideal.sqrt (0 + ss))) * ε

/-- The two forms of a layer agree on a real noise row, whatever the aggregated entry and the step. -/
theorem layer_eq {K : ℕ} (a ε : EReal) (nz : Fin K → ℝ) (j : Fin K) :
    layerSq a (nz j : ℝ) (∑ k : Fin K, ((nz k : ℝ) : EReal) * ((nz k : ℝ) : EReal)) ((floorSqR : ℝ) : EReal) ε
      = layerDiv a (nz j : ℝ) (∑ k : Fin K, ((nz k : ℝ) : EReal) * ((nz k : ℝ) : EReal)) ((floorR : ℝ) : EReal) ε := by
  unfold layerSq layerDiv
  rw [selSign_eq, norm_floor]

/-- One third, as an extended real. -/
def third : EReal := (((1 / 3 : ℝ) : ℝ) : EReal)

/-- The running sum of three layers from zero, times 1/3, is their sum from zero divided by 3. -/
theorem mean3 (x1 x2 x3 : EReal) :
    (((0 + x1) + x2) + x3) * third = Ideal.div (0 + (x1 + x2 + x3)) ((3 : ℝ) : EReal) := by
  unfold third
  rw [Ideal.div_coe (by norm_num : (3 : ℝ) ≠ 0)]
  simp only [zero_add]

end Cert.Law

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  The kernels' arithmetic at one entry of a block.

  Each of the three kernel bodies loads a block of aggregated rows x0 and the same block of noise rows x2 (the third body
  also the running sum), and stores, entry by entry at row p and column q,
      x0(p,q) + sign(x0(p,q)) · (x2(p,q) · rsqrt(max(Σ_k x2(p,k)², f²))) · ε :
  the sum of squares runs along the row, inside the block, and is laid back along the row as a column. The first two bodies
  also store the running sum plus that entry; the third stores (running sum + that entry) · 1/3.
-/
import proofs.«112868_j41523743817917_2_alg».proof.Proof.Gen.KernelIdeal.Skeleton
import proofs.«112868_j41523743817917_2_alg».proof.Proof.Law
import proofs.«112868_j41523743817917_2_alg».proof.Proof.LibRowSum
import proofs.«112868_j41523743817917_2_alg».proof.Proof.LibColumn
import Idealize.ShloMosaic.Lib.Pipeline.Value
import Idealize.ShloMosaic.PureOps.IdealRules

noncomputable section

namespace Cert.KernelIdeal.KBody

open Cert.KernelIdeal Cert.KernelIdeal.Gen Idealize.ShloMosaic Idealize.ShloMosaic.ValueIdx

/-- The squared floor's name denotes the exact square of the floor. -/
theorem named_floor : Named.named (F := Ideal) κ "norm_floor_sq" (φ := .f32) 0x179ABE15#32 = ((Cert.Law.floorSqR : ℝ) : EReal) := by
  unfold Cert.Law.floorSqR
  exact IdealRules.named_const.ideal_named_scalar _ _ _ _ rfl

/-- The mean's factor denotes one third. -/
theorem named_third : Named.named (F := Ideal) κ "inv_3" (φ := .f32) 0x3EAAAAAB#32 = ((1 / 3 : ℝ) : EReal) :=
  IdealRules.named_const.ideal_named_scalar _ _ _ _ rfl

/-- The floored sum of squares of row p of a noise block, as the column entry the body broadcasts along the row. -/
theorem floored_rowsq (x2 : FVec Ideal S3000x64 .f32) (p : Fin 3000) :
    maximumf (shapeCast S3000x1 (multiReduction (F := Ideal) .add [1] S3000 (mulf x2 x2) 0x00000000#32 reduces_S3000x64_S3000 (.inl rfl) rfl) shapeCasts_S3000_S3000x1)
        (broadcast S3000x1 (Named.named (F := Ideal) κ "norm_floor_sq" (φ := .f32) 0x179ABE15#32)) (ix2 p (0 : Fin 1))
      = max (∑ k : Fin 64, x2 (ix2 p k) * x2 (ix2 p k)) ((Cert.Law.floorSqR : ℝ) : EReal) := by
  show max (shapeCast S3000x1 (multiReduction (F := Ideal) .add [1] S3000 (mulf x2 x2) 0x00000000#32 reduces_S3000x64_S3000 (.inl rfl) rfl) shapeCasts_S3000_S3000x1 (ix2 p (0 : Fin 1)))
      (Named.named (F := Ideal) κ "norm_floor_sq" (φ := .f32) 0x179ABE15#32) = _
  rw [named_floor]
  refine congrArg (max · _) ?_
  refine (shapeCast_a_a1_apply _ shapeCasts_S3000_S3000x1 p (0 : Fin 1)).trans ?_
  exact multiReduction_add_rows_apply (mulf x2 x2) reduces_S3000x64_S3000 (.inl rfl) rfl p

/-- The perturbed entry as the first two bodies compute it. -/
def layerTerm (x0 x2 : FVec Ideal S3000x64 .f32) : FVec Ideal S3000x64 .f32 :=
  addf x0 (mulf (mulf (select (cmpf .ogt (absf x0) (broadcast S3000x64 (Scalar.ofBits (F := Ideal) .f32 0x00000000#32)))
      (select (cmpf .olt x0 (constant (F := Ideal) S3000x64 .f32 0x00000000#32)) (constant (F := Ideal) S3000x64 .f32 0xBF800000#32) (constant (F := Ideal) S3000x64 .f32 0x3F800000#32)) x0)
    (mulf x2 (broadcastTo S3000x64 (rsqrt (maximumf (shapeCast S3000x1 (multiReduction (F := Ideal) .add [1] S3000 (mulf x2 x2) 0x00000000#32 reduces_S3000x64_S3000 (.inl rfl) rfl) shapeCasts_S3000_S3000x1)
        (broadcast S3000x1 (Named.named (F := Ideal) κ "norm_floor_sq" (φ := .f32) 0x179ABE15#32)))) broadcasts_S3000x1_S3000x64)))
    (broadcast S3000x64 (Scalar.ofBits (F := Ideal) .f32 0x3DCCCCCD#32)))

/-- That term at row p, column q. -/
theorem layerTerm_apply (x0 x2 : FVec Ideal S3000x64 .f32) (p : Fin 3000) (q : Fin 64) :
    layerTerm x0 x2 (ix2 p q) = Cert.Law.layerSq (x0 (ix2 p q)) (x2 (ix2 p q)) (∑ k : Fin 64, x2 (ix2 p k) * x2 (ix2 p k))
      ((Cert.Law.floorSqR : ℝ) : EReal) (Ideal.ofBits .f32 0x3DCCCCCD#32) := by
  unfold layerTerm Cert.Law.layerSq Cert.Law.selSign
  show x0 (ix2 p q) + Scalar.select (Ideal.cmp .ogt (max (x0 (ix2 p q)) (-(x0 (ix2 p q)))) (Ideal.ofBits .f32 0x00000000#32))
        (Scalar.select (Ideal.cmp .olt (x0 (ix2 p q)) (Ideal.ofBits .f32 0x00000000#32)) (Ideal.ofBits .f32 0xBF800000#32) (Ideal.ofBits .f32 0x3F800000#32)) (x0 (ix2 p q))
      * (x2 (ix2 p q) * broadcastTo S3000x64 (rsqrt (maximumf (shapeCast S3000x1 (multiReduction (F := Ideal) .add [1] S3000 (mulf x2 x2) 0x00000000#32 reduces_S3000x64_S3000 (.inl rfl) rfl) shapeCasts_S3000_S3000x1)
        (broadcast S3000x1 (Named.named (F := Ideal) κ "norm_floor_sq" (φ := .f32) 0x179ABE15#32)))) broadcasts_S3000x1_S3000x64 (ix2 p q))
      * Ideal.ofBits .f32 0x3DCCCCCD#32 = _
  rw [Cert.Law.word_zero, Cert.Law.word_one, Cert.Law.word_neg_one, broadcastTo_a1_ab_apply _ broadcasts_S3000x1_S3000x64 p q]
  show _ + _ * (_ * Ideal.rsqrt (maximumf (shapeCast S3000x1 (multiReduction (F := Ideal) .add [1] S3000 (mulf x2 x2) 0x00000000#32 reduces_S3000x64_S3000 (.inl rfl) rfl) shapeCasts_S3000_S3000x1)
        (broadcast S3000x1 (Named.named (F := Ideal) κ "norm_floor_sq" (φ := .f32) 0x179ABE15#32)) (ix2 p (0 : Fin 1)))) * _ = _
  rw [floored_rowsq]

/-- The first body's first store is the perturbed entry. -/
theorem pay0_1 (x0 x2 : Vec Ideal S3000x64 .f32) : k0_pay1 (F := Ideal) x0 x2 = layerTerm x0 x2 := by
  unfold k0_pay1 layerTerm
  simp only [shapeCast_self]

/-- The first body's second store adds it to the running sum. -/
theorem pay0_2 (x0 x2 x27 : Vec Ideal S3000x64 .f32) : k0_pay2 (F := Ideal) x0 x2 x27 = addf x27 (layerTerm x0 x2) := by
  unfold k0_pay2
  simp only [shapeCast_self, pay0_1]

theorem pay1_1 (x0 x2 : Vec Ideal S3000x64 .f32) : k1_pay1 (F := Ideal) x0 x2 = layerTerm x0 x2 := by
  unfold k1_pay1 layerTerm
  simp only [shapeCast_self]

theorem pay1_2 (x0 x2 x27 : Vec Ideal S3000x64 .f32) : k1_pay2 (F := Ideal) x0 x2 x27 = addf x27 (layerTerm x0 x2) := by
  unfold k1_pay2
  simp only [shapeCast_self, pay1_1]

/-- The last body's store: the running sum plus the perturbed entry, times the mean's factor. -/
theorem pay2_1 (x0 x2 x26 : Vec Ideal S3000x64 .f32) :
    k2_pay1 (F := Ideal) x0 x2 x26 = mulf (addf x26 (layerTerm x0 x2)) (broadcast S3000x64 (Named.named (F := Ideal) κ "inv_3" (φ := .f32) 0x3EAAAAAB#32)) := by
  unfold k2_pay1 layerTerm
  simp only [shapeCast_self]

/-- The running sum plus the perturbed entry, at an entry. -/
theorem acc_apply (x27 x0 x2 : FVec Ideal S3000x64 .f32) (p : Fin 3000) (q : Fin 64) :
    addf x27 (layerTerm x0 x2) (ix2 p q) = x27 (ix2 p q) + layerTerm x0 x2 (ix2 p q) := rfl

/-- (Running sum + perturbed entry) · 1/3, at an entry. -/
theorem mean_apply (x26 x0 x2 : FVec Ideal S3000x64 .f32) (p : Fin 3000) (q : Fin 64) :
    mulf (addf x26 (layerTerm x0 x2)) (broadcast S3000x64 (Named.named (F := Ideal) κ "inv_3" (φ := .f32) 0x3EAAAAAB#32)) (ix2 p q)
      = addf x26 (layerTerm x0 x2) (ix2 p q) * Cert.Law.third := by
  show addf x26 (layerTerm x0 x2) (ix2 p q) * Named.named (F := Ideal) κ "inv_3" (φ := .f32) 0x3EAAAAAB#32 = _
  rw [named_third]
  rfl

end Cert.KernelIdeal.KBody

end
-- ==== Proof.KArr.lean ====
/-
  One perturbed layer over whole node tables.

  A node table is an array of 225000 rows of 64 entries. Entry (r, j) of a perturbed layer depends on the aggregated
  entry (r, j), the noise entry (r, j), and the whole noise row r through its sum of squares. The running sum adds a
  layer to an accumulator entry by entry; the mean takes (accumulator + layer) · 1/3.
-/
import proofs.«112868_j41523743817917_2_alg».proof.Proof.Law
import Idealize.ShloMosaic.Lib.ValueIdx

noncomputable section

namespace Cert.KArr

open Idealize.ShloMosaic Idealize.ShloMosaic.ValueIdx

/-- The shape of a node table. -/
abbrev SN : Shape := ⟨2, ![225000, 64]⟩

/-- Entry (r, j) of one layer, the squared norm floored under the inverse root, the step the binary32 word of 0.1. -/
def layerAt (A NZ : FVec Ideal SN .f32) (r : Fin 225000) (j : Fin 64) : EReal :=
  Cert.Law.layerSq (A (ix2 r j)) (NZ (ix2 r j)) (∑ k : Fin 64, NZ (ix2 r k) * NZ (ix2 r k))
    ((Cert.Law.floorSqR : ℝ) : EReal) (Ideal.ofBits .f32 0x3DCCCCCD#32)

/-- One layer as a table. -/
def layerArr (A NZ : FVec Ideal SN .f32) : FVec Ideal SN .f32 :=
  fun i => layerAt A NZ ⟨(i 0).val, idx2_lt0 i⟩ ⟨(i 1).val, idx2_lt1 i⟩

theorem layerArr_apply (A NZ : FVec Ideal SN .f32) (r : Fin 225000) (j : Fin 64) :
    layerArr A NZ (ix2 r j) = layerAt A NZ r j := rfl

/-- The running sum after a layer. -/
def accArr (ACC A NZ : FVec Ideal SN .f32) : FVec Ideal SN .f32 := fun i => ACC i + layerArr A NZ i

/-- The mean after the last layer. -/
def meanArr (ACC A NZ : FVec Ideal SN .f32) : FVec Ideal SN .f32 :=
  fun i => accArr ACC A NZ i * Cert.Law.third

theorem accArr_apply (ACC A NZ : FVec Ideal SN .f32) (r : Fin 225000) (j : Fin 64) :
    accArr ACC A NZ (ix2 r j) = ACC (ix2 r j) + layerAt A NZ r j := rfl

end Cert.KArr

end
-- ==== Proof.KReg0.lean ====
/-
  Region 0 of the kernel program as whole tables.

  The region runs its body at 75 grid points; point t sees rows 3000·t … 3000·t + 2999 of every one of its tables (all 64
  columns) and writes the same rows of its outputs back. A row's sum of squares only needs that row, which lies inside
  one block, so each output table ends as one entry-by-entry function of the tables the region was entered with:
  the perturbed layer, and the running sum plus that layer.
-/
import proofs.«112868_j41523743817917_2_alg».proof.Proof.Gen.KernelIdeal.Frame
import proofs.«112868_j41523743817917_2_alg».proof.Proof.KBody
import proofs.«112868_j41523743817917_2_alg».proof.Proof.KArr
import Idealize.ShloMosaic.Lib.Pipeline.Value

set_option maxRecDepth 16384

noncomputable section

namespace Cert.KernelIdeal.KReg0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point t is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the block at point t is row 3000·t + p of the table. -/
def row (t : Fin cfg0.N) (p : Fin 3000) : Fin 225000 :=
  ⟨3000 * t.val + p.val, by
    have ht : t.val < 75 := lt_of_lt_of_eq t.isLt N_0
    have hp := p.isLt
    omega⟩

/-- Entry (p, q) of window 0's block at point t is entry (3000·t + p, q) of its array. -/
theorem emb_0 (t : Fin cfg0.N) (p : Fin 3000) (q : Fin 64) :
    ((cfg0.win 0).blk t).view.emb (ix2 p q) = ix2 (row t p) q := by
  obtain ⟨e00, e01, e10, e11, e20, e21, e30, e31, e40, e41⟩ := idx_facts t
  funext a; apply Fin.ext
  match a with
  | ⟨0, _⟩ => show win0_0.index t (0 : Fin 2) * 3000 + 1 * p.val = 3000 * t.val + p.val; omega
  | ⟨1, _⟩ => show win0_0.index t (1 : Fin 2) * 64 + 1 * q.val = q.val; omega

/-- Entry (p, q) of window 1's block at point t is entry (3000·t + p, q) of its array. -/
theorem emb_1 (t : Fin cfg0.N) (p : Fin 3000) (q : Fin 64) :
    ((cfg0.win 1).blk t).view.emb (ix2 p q) = ix2 (row t p) q := by
  obtain ⟨e00, e01, e10, e11, e20, e21, e30, e31, e40, e41⟩ := idx_facts t
  funext a; apply Fin.ext
  match a with
  | ⟨0, _⟩ => show win0_1.index t (0 : Fin 2) * 3000 + 1 * p.val = 3000 * t.val + p.val; omega
  | ⟨1, _⟩ => show win0_1.index t (1 : Fin 2) * 64 + 1 * q.val = q.val; omega

/-- Entry (p, q) of window 2's block at point t is entry (3000·t + p, q) of its array. -/
theorem emb_2 (t : Fin cfg0.N) (p : Fin 3000) (q : Fin 64) :
    ((cfg0.win 2).blk t).view.emb (ix2 p q) = ix2 (row t p) q := by
  obtain ⟨e00, e01, e10, e11, e20, e21, e30, e31, e40, e41⟩ := idx_facts t
  funext a; apply Fin.ext
  match a with
  | ⟨0, _⟩ => show win0_2.index t (0 : Fin 2) * 3000 + 1 * p.val = 3000 * t.val + p.val; omega
  | ⟨1, _⟩ => show win0_2.index t (1 : Fin 2) * 64 + 1 * q.val = q.val; omega

/-- Entry (p, q) of window 3's block at point t is entry (3000·t + p, q) of its array. -/
theorem emb_3 (t : Fin cfg0.N) (p : Fin 3000) (q : Fin 64) :
    ((cfg0.win 3).blk t).view.emb (ix2 p q) = ix2 (row t p) q := by
  obtain ⟨e00, e01, e10, e11, e20, e21, e30, e31, e40, e41⟩ := idx_facts t
  funext a; apply Fin.ext
  match a with
  | ⟨0, _⟩ => show win0_3.index t (0 : Fin 2) * 3000 + 1 * p.val = 3000 * t.val + p.val; omega
  | ⟨1, _⟩ => show win0_3.index t (1 : Fin 2) * 64 + 1 * q.val = q.val; omega

/-- Entry (p, q) of window 4's block at point t is entry (3000·t + p, q) of its array. -/
theorem emb_4 (t : Fin cfg0.N) (p : Fin 3000) (q : Fin 64) :
    ((cfg0.win 4).blk t).view.emb (ix2 p q) = ix2 (row t p) q := by
  obtain ⟨e00, e01, e10, e11, e20, e21, e30, e31, e40, e41⟩ := idx_facts t
  funext a; apply Fin.ext
  match a with
  | ⟨0, _⟩ => show win0_4.index t (0 : Fin 2) * 3000 + 1 * p.val = 3000 * t.val + p.val; omega
  | ⟨1, _⟩ => show win0_4.index t (1 : Fin 2) * 64 + 1 * q.val = q.val; omega

theorem blk_0 (c : Dev nD) (t : Fin cfg0.N) (p : Fin 3000) (q : Fin 64) :
    iblk0 V c 0 t (ix2 p q) = V c (Pipeline.arrRef spec0 0) (ix2 (row t p) q) := by
  show V c (Pipeline.arrRef spec0 0) (((cfg0.win 0).blk t).view.emb (ix2 p q)) = _
  rw [emb_0]

theorem blk_1 (c : Dev nD) (t : Fin cfg0.N) (p : Fin 3000) (q : Fin 64) :
    iblk0 V c 1 t (ix2 p q) = V c (Pipeline.arrRef spec0 1) (ix2 (row t p) q) := by
  show V c (Pipeline.arrRef spec0 1) (((cfg0.win 1).blk t).view.emb (ix2 p q)) = _
  rw [emb_1]

theorem blk_2 (c : Dev nD) (t : Fin cfg0.N) (p : Fin 3000) (q : Fin 64) :
    iblk0 V c 2 t (ix2 p q) = V c (Pipeline.arrRef spec0 2) (ix2 (row t p) q) := by
  show V c (Pipeline.arrRef spec0 2) (((cfg0.win 2).blk t).view.emb (ix2 p q)) = _
  rw [emb_2]

/-- An index of the array is in point t's block of window 3 iff each coordinate is in the block's range. -/
theorem mem_blk_3 (t : Fin cfg0.N) (i : S225000x64.Idx) :
    i ∈ ((cfg0.win 3).blk t).view.set ↔ ∀ a : Fin 2, win0_3.index t a * S3000x64.size a ≤ (i a).val ∧ (i a).val < win0_3.index t a * S3000x64.size a + S3000x64.size a := by
  show i ∈ ((View.whole main_call0_v49_0).slice (win0_3.rect t)).set ↔ _
  rw [View.set_slice_whole, Rect.mem_set_unit]
  exact Iff.rfl

/-- The 75 blocks of 3000 rows tile the table: row r lies in the block of point r / 3000. -/
theorem cover_3 (i : S225000x64.Idx) : ∃ t : Fin cfg0.N, (cfg0.win 3).flush t = true ∧ i ∈ ((cfg0.win 3).blk t).view.set := by
  have hi0 : (i 0).val < 225000 := (i 0).isLt
  have hi1 : (i 1).val < 64 := (i 1).isLt
  have hN : grid0.N = 75 := N_0
  have hlt : (i 0).val / 3000 < cfg0.N := by show (i 0).val / 3000 < grid0.N; rw [hN]; omega
  obtain ⟨e00, e01, e10, e11, e20, e21, e30, e31, e40, e41⟩ := idx_facts (⟨(i 0).val / 3000, hlt⟩ : Fin cfg0.N)
  have e0' : win0_3.index (⟨(i 0).val / 3000, hlt⟩ : Fin cfg0.N) (0 : Fin 2) = (i 0).val / 3000 := e30
  refine ⟨⟨(i 0).val / 3000, hlt⟩, flush0_3 _, ?_⟩
  rw [mem_blk_3]
  intro a
  match a with
  | ⟨0, _⟩ =>
    show win0_3.index (⟨(i 0).val / 3000, hlt⟩ : Fin cfg0.N) (0 : Fin 2) * 3000 ≤ (i 0).val ∧ (i 0).val < win0_3.index (⟨(i 0).val / 3000, hlt⟩ : Fin cfg0.N) (0 : Fin 2) * 3000 + 3000
    rw [e0']; omega
  | ⟨1, _⟩ =>
    show win0_3.index (⟨(i 0).val / 3000, hlt⟩ : Fin cfg0.N) (1 : Fin 2) * 64 ≤ (i 1).val ∧ (i 1).val < win0_3.index (⟨(i 0).val / 3000, hlt⟩ : Fin cfg0.N) (1 : Fin 2) * 64 + 64
    rw [e31]; omega

/-- An index of the array is in point t's block of window 4 iff each coordinate is in the block's range. -/
theorem mem_blk_4 (t : Fin cfg0.N) (i : S225000x64.Idx) :
    i ∈ ((cfg0.win 4).blk t).view.set ↔ ∀ a : Fin 2, win0_4.index t a * S3000x64.size a ≤ (i a).val ∧ (i a).val < win0_4.index t a * S3000x64.size a + S3000x64.size a := by
  show i ∈ ((View.whole main_call0_v49_1).slice (win0_4.rect t)).set ↔ _
  rw [View.set_slice_whole, Rect.mem_set_unit]
  exact Iff.rfl

/-- The 75 blocks of 3000 rows tile the table: row r lies in the block of point r / 3000. -/
theorem cover_4 (i : S225000x64.Idx) : ∃ t : Fin cfg0.N, (cfg0.win 4).flush t = true ∧ i ∈ ((cfg0.win 4).blk t).view.set := by
  have hi0 : (i 0).val < 225000 := (i 0).isLt
  have hi1 : (i 1).val < 64 := (i 1).isLt
  have hN : grid0.N = 75 := N_0
  have hlt : (i 0).val / 3000 < cfg0.N := by show (i 0).val / 3000 < grid0.N; rw [hN]; omega
  obtain ⟨e00, e01, e10, e11, e20, e21, e30, e31, e40, e41⟩ := idx_facts (⟨(i 0).val / 3000, hlt⟩ : Fin cfg0.N)
  have e0' : win0_4.index (⟨(i 0).val / 3000, hlt⟩ : Fin cfg0.N) (0 : Fin 2) = (i 0).val / 3000 := e40
  refine ⟨⟨(i 0).val / 3000, hlt⟩, flush0_4 _, ?_⟩
  rw [mem_blk_4]
  intro a
  match a with
  | ⟨0, _⟩ =>
    show win0_4.index (⟨(i 0).val / 3000, hlt⟩ : Fin cfg0.N) (0 : Fin 2) * 3000 ≤ (i 0).val ∧ (i 0).val < win0_4.index (⟨(i 0).val / 3000, hlt⟩ : Fin cfg0.N) (0 : Fin 2) * 3000 + 3000
    rw [e0']; omega
  | ⟨1, _⟩ =>
    show win0_4.index (⟨(i 0).val / 3000, hlt⟩ : Fin cfg0.N) (1 : Fin 2) * 64 ≤ (i 1).val ∧ (i 1).val < win0_4.index (⟨(i 0).val / 3000, hlt⟩ : Fin cfg0.N) (1 : Fin 2) * 64 + 64
    rw [e41]; omega

set_option maxHeartbeats 4000000 in
/-- What point t writes back through window 3 is block t of the perturbed layer of the region's aggregated and noise tables. -/
theorem flushed_3 (c : Dev nD) (t : Fin cfg0.N) :
    (dat0 V c).flushed 3 t = ((cfg0.win 3).blk t).view.read (Elt Ideal)
      (Cert.KArr.layerArr (V c (Pipeline.arrRef spec0 0)) (V c (Pipeline.arrRef spec0 1))) := by
  show (cfg0.win 3).cut (grid0.coords t) ((dat0 V c).after 3 t) = _
  rw [after0_3]
  unfold out0_3
  rw [View.canon_unit_zero hz]
  simp only [View.ld_unit_zero (S := S3000x64) hz]
  rw [Cert.KernelIdeal.KBody.pay0_1]
  funext j
  obtain ⟨p, q, rfl⟩ : ∃ (p : Fin 3000) (q : Fin 64), j = ix2 p q := ⟨j 0, j 1, eq_ix2 j⟩
  show Cert.KernelIdeal.KBody.layerTerm (iblk0 V c 0 t) (iblk0 V c 1 t) (ix2 p q)
    = Cert.KArr.layerArr (V c (Pipeline.arrRef spec0 0)) (V c (Pipeline.arrRef spec0 1)) (((cfg0.win 3).blk t).view.emb (ix2 p q))
  rw [Cert.KernelIdeal.KBody.layerTerm_apply, emb_3, Cert.KArr.layerArr_apply]
  unfold Cert.KArr.layerAt
  simp only [blk_0, blk_1]

/-- Window 3's array after the region: the perturbed layer. -/
theorem final_3 (c : Dev nD) : (dat0 V c).arrAt 3 cfg0.N
    = Cert.KArr.layerArr (V c (Pipeline.arrRef spec0 0)) (V c (Pipeline.arrRef spec0 1)) :=
  (dat0 V c).arrAt_eq_of_cover 3 _ (fun t _ => flushed_3 V c t) cover_3

set_option maxHeartbeats 4000000 in
/-- What point t writes back through window 4 is block t of the running sum plus the layer. -/
theorem flushed_4 (c : Dev nD) (t : Fin cfg0.N) :
    (dat0 V c).flushed 4 t = ((cfg0.win 4).blk t).view.read (Elt Ideal)
      (Cert.KArr.accArr (V c (Pipeline.arrRef spec0 2)) (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S3000x64) hz]
  rw [Cert.KernelIdeal.KBody.pay0_2]
  funext j
  obtain ⟨p, q, rfl⟩ : ∃ (p : Fin 3000) (q : Fin 64), j = ix2 p q := ⟨j 0, j 1, eq_ix2 j⟩
  show addf (iblk0 V c 2 t) (Cert.KernelIdeal.KBody.layerTerm (iblk0 V c 0 t) (iblk0 V c 1 t)) (ix2 p q)
    = Cert.KArr.accArr (V c (Pipeline.arrRef spec0 2)) (V c (Pipeline.arrRef spec0 0)) (V c (Pipeline.arrRef spec0 1)) (((cfg0.win 4).blk t).view.emb (ix2 p q))
  rw [Cert.KernelIdeal.KBody.acc_apply, Cert.KernelIdeal.KBody.layerTerm_apply, emb_4, Cert.KArr.accArr_apply]
  unfold Cert.KArr.layerAt
  simp only [blk_0, blk_1, blk_2]

/-- Window 4's array after the region: the running sum plus the layer. -/
theorem final_4 (c : Dev nD) : (dat0 V c).arrAt 4 cfg0.N
    = Cert.KArr.accArr (V c (Pipeline.arrRef spec0 2)) (V c (Pipeline.arrRef spec0 0)) (V c (Pipeline.arrRef spec0 1)) :=
  (dat0 V c).arrAt_eq_of_cover 4 _ (fun t _ => flushed_4 V c t) cover_4

end Cert.KernelIdeal.KReg0

end
-- ==== Proof.KReg1.lean ====
/-
  Region 1 of the kernel program as whole tables.

  The region runs its body at 75 grid points; point t sees rows 3000·t … 3000·t + 2999 of every one of its tables (all 64
  columns) and writes the same rows of its outputs back. A row's sum of squares only needs that row, which lies inside
  one block, so each output table ends as one entry-by-entry function of the tables the region was entered with:
  the perturbed layer, and the running sum plus that layer.
-/
import proofs.«112868_j41523743817917_2_alg».proof.Proof.Gen.KernelIdeal.Frame
import proofs.«112868_j41523743817917_2_alg».proof.Proof.KBody
import proofs.«112868_j41523743817917_2_alg».proof.Proof.KArr
import Idealize.ShloMosaic.Lib.Pipeline.Value

set_option maxRecDepth 16384

noncomputable section

namespace Cert.KernelIdeal.KReg1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point t is block (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of the block at point t is row 3000·t + p of the table. -/
def row (t : Fin cfg1.N) (p : Fin 3000) : Fin 225000 :=
  ⟨3000 * t.val + p.val, by
    have ht : t.val < 75 := lt_of_lt_of_eq t.isLt N_1
    have hp := p.isLt
    omega⟩

/-- Entry (p, q) of window 0's block at point t is entry (3000·t + p, q) of its array. -/
theorem emb_0 (t : Fin cfg1.N) (p : Fin 3000) (q : Fin 64) :
    ((cfg1.win 0).blk t).view.emb (ix2 p q) = ix2 (row t p) q := by
  obtain ⟨e00, e01, e10, e11, e20, e21, e30, e31, e40, e41⟩ := idx_facts t
  funext a; apply Fin.ext
  match a with
  | ⟨0, _⟩ => show win1_0.index t (0 : Fin 2) * 3000 + 1 * p.val = 3000 * t.val + p.val; omega
  | ⟨1, _⟩ => show win1_0.index t (1 : Fin 2) * 64 + 1 * q.val = q.val; omega

/-- Entry (p, q) of window 1's block at point t is entry (3000·t + p, q) of its array. -/
theorem emb_1 (t : Fin cfg1.N) (p : Fin 3000) (q : Fin 64) :
    ((cfg1.win 1).blk t).view.emb (ix2 p q) = ix2 (row t p) q := by
  obtain ⟨e00, e01, e10, e11, e20, e21, e30, e31, e40, e41⟩ := idx_facts t
  funext a; apply Fin.ext
  match a with
  | ⟨0, _⟩ => show win1_1.index t (0 : Fin 2) * 3000 + 1 * p.val = 3000 * t.val + p.val; omega
  | ⟨1, _⟩ => show win1_1.index t (1 : Fin 2) * 64 + 1 * q.val = q.val; omega

/-- Entry (p, q) of window 2's block at point t is entry (3000·t + p, q) of its array. -/
theorem emb_2 (t : Fin cfg1.N) (p : Fin 3000) (q : Fin 64) :
    ((cfg1.win 2).blk t).view.emb (ix2 p q) = ix2 (row t p) q := by
  obtain ⟨e00, e01, e10, e11, e20, e21, e30, e31, e40, e41⟩ := idx_facts t
  funext a; apply Fin.ext
  match a with
  | ⟨0, _⟩ => show win1_2.index t (0 : Fin 2) * 3000 + 1 * p.val = 3000 * t.val + p.val; omega
  | ⟨1, _⟩ => show win1_2.index t (1 : Fin 2) * 64 + 1 * q.val = q.val; omega

/-- Entry (p, q) of window 3's block at point t is entry (3000·t + p, q) of its array. -/
theorem emb_3 (t : Fin cfg1.N) (p : Fin 3000) (q : Fin 64) :
    ((cfg1.win 3).blk t).view.emb (ix2 p q) = ix2 (row t p) q := by
  obtain ⟨e00, e01, e10, e11, e20, e21, e30, e31, e40, e41⟩ := idx_facts t
  funext a; apply Fin.ext
  match a with
  | ⟨0, _⟩ => show win1_3.index t (0 : Fin 2) * 3000 + 1 * p.val = 3000 * t.val + p.val; omega
  | ⟨1, _⟩ => show win1_3.index t (1 : Fin 2) * 64 + 1 * q.val = q.val; omega

/-- Entry (p, q) of window 4's block at point t is entry (3000·t + p, q) of its array. -/
theorem emb_4 (t : Fin cfg1.N) (p : Fin 3000) (q : Fin 64) :
    ((cfg1.win 4).blk t).view.emb (ix2 p q) = ix2 (row t p) q := by
  obtain ⟨e00, e01, e10, e11, e20, e21, e30, e31, e40, e41⟩ := idx_facts t
  funext a; apply Fin.ext
  match a with
  | ⟨0, _⟩ => show win1_4.index t (0 : Fin 2) * 3000 + 1 * p.val = 3000 * t.val + p.val; omega
  | ⟨1, _⟩ => show win1_4.index t (1 : Fin 2) * 64 + 1 * q.val = q.val; omega

theorem blk_0 (c : Dev nD) (t : Fin cfg1.N) (p : Fin 3000) (q : Fin 64) :
    iblk1 V c 0 t (ix2 p q) = V c (Pipeline.arrRef spec1 0) (ix2 (row t p) q) := by
  show V c (Pipeline.arrRef spec1 0) (((cfg1.win 0).blk t).view.emb (ix2 p q)) = _
  rw [emb_0]

theorem blk_1 (c : Dev nD) (t : Fin cfg1.N) (p : Fin 3000) (q : Fin 64) :
    iblk1 V c 1 t (ix2 p q) = V c (Pipeline.arrRef spec1 1) (ix2 (row t p) q) := by
  show V c (Pipeline.arrRef spec1 1) (((cfg1.win 1).blk t).view.emb (ix2 p q)) = _
  rw [emb_1]

theorem blk_2 (c : Dev nD) (t : Fin cfg1.N) (p : Fin 3000) (q : Fin 64) :
    iblk1 V c 2 t (ix2 p q) = V c (Pipeline.arrRef spec1 2) (ix2 (row t p) q) := by
  show V c (Pipeline.arrRef spec1 2) (((cfg1.win 2).blk t).view.emb (ix2 p q)) = _
  rw [emb_2]

/-- An index of the array is in point t's block of window 3 iff each coordinate is in the block's range. -/
theorem mem_blk_3 (t : Fin cfg1.N) (i : S225000x64.Idx) :
    i ∈ ((cfg1.win 3).blk t).view.set ↔ ∀ a : Fin 2, win1_3.index t a * S3000x64.size a ≤ (i a).val ∧ (i a).val < win1_3.index t a * S3000x64.size a + S3000x64.size a := by
  show i ∈ ((View.whole main_call0_v65_0).slice (win1_3.rect t)).set ↔ _
  rw [View.set_slice_whole, Rect.mem_set_unit]
  exact Iff.rfl

/-- The 75 blocks of 3000 rows tile the table: row r lies in the block of point r / 3000. -/
theorem cover_3 (i : S225000x64.Idx) : ∃ t : Fin cfg1.N, (cfg1.win 3).flush t = true ∧ i ∈ ((cfg1.win 3).blk t).view.set := by
  have hi0 : (i 0).val < 225000 := (i 0).isLt
  have hi1 : (i 1).val < 64 := (i 1).isLt
  have hN : grid1.N = 75 := N_1
  have hlt : (i 0).val / 3000 < cfg1.N := by show (i 0).val / 3000 < grid1.N; rw [hN]; omega
  obtain ⟨e00, e01, e10, e11, e20, e21, e30, e31, e40, e41⟩ := idx_facts (⟨(i 0).val / 3000, hlt⟩ : Fin cfg1.N)
  have e0' : win1_3.index (⟨(i 0).val / 3000, hlt⟩ : Fin cfg1.N) (0 : Fin 2) = (i 0).val / 3000 := e30
  refine ⟨⟨(i 0).val / 3000, hlt⟩, flush1_3 _, ?_⟩
  rw [mem_blk_3]
  intro a
  match a with
  | ⟨0, _⟩ =>
    show win1_3.index (⟨(i 0).val / 3000, hlt⟩ : Fin cfg1.N) (0 : Fin 2) * 3000 ≤ (i 0).val ∧ (i 0).val < win1_3.index (⟨(i 0).val / 3000, hlt⟩ : Fin cfg1.N) (0 : Fin 2) * 3000 + 3000
    rw [e0']; omega
  | ⟨1, _⟩ =>
    show win1_3.index (⟨(i 0).val / 3000, hlt⟩ : Fin cfg1.N) (1 : Fin 2) * 64 ≤ (i 1).val ∧ (i 1).val < win1_3.index (⟨(i 0).val / 3000, hlt⟩ : Fin cfg1.N) (1 : Fin 2) * 64 + 64
    rw [e31]; omega

/-- An index of the array is in point t's block of window 4 iff each coordinate is in the block's range. -/
theorem mem_blk_4 (t : Fin cfg1.N) (i : S225000x64.Idx) :
    i ∈ ((cfg1.win 4).blk t).view.set ↔ ∀ a : Fin 2, win1_4.index t a * S3000x64.size a ≤ (i a).val ∧ (i a).val < win1_4.index t a * S3000x64.size a + S3000x64.size a := by
  show i ∈ ((View.whole main_call0_v65_1).slice (win1_4.rect t)).set ↔ _
  rw [View.set_slice_whole, Rect.mem_set_unit]
  exact Iff.rfl

/-- The 75 blocks of 3000 rows tile the table: row r lies in the block of point r / 3000. -/
theorem cover_4 (i : S225000x64.Idx) : ∃ t : Fin cfg1.N, (cfg1.win 4).flush t = true ∧ i ∈ ((cfg1.win 4).blk t).view.set := by
  have hi0 : (i 0).val < 225000 := (i 0).isLt
  have hi1 : (i 1).val < 64 := (i 1).isLt
  have hN : grid1.N = 75 := N_1
  have hlt : (i 0).val / 3000 < cfg1.N := by show (i 0).val / 3000 < grid1.N; rw [hN]; omega
  obtain ⟨e00, e01, e10, e11, e20, e21, e30, e31, e40, e41⟩ := idx_facts (⟨(i 0).val / 3000, hlt⟩ : Fin cfg1.N)
  have e0' : win1_4.index (⟨(i 0).val / 3000, hlt⟩ : Fin cfg1.N) (0 : Fin 2) = (i 0).val / 3000 := e40
  refine ⟨⟨(i 0).val / 3000, hlt⟩, flush1_4 _, ?_⟩
  rw [mem_blk_4]
  intro a
  match a with
  | ⟨0, _⟩ =>
    show win1_4.index (⟨(i 0).val / 3000, hlt⟩ : Fin cfg1.N) (0 : Fin 2) * 3000 ≤ (i 0).val ∧ (i 0).val < win1_4.index (⟨(i 0).val / 3000, hlt⟩ : Fin cfg1.N) (0 : Fin 2) * 3000 + 3000
    rw [e0']; omega
  | ⟨1, _⟩ =>
    show win1_4.index (⟨(i 0).val / 3000, hlt⟩ : Fin cfg1.N) (1 : Fin 2) * 64 ≤ (i 1).val ∧ (i 1).val < win1_4.index (⟨(i 0).val / 3000, hlt⟩ : Fin cfg1.N) (1 : Fin 2) * 64 + 64
    rw [e41]; omega

set_option maxHeartbeats 4000000 in
/-- What point t writes back through window 3 is block t of the perturbed layer of the region's aggregated and noise tables. -/
theorem flushed_3 (c : Dev nD) (t : Fin cfg1.N) :
    (dat1 V c).flushed 3 t = ((cfg1.win 3).blk t).view.read (Elt Ideal)
      (Cert.KArr.layerArr (V c (Pipeline.arrRef spec1 0)) (V c (Pipeline.arrRef spec1 1))) := by
  show (cfg1.win 3).cut (grid1.coords t) ((dat1 V c).after 3 t) = _
  rw [after1_3]
  unfold out1_3
  rw [View.canon_unit_zero hz]
  simp only [View.ld_unit_zero (S := S3000x64) hz]
  rw [Cert.KernelIdeal.KBody.pay1_1]
  funext j
  obtain ⟨p, q, rfl⟩ : ∃ (p : Fin 3000) (q : Fin 64), j = ix2 p q := ⟨j 0, j 1, eq_ix2 j⟩
  show Cert.KernelIdeal.KBody.layerTerm (iblk1 V c 0 t) (iblk1 V c 1 t) (ix2 p q)
    = Cert.KArr.layerArr (V c (Pipeline.arrRef spec1 0)) (V c (Pipeline.arrRef spec1 1)) (((cfg1.win 3).blk t).view.emb (ix2 p q))
  rw [Cert.KernelIdeal.KBody.layerTerm_apply, emb_3, Cert.KArr.layerArr_apply]
  unfold Cert.KArr.layerAt
  simp only [blk_0, blk_1]

/-- Window 3's array after the region: the perturbed layer. -/
theorem final_3 (c : Dev nD) : (dat1 V c).arrAt 3 cfg1.N
    = Cert.KArr.layerArr (V c (Pipeline.arrRef spec1 0)) (V c (Pipeline.arrRef spec1 1)) :=
  (dat1 V c).arrAt_eq_of_cover 3 _ (fun t _ => flushed_3 V c t) cover_3

set_option maxHeartbeats 4000000 in
/-- What point t writes back through window 4 is block t of the running sum plus the layer. -/
theorem flushed_4 (c : Dev nD) (t : Fin cfg1.N) :
    (dat1 V c).flushed 4 t = ((cfg1.win 4).blk t).view.read (Elt Ideal)
      (Cert.KArr.accArr (V c (Pipeline.arrRef spec1 2)) (V c (Pipeline.arrRef spec1 0)) (V c (Pipeline.arrRef spec1 1))) := by
  show (cfg1.win 4).cut (grid1.coords t) ((dat1 V c).after 4 t) = _
  rw [after1_4]
  unfold out1_4
  rw [View.canon_unit_zero hz]
  simp only [View.ld_unit_zero (S := S3000x64) hz]
  rw [Cert.KernelIdeal.KBody.pay1_2]
  funext j
  obtain ⟨p, q, rfl⟩ : ∃ (p : Fin 3000) (q : Fin 64), j = ix2 p q := ⟨j 0, j 1, eq_ix2 j⟩
  show addf (iblk1 V c 2 t) (Cert.KernelIdeal.KBody.layerTerm (iblk1 V c 0 t) (iblk1 V c 1 t)) (ix2 p q)
    = Cert.KArr.accArr (V c (Pipeline.arrRef spec1 2)) (V c (Pipeline.arrRef spec1 0)) (V c (Pipeline.arrRef spec1 1)) (((cfg1.win 4).blk t).view.emb (ix2 p q))
  rw [Cert.KernelIdeal.KBody.acc_apply, Cert.KernelIdeal.KBody.layerTerm_apply, emb_4, Cert.KArr.accArr_apply]
  unfold Cert.KArr.layerAt
  simp only [blk_0, blk_1, blk_2]

/-- Window 4's array after the region: the running sum plus the layer. -/
theorem final_4 (c : Dev nD) : (dat1 V c).arrAt 4 cfg1.N
    = Cert.KArr.accArr (V c (Pipeline.arrRef spec1 2)) (V c (Pipeline.arrRef spec1 0)) (V c (Pipeline.arrRef spec1 1)) :=
  (dat1 V c).arrAt_eq_of_cover 4 _ (fun t _ => flushed_4 V c t) cover_4

end Cert.KernelIdeal.KReg1

end
-- ==== Proof.KReg2.lean ====
/-
  Region 2 of the kernel program as whole tables.

  The region runs its body at 75 grid points; point t sees rows 3000·t … 3000·t + 2999 of every one of its tables (all 64
  columns) and writes the same rows of its outputs back. A row's sum of squares only needs that row, which lies inside
  one block, so each output table ends as one entry-by-entry function of the tables the region was entered with:
  (running sum + perturbed layer) · 1/3.
-/
import proofs.«112868_j41523743817917_2_alg».proof.Proof.Gen.KernelIdeal.Frame
import proofs.«112868_j41523743817917_2_alg».proof.Proof.KBody
import proofs.«112868_j41523743817917_2_alg».proof.Proof.KArr
import Idealize.ShloMosaic.Lib.Pipeline.Value

set_option maxRecDepth 16384

noncomputable section

namespace Cert.KernelIdeal.KReg2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point t is block (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of the block at point t is row 3000·t + p of the table. -/
def row (t : Fin cfg2.N) (p : Fin 3000) : Fin 225000 :=
  ⟨3000 * t.val + p.val, by
    have ht : t.val < 75 := lt_of_lt_of_eq t.isLt N_2
    have hp := p.isLt
    omega⟩

/-- Entry (p, q) of window 0's block at point t is entry (3000·t + p, q) of its array. -/
theorem emb_0 (t : Fin cfg2.N) (p : Fin 3000) (q : Fin 64) :
    ((cfg2.win 0).blk t).view.emb (ix2 p q) = ix2 (row t p) q := by
  obtain ⟨e00, e01, e10, e11, e20, e21, e30, e31⟩ := idx_facts t
  funext a; apply Fin.ext
  match a with
  | ⟨0, _⟩ => show win2_0.index t (0 : Fin 2) * 3000 + 1 * p.val = 3000 * t.val + p.val; omega
  | ⟨1, _⟩ => show win2_0.index t (1 : Fin 2) * 64 + 1 * q.val = q.val; omega

/-- Entry (p, q) of window 1's block at point t is entry (3000·t + p, q) of its array. -/
theorem emb_1 (t : Fin cfg2.N) (p : Fin 3000) (q : Fin 64) :
    ((cfg2.win 1).blk t).view.emb (ix2 p q) = ix2 (row t p) q := by
  obtain ⟨e00, e01, e10, e11, e20, e21, e30, e31⟩ := idx_facts t
  funext a; apply Fin.ext
  match a with
  | ⟨0, _⟩ => show win2_1.index t (0 : Fin 2) * 3000 + 1 * p.val = 3000 * t.val + p.val; omega
  | ⟨1, _⟩ => show win2_1.index t (1 : Fin 2) * 64 + 1 * q.val = q.val; omega

/-- Entry (p, q) of window 2's block at point t is entry (3000·t + p, q) of its array. -/
theorem emb_2 (t : Fin cfg2.N) (p : Fin 3000) (q : Fin 64) :
    ((cfg2.win 2).blk t).view.emb (ix2 p q) = ix2 (row t p) q := by
  obtain ⟨e00, e01, e10, e11, e20, e21, e30, e31⟩ := idx_facts t
  funext a; apply Fin.ext
  match a with
  | ⟨0, _⟩ => show win2_2.index t (0 : Fin 2) * 3000 + 1 * p.val = 3000 * t.val + p.val; omega
  | ⟨1, _⟩ => show win2_2.index t (1 : Fin 2) * 64 + 1 * q.val = q.val; omega

/-- Entry (p, q) of window 3's block at point t is entry (3000·t + p, q) of its array. -/
theorem emb_3 (t : Fin cfg2.N) (p : Fin 3000) (q : Fin 64) :
    ((cfg2.win 3).blk t).view.emb (ix2 p q) = ix2 (row t p) q := by
  obtain ⟨e00, e01, e10, e11, e20, e21, e30, e31⟩ := idx_facts t
  funext a; apply Fin.ext
  match a with
  | ⟨0, _⟩ => show win2_3.index t (0 : Fin 2) * 3000 + 1 * p.val = 3000 * t.val + p.val; omega
  | ⟨1, _⟩ => show win2_3.index t (1 : Fin 2) * 64 + 1 * q.val = q.val; omega

theorem blk_0 (c : Dev nD) (t : Fin cfg2.N) (p : Fin 3000) (q : Fin 64) :
    iblk2 V c 0 t (ix2 p q) = V c (Pipeline.arrRef spec2 0) (ix2 (row t p) q) := by
  show V c (Pipeline.arrRef spec2 0) (((cfg2.win 0).blk t).view.emb (ix2 p q)) = _
  rw [emb_0]

theorem blk_1 (c : Dev nD) (t : Fin cfg2.N) (p : Fin 3000) (q : Fin 64) :
    iblk2 V c 1 t (ix2 p q) = V c (Pipeline.arrRef spec2 1) (ix2 (row t p) q) := by
  show V c (Pipeline.arrRef spec2 1) (((cfg2.win 1).blk t).view.emb (ix2 p q)) = _
  rw [emb_1]

theorem blk_2 (c : Dev nD) (t : Fin cfg2.N) (p : Fin 3000) (q : Fin 64) :
    iblk2 V c 2 t (ix2 p q) = V c (Pipeline.arrRef spec2 2) (ix2 (row t p) q) := by
  show V c (Pipeline.arrRef spec2 2) (((cfg2.win 2).blk t).view.emb (ix2 p q)) = _
  rw [emb_2]

/-- An index of the array is in point t's block of window 3 iff each coordinate is in the block's range. -/
theorem mem_blk_3 (t : Fin cfg2.N) (i : S225000x64.Idx) :
    i ∈ ((cfg2.win 3).blk t).view.set ↔ ∀ a : Fin 2, win2_3.index t a * S3000x64.size a ≤ (i a).val ∧ (i a).val < win2_3.index t a * S3000x64.size a + S3000x64.size a := by
  show i ∈ ((View.whole main_call0_v81).slice (win2_3.rect t)).set ↔ _
  rw [View.set_slice_whole, Rect.mem_set_unit]
  exact Iff.rfl

/-- The 75 blocks of 3000 rows tile the table: row r lies in the block of point r / 3000. -/
theorem cover_3 (i : S225000x64.Idx) : ∃ t : Fin cfg2.N, (cfg2.win 3).flush t = true ∧ i ∈ ((cfg2.win 3).blk t).view.set := by
  have hi0 : (i 0).val < 225000 := (i 0).isLt
  have hi1 : (i 1).val < 64 := (i 1).isLt
  have hN : grid2.N = 75 := N_2
  have hlt : (i 0).val / 3000 < cfg2.N := by show (i 0).val / 3000 < grid2.N; rw [hN]; omega
  obtain ⟨e00, e01, e10, e11, e20, e21, e30, e31⟩ := idx_facts (⟨(i 0).val / 3000, hlt⟩ : Fin cfg2.N)
  have e0' : win2_3.index (⟨(i 0).val / 3000, hlt⟩ : Fin cfg2.N) (0 : Fin 2) = (i 0).val / 3000 := e30
  refine ⟨⟨(i 0).val / 3000, hlt⟩, flush2_3 _, ?_⟩
  rw [mem_blk_3]
  intro a
  match a with
  | ⟨0, _⟩ =>
    show win2_3.index (⟨(i 0).val / 3000, hlt⟩ : Fin cfg2.N) (0 : Fin 2) * 3000 ≤ (i 0).val ∧ (i 0).val < win2_3.index (⟨(i 0).val / 3000, hlt⟩ : Fin cfg2.N) (0 : Fin 2) * 3000 + 3000
    rw [e0']; omega
  | ⟨1, _⟩ =>
    show win2_3.index (⟨(i 0).val / 3000, hlt⟩ : Fin cfg2.N) (1 : Fin 2) * 64 ≤ (i 1).val ∧ (i 1).val < win2_3.index (⟨(i 0).val / 3000, hlt⟩ : Fin cfg2.N) (1 : Fin 2) * 64 + 64
    rw [e31]; omega

set_option maxHeartbeats 4000000 in
/-- What point t writes back through window 3 is block t of (running sum + layer) · 1/3. -/
theorem flushed_3 (c : Dev nD) (t : Fin cfg2.N) :
    (dat2 V c).flushed 3 t = ((cfg2.win 3).blk t).view.read (Elt Ideal)
      (Cert.KArr.meanArr (V c (Pipeline.arrRef spec2 2)) (V c (Pipeline.arrRef spec2 0)) (V c (Pipeline.arrRef spec2 1))) := by
  show (cfg2.win 3).cut (grid2.coords t) ((dat2 V c).after 3 t) = _
  rw [after2_3]
  unfold out2_3
  rw [View.canon_unit_zero hz]
  simp only [View.ld_unit_zero (S := S3000x64) hz]
  rw [Cert.KernelIdeal.KBody.pay2_1]
  funext j
  obtain ⟨p, q, rfl⟩ : ∃ (p : Fin 3000) (q : Fin 64), j = ix2 p q := ⟨j 0, j 1, eq_ix2 j⟩
  show mulf (addf (iblk2 V c 2 t) (Cert.KernelIdeal.KBody.layerTerm (iblk2 V c 0 t) (iblk2 V c 1 t))) (broadcast S3000x64 (Named.named (F := Ideal) κ "inv_3" (φ := .f32) 0x3EAAAAAB#32)) (ix2 p q)
    = Cert.KArr.meanArr (V c (Pipeline.arrRef spec2 2)) (V c (Pipeline.arrRef spec2 0)) (V c (Pipeline.arrRef spec2 1)) (((cfg2.win 3).blk t).view.emb (ix2 p q))
  rw [Cert.KernelIdeal.KBody.mean_apply]
  show _ * Cert.Law.third = Cert.KArr.accArr (V c (Pipeline.arrRef spec2 2)) (V c (Pipeline.arrRef spec2 0)) (V c (Pipeline.arrRef spec2 1)) (((cfg2.win 3).blk t).view.emb (ix2 p q)) * Cert.Law.third
  refine congrArg (fun x : EReal => x * Cert.Law.third) ?_
  rw [Cert.KernelIdeal.KBody.acc_apply, Cert.KernelIdeal.KBody.layerTerm_apply, emb_3, Cert.KArr.accArr_apply]
  unfold Cert.KArr.layerAt
  simp only [blk_0, blk_1, blk_2]

/-- Window 3's array after the region: the mean. -/
theorem final_3 (c : Dev nD) : (dat2 V c).arrAt 3 cfg2.N
    = Cert.KArr.meanArr (V c (Pipeline.arrRef spec2 2)) (V c (Pipeline.arrRef spec2 0)) (V c (Pipeline.arrRef spec2 1)) :=
  (dat2 V c).arrAt_eq_of_cover 3 _ (fun t _ => flushed_3 V c t) cover_3

end Cert.KernelIdeal.KReg2

end
-- ==== Proof.RStage.lean ====
/-
  The reference, stage by stage, at an entry.

  Each of the reference's three layers divides the noise row by its norm floored from below, multiplies by the sign of the
  aggregated entry and the step, and adds the aggregated entry. Its result stacks the three layers along a new middle
  axis, sums that axis from zero and divides by 3.
-/
import proofs.«112868_j41523743817917_2_alg».proof.Proof.RefRead
import proofs.«112868_j41523743817917_2_alg».proof.Proof.Law
import Idealize.ShloMosaic.Lib.ValueIdx
import Idealize.ShloMosaic.Lib.Pipeline.Value

set_option maxRecDepth 16384

noncomputable section

namespace Cert.ReferenceIdeal.RStage

open Cert.ReferenceIdeal Cert.ReferenceIdeal.Gen Cert.ReferenceIdeal.ReadP
open Idealize.ShloMosaic Idealize.ShloMosaic.TcCoe Idealize.ShloMosaic.ValueIdx

/-- Layer 1 of the reference at entry (r, j): the aggregated entry plus its sign times the noise entry over the floored norm of
    the noise row, times the step. -/
theorem layer1_apply (x0 : (⟨S150000x64, .f32⟩ : BufTy).Contents (Elt Ideal)) (x1 : (⟨S75000x64, .f32⟩ : BufTy).Contents (Elt Ideal)) (x2 : (⟨S3x225000x64, .f32⟩ : BufTy).Contents (Elt Ideal)) (x3 : (⟨S2x3200000, .i32⟩ : BufTy).Contents (Elt Ideal)) (r : Fin 225000) (j : Fin 64) :
    val_main_v56 (F := Ideal) x0 x1 x2 x3 (ix2 r j)
      = Cert.Law.layerDiv (val_main_v45 (F := Ideal) x0 x1 x3 (ix2 r j)) (val_main_v47 (F := Ideal) x2 (ix2 r j))
          (∑ k : Fin 64, val_main_v47 (F := Ideal) x2 (ix2 r k) * val_main_v47 (F := Ideal) x2 (ix2 r k))
          ((Cert.Law.floorR : ℝ) : EReal) (Ideal.ofBits .f32 0x3DCCCCCD#32) := by
  rw [val_main_v56_apply, val_main_v55_apply, val_main_v54_apply, val_main_cst_13_apply, val_main_v53_apply, val_main_v52_apply, val_main_v51_apply, val_main_v50_apply, val_main_v49_apply, val_main_call3_v1_apply, val_main_call3_v0_apply, val_main_cst_12_apply, val_main_v48_apply, val_main_call2_v2_apply, val_main_call2_v1_apply, val_main_call2_cst_apply]
  have hk : ∀ k : Fin 64, idx_main_call2_v1 (idx_main_call2_v2 (idx_main_v50 (ix2 r j))) k = ix2 r k := fun k =>
    funext fun a => Fin.ext (by match a with | ⟨0, _⟩ => rfl | ⟨1, _⟩ => rfl)
  simp only [val_main_call2_v0_apply, hk]
  unfold Cert.Law.layerDiv
  simp only [Ideal.addf_def, Ideal.mulf_def, Ideal.hostUnary_sign_def, Ideal.hostDivf_def, Ideal.maximumf_def, Ideal.hostUnary_sqrt_def,
    Ideal.ofBits_def, Cert.Law.word_floor, Cert.Law.word_zero]

/-- Layer 2 of the reference at entry (r, j): the aggregated entry plus its sign times the noise entry over the floored norm of
    the noise row, times the step. -/
theorem layer2_apply (x0 : (⟨S150000x64, .f32⟩ : BufTy).Contents (Elt Ideal)) (x1 : (⟨S75000x64, .f32⟩ : BufTy).Contents (Elt Ideal)) (x2 : (⟨S3x225000x64, .f32⟩ : BufTy).Contents (Elt Ideal)) (x3 : (⟨S2x3200000, .i32⟩ : BufTy).Contents (Elt Ideal)) (r : Fin 225000) (j : Fin 64) :
    val_main_v80 (F := Ideal) x0 x1 x2 x3 (ix2 r j)
      = Cert.Law.layerDiv (val_main_v69 (F := Ideal) x0 x1 x2 x3 (ix2 r j)) (val_main_v71 (F := Ideal) x2 (ix2 r j))
          (∑ k : Fin 64, val_main_v71 (F := Ideal) x2 (ix2 r k) * val_main_v71 (F := Ideal) x2 (ix2 r k))
          ((Cert.Law.floorR : ℝ) : EReal) (Ideal.ofBits .f32 0x3DCCCCCD#32) := by
  rw [val_main_v80_apply, val_main_v79_apply, val_main_v78_apply, val_main_cst_18_apply, val_main_v77_apply, val_main_v76_apply, val_main_v75_apply, val_main_v74_apply, val_main_v73_apply, val_main_call5_v1_apply, val_main_call5_v0_apply, val_main_cst_17_apply, val_main_v72_apply, val_main_call4_v2_apply, val_main_call4_v1_apply, val_main_call4_cst_apply]
  have hk : ∀ k : Fin 64, idx_main_call4_v1 (idx_main_call4_v2 (idx_main_v74 (ix2 r j))) k = ix2 r k := fun k =>
    funext fun a => Fin.ext (by match a with | ⟨0, _⟩ => rfl | ⟨1, _⟩ => rfl)
  simp only [val_main_call4_v0_apply, hk]
  unfold Cert.Law.layerDiv
  simp only [Ideal.addf_def, Ideal.mulf_def, Ideal.hostUnary_sign_def, Ideal.hostDivf_def, Ideal.maximumf_def, Ideal.hostUnary_sqrt_def,
    Ideal.ofBits_def, Cert.Law.word_floor, Cert.Law.word_zero]

/-- Layer 3 of the reference at entry (r, j): the aggregated entry plus its sign times the noise entry over the floored norm of
    the noise row, times the step. -/
theorem layer3_apply (x0 : (⟨S150000x64, .f32⟩ : BufTy).Contents (Elt Ideal)) (x1 : (⟨S75000x64, .f32⟩ : BufTy).Contents (Elt Ideal)) (x2 : (⟨S3x225000x64, .f32⟩ : BufTy).Contents (Elt Ideal)) (x3 : (⟨S2x3200000, .i32⟩ : BufTy).Contents (Elt Ideal)) (r : Fin 225000) (j : Fin 64) :
    val_main_v104 (F := Ideal) x0 x1 x2 x3 (ix2 r j)
      = Cert.Law.layerDiv (val_main_v93 (F := Ideal) x0 x1 x2 x3 (ix2 r j)) (val_main_v95 (F := Ideal) x2 (ix2 r j))
          (∑ k : Fin 64, val_main_v95 (F := Ideal) x2 (ix2 r k) * val_main_v95 (F := Ideal) x2 (ix2 r k))
          ((Cert.Law.floorR : ℝ) : EReal) (Ideal.ofBits .f32 0x3DCCCCCD#32) := by
  rw [val_main_v104_apply, val_main_v103_apply, val_main_v102_apply, val_main_cst_23_apply, val_main_v101_apply, val_main_v100_apply, val_main_v99_apply, val_main_v98_apply, val_main_v97_apply, val_main_call7_v1_apply, val_main_call7_v0_apply, val_main_cst_22_apply, val_main_v96_apply, val_main_call6_v2_apply, val_main_call6_v1_apply, val_main_call6_cst_apply]
  have hk : ∀ k : Fin 64, idx_main_call6_v1 (idx_main_call6_v2 (idx_main_v98 (ix2 r j))) k = ix2 r k := fun k =>
    funext fun a => Fin.ext (by match a with | ⟨0, _⟩ => rfl | ⟨1, _⟩ => rfl)
  simp only [val_main_call6_v0_apply, hk]
  unfold Cert.Law.layerDiv
  simp only [Ideal.addf_def, Ideal.mulf_def, Ideal.hostUnary_sign_def, Ideal.hostDivf_def, Ideal.maximumf_def, Ideal.hostUnary_sqrt_def,
    Ideal.ofBits_def, Cert.Law.word_floor, Cert.Law.word_zero]

/-- Three tables stacked along a new middle axis, read at (r, k, j): the k-th table at (r, 0, j). -/
theorem stack3_apply (u : Fin 3 → (S225000x1x64.Idx → EReal))
    (h : Shape.Concatenates [S225000x1x64, S225000x1x64, S225000x1x64] S225000x3x64 (1 : Fin 3)) (r : Fin 225000) (k : Fin 3) (j : Fin 64) :
    concatenate S225000x3x64 1 [⟨S225000x1x64, u 0⟩, ⟨S225000x1x64, u 1⟩, ⟨S225000x1x64, u 2⟩] h (ix3 r k j) = u k (ix3 r (0 : Fin 1) j) := by
  show concatenate S225000x3x64 1 (List.ofFn fun n : Fin 3 => (⟨S225000x1x64, u n⟩ : (s : Shape) × (s.Idx → EReal))) h (ix3 r k j) = _
  refine concatenate_ofFn_unit_apply (t := S225000x3x64) (s₁ := S225000x1x64) (N := 3) (a := (1 : Fin 3)) u h rfl rfl (ix3 r k j) k rfl (ix3 r (0 : Fin 1) j) fun b hb => ?_
  match b with
  | ⟨0, _⟩ => rfl
  | ⟨1, _⟩ => exact absurd rfl hb
  | ⟨2, _⟩ => rfl

theorem stack3_0 (u0 u1 u2 : S225000x1x64.Idx → EReal)
    (h : Shape.Concatenates [S225000x1x64, S225000x1x64, S225000x1x64] S225000x3x64 (1 : Fin 3)) (r : Fin 225000) (j : Fin 64) :
    concatenate S225000x3x64 1 [⟨S225000x1x64, u0⟩, ⟨S225000x1x64, u1⟩, ⟨S225000x1x64, u2⟩] h (ix3 r (0 : Fin 3) j) = u0 (ix3 r (0 : Fin 1) j) :=
  stack3_apply ![u0, u1, u2] h r 0 j

theorem stack3_1 (u0 u1 u2 : S225000x1x64.Idx → EReal)
    (h : Shape.Concatenates [S225000x1x64, S225000x1x64, S225000x1x64] S225000x3x64 (1 : Fin 3)) (r : Fin 225000) (j : Fin 64) :
    concatenate S225000x3x64 1 [⟨S225000x1x64, u0⟩, ⟨S225000x1x64, u1⟩, ⟨S225000x1x64, u2⟩] h (ix3 r (1 : Fin 3) j) = u1 (ix3 r (0 : Fin 1) j) :=
  stack3_apply ![u0, u1, u2] h r 1 j

theorem stack3_2 (u0 u1 u2 : S225000x1x64.Idx → EReal)
    (h : Shape.Concatenates [S225000x1x64, S225000x1x64, S225000x1x64] S225000x3x64 (1 : Fin 3)) (r : Fin 225000) (j : Fin 64) :
    concatenate S225000x3x64 1 [⟨S225000x1x64, u0⟩, ⟨S225000x1x64, u1⟩, ⟨S225000x1x64, u2⟩] h (ix3 r (2 : Fin 3) j) = u2 (ix3 r (0 : Fin 1) j) :=
  stack3_apply ![u0, u1, u2] h r 2 j

/-- The reference's result table at entry (r, j): the three layers' entries summed from zero, divided by 3. -/
theorem mean_apply (x0 : (⟨S150000x64, .f32⟩ : BufTy).Contents (Elt Ideal)) (x1 : (⟨S75000x64, .f32⟩ : BufTy).Contents (Elt Ideal)) (x2 : (⟨S3x225000x64, .f32⟩ : BufTy).Contents (Elt Ideal)) (x3 : (⟨S2x3200000, .i32⟩ : BufTy).Contents (Elt Ideal)) (r : Fin 225000) (j : Fin 64) :
    val_main_v111 (F := Ideal) x0 x1 x2 x3 (ix2 r j)
      = Ideal.div (0 + (val_main_v56 (F := Ideal) x0 x1 x2 x3 (ix2 r j) + val_main_v80 (F := Ideal) x0 x1 x2 x3 (ix2 r j)
          + val_main_v104 (F := Ideal) x0 x1 x2 x3 (ix2 r j))) ((3 : ℝ) : EReal) := by
  have e0 : val_main_v108 (F := Ideal) x0 x1 x2 x3 (idx_main_v109 (ix2 r j) (0 : Fin 3)) = val_main_v56 (F := Ideal) x0 x1 x2 x3 (ix2 r j) := by
    have hi : idx_main_v109 (ix2 r j) (0 : Fin 3) = ix3 r (0 : Fin 3) j := funext fun a => Fin.ext (by match a with | ⟨0, _⟩ => rfl | ⟨1, _⟩ => rfl | ⟨2, _⟩ => rfl)
    have hh : idx_main_v105 (ix3 r (0 : Fin 1) j) = ix2 r j := funext fun a => Fin.ext (by match a with | ⟨0, _⟩ => rfl | ⟨1, _⟩ => rfl)
    rw [hi, ← hh, ← val_main_v105_apply]
    unfold val_main_v108
    generalize val_main_v105 (F := Ideal) x0 x1 x2 x3 = u0
    generalize val_main_v106 (F := Ideal) x0 x1 x2 x3 = u1
    generalize val_main_v107 (F := Ideal) x0 x1 x2 x3 = u2
    exact stack3_0 u0 u1 u2 _ r j
  have e1 : val_main_v108 (F := Ideal) x0 x1 x2 x3 (idx_main_v109 (ix2 r j) (1 : Fin 3)) = val_main_v80 (F := Ideal) x0 x1 x2 x3 (ix2 r j) := by
    have hi : idx_main_v109 (ix2 r j) (1 : Fin 3) = ix3 r (1 : Fin 3) j := funext fun a => Fin.ext (by match a with | ⟨0, _⟩ => rfl | ⟨1, _⟩ => rfl | ⟨2, _⟩ => rfl)
    have hh : idx_main_v106 (ix3 r (0 : Fin 1) j) = ix2 r j := funext fun a => Fin.ext (by match a with | ⟨0, _⟩ => rfl | ⟨1, _⟩ => rfl)
    rw [hi, ← hh, ← val_main_v106_apply]
    unfold val_main_v108
    generalize val_main_v105 (F := Ideal) x0 x1 x2 x3 = u0
    generalize val_main_v106 (F := Ideal) x0 x1 x2 x3 = u1
    generalize val_main_v107 (F := Ideal) x0 x1 x2 x3 = u2
    exact stack3_1 u0 u1 u2 _ r j
  have e2 : val_main_v108 (F := Ideal) x0 x1 x2 x3 (idx_main_v109 (ix2 r j) (2 : Fin 3)) = val_main_v104 (F := Ideal) x0 x1 x2 x3 (ix2 r j) := by
    have hi : idx_main_v109 (ix2 r j) (2 : Fin 3) = ix3 r (2 : Fin 3) j := funext fun a => Fin.ext (by match a with | ⟨0, _⟩ => rfl | ⟨1, _⟩ => rfl | ⟨2, _⟩ => rfl)
    have hh : idx_main_v107 (ix3 r (0 : Fin 1) j) = ix2 r j := funext fun a => Fin.ext (by match a with | ⟨0, _⟩ => rfl | ⟨1, _⟩ => rfl)
    rw [hi, ← hh, ← val_main_v107_apply]
    unfold val_main_v108
    generalize val_main_v105 (F := Ideal) x0 x1 x2 x3 = u0
    generalize val_main_v106 (F := Ideal) x0 x1 x2 x3 = u1
    generalize val_main_v107 (F := Ideal) x0 x1 x2 x3 = u2
    exact stack3_2 u0 u1 u2 _ r j
  rw [val_main_v111_apply, val_main_v110_apply, val_main_cst_25_apply, val_main_v109_apply, val_main_cst_24_apply, Fin.sum_univ_three, e0, e1, e2]
  simp only [Ideal.hostDivf_def, Ideal.ofBits_def, Cert.Law.word_three, Cert.Law.word_zero]

end Cert.ReferenceIdeal.RStage

end
-- ==== Proof.Bridge.lean ====
/-
  The two programs' tables are equal.

  Layer by layer the kernel's table (squared norm floored under the inverse square root, sign by comparisons) is the
  reference's (norm floored before the division, the sign function), the noise rows being real by the precondition; the
  aggregated table entering a layer is the same table on both sides. The kernel's running sum from a zero table, times
  1/3, is the reference's three-layer sum from zero divided by 3.
-/
import proofs.«112868_j41523743817917_2_alg».proof.Proof.RStage
import proofs.«112868_j41523743817917_2_alg».proof.Proof.KArr
import proofs.«112868_j41523743817917_2_alg».proof.Proof.Law

set_option maxRecDepth 16384

noncomputable section

namespace Cert.Bridge

open Cert.ReferenceIdeal.ReadP Idealize.ShloMosaic Idealize.ShloMosaic.ValueIdx

/-- Every entry of this layer's noise table is a real number: it is an entry of the noise argument. -/
theorem row_real_47 (x2 : (⟨Cert.ReferenceIdeal.S3x225000x64, .f32⟩ : BufTy).Contents (Elt Ideal)) (hfin : ∀ i, ∃ v : ℝ, x2 i = (v : EReal)) (r : Fin 225000) (k : Fin 64) :
    ∃ v : ℝ, val_main_v47 (F := Ideal) x2 (ix2 r k) = (v : EReal) := by
  rw [val_main_v47_apply, val_main_v46_apply]; exact hfin _

/-- Every entry of this layer's noise table is a real number: it is an entry of the noise argument. -/
theorem row_real_71 (x2 : (⟨Cert.ReferenceIdeal.S3x225000x64, .f32⟩ : BufTy).Contents (Elt Ideal)) (hfin : ∀ i, ∃ v : ℝ, x2 i = (v : EReal)) (r : Fin 225000) (k : Fin 64) :
    ∃ v : ℝ, val_main_v71 (F := Ideal) x2 (ix2 r k) = (v : EReal) := by
  rw [val_main_v71_apply, val_main_v70_apply]; exact hfin _

/-- Every entry of this layer's noise table is a real number: it is an entry of the noise argument. -/
theorem row_real_95 (x2 : (⟨Cert.ReferenceIdeal.S3x225000x64, .f32⟩ : BufTy).Contents (Elt Ideal)) (hfin : ∀ i, ∃ v : ℝ, x2 i = (v : EReal)) (r : Fin 225000) (k : Fin 64) :
    ∃ v : ℝ, val_main_v95 (F := Ideal) x2 (ix2 r k) = (v : EReal) := by
  rw [val_main_v95_apply, val_main_v94_apply]; exact hfin _

/-- Layer 1: the table with the squared norm floored under the inverse root is the reference's table with the norm floored before
    the division, the noise being real. -/
theorem layer1 (x0 : (⟨Cert.ReferenceIdeal.S150000x64, .f32⟩ : BufTy).Contents (Elt Ideal)) (x1 : (⟨Cert.ReferenceIdeal.S75000x64, .f32⟩ : BufTy).Contents (Elt Ideal)) (x2 : (⟨Cert.ReferenceIdeal.S3x225000x64, .f32⟩ : BufTy).Contents (Elt Ideal)) (x3 : (⟨Cert.ReferenceIdeal.S2x3200000, .i32⟩ : BufTy).Contents (Elt Ideal)) (hfin : ∀ i, ∃ v : ℝ, x2 i = (v : EReal)) :
    Cert.KArr.layerArr (val_main_v45 (F := Ideal) x0 x1 x3) (val_main_v47 (F := Ideal) x2) = val_main_v56 (F := Ideal) x0 x1 x2 x3 := by
  funext i
  obtain ⟨r, j, rfl⟩ : ∃ (r : Fin 225000) (j : Fin 64), i = ix2 r j := ⟨i 0, i 1, eq_ix2 i⟩
  rw [Cert.KArr.layerArr_apply, Cert.ReferenceIdeal.RStage.layer1_apply]
  unfold Cert.KArr.layerAt
  choose nz hnz using fun k => row_real_47 x2 hfin r k
  simp only [hnz]
  exact Cert.Law.layer_eq _ _ nz j

/-- Layer 2: the table with the squared norm floored under the inverse root is the reference's table with the norm floored before
    the division, the noise being real. -/
theorem layer2 (x0 : (⟨Cert.ReferenceIdeal.S150000x64, .f32⟩ : BufTy).Contents (Elt Ideal)) (x1 : (⟨Cert.ReferenceIdeal.S75000x64, .f32⟩ : BufTy).Contents (Elt Ideal)) (x2 : (⟨Cert.ReferenceIdeal.S3x225000x64, .f32⟩ : BufTy).Contents (Elt Ideal)) (x3 : (⟨Cert.ReferenceIdeal.S2x3200000, .i32⟩ : BufTy).Contents (Elt Ideal)) (hfin : ∀ i, ∃ v : ℝ, x2 i = (v : EReal)) :
    Cert.KArr.layerArr (val_main_v69 (F := Ideal) x0 x1 x2 x3) (val_main_v71 (F := Ideal) x2) = val_main_v80 (F := Ideal) x0 x1 x2 x3 := by
  funext i
  obtain ⟨r, j, rfl⟩ : ∃ (r : Fin 225000) (j : Fin 64), i = ix2 r j := ⟨i 0, i 1, eq_ix2 i⟩
  rw [Cert.KArr.layerArr_apply, Cert.ReferenceIdeal.RStage.layer2_apply]
  unfold Cert.KArr.layerAt
  choose nz hnz using fun k => row_real_71 x2 hfin r k
  simp only [hnz]
  exact Cert.Law.layer_eq _ _ nz j

/-- Layer 3: the table with the squared norm floored under the inverse root is the reference's table with the norm floored before
    the division, the noise being real. -/
theorem layer3 (x0 : (⟨Cert.ReferenceIdeal.S150000x64, .f32⟩ : BufTy).Contents (Elt Ideal)) (x1 : (⟨Cert.ReferenceIdeal.S75000x64, .f32⟩ : BufTy).Contents (Elt Ideal)) (x2 : (⟨Cert.ReferenceIdeal.S3x225000x64, .f32⟩ : BufTy).Contents (Elt Ideal)) (x3 : (⟨Cert.ReferenceIdeal.S2x3200000, .i32⟩ : BufTy).Contents (Elt Ideal)) (hfin : ∀ i, ∃ v : ℝ, x2 i = (v : EReal)) :
    Cert.KArr.layerArr (val_main_v93 (F := Ideal) x0 x1 x2 x3) (val_main_v95 (F := Ideal) x2) = val_main_v104 (F := Ideal) x0 x1 x2 x3 := by
  funext i
  obtain ⟨r, j, rfl⟩ : ∃ (r : Fin 225000) (j : Fin 64), i = ix2 r j := ⟨i 0, i 1, eq_ix2 i⟩
  rw [Cert.KArr.layerArr_apply, Cert.ReferenceIdeal.RStage.layer3_apply]
  unfold Cert.KArr.layerAt
  choose nz hnz using fun k => row_real_95 x2 hfin r k
  simp only [hnz]
  exact Cert.Law.layer_eq _ _ nz j

/-- The mean: the running sum of the three layers from a zero table, times 1/3, is the reference's result table. -/
theorem mean (x0 : (⟨Cert.ReferenceIdeal.S150000x64, .f32⟩ : BufTy).Contents (Elt Ideal)) (x1 : (⟨Cert.ReferenceIdeal.S75000x64, .f32⟩ : BufTy).Contents (Elt Ideal)) (x2 : (⟨Cert.ReferenceIdeal.S3x225000x64, .f32⟩ : BufTy).Contents (Elt Ideal)) (x3 : (⟨Cert.ReferenceIdeal.S2x3200000, .i32⟩ : BufTy).Contents (Elt Ideal)) (hfin : ∀ i, ∃ v : ℝ, x2 i = (v : EReal))
    (Z : FVec Ideal Cert.KArr.SN .f32) (hZ : ∀ i, Z i = 0) :
    Cert.KArr.meanArr
        (Cert.KArr.accArr (Cert.KArr.accArr Z (val_main_v45 (F := Ideal) x0 x1 x3) (val_main_v47 (F := Ideal) x2))
          (val_main_v69 (F := Ideal) x0 x1 x2 x3) (val_main_v71 (F := Ideal) x2))
        (val_main_v93 (F := Ideal) x0 x1 x2 x3) (val_main_v95 (F := Ideal) x2)
      = val_main_v111 (F := Ideal) x0 x1 x2 x3 := by
  funext i
  obtain ⟨r, j, rfl⟩ : ∃ (r : Fin 225000) (j : Fin 64), i = ix2 r j := ⟨i 0, i 1, eq_ix2 i⟩
  show (((Z (ix2 r j) + Cert.KArr.layerArr (val_main_v45 (F := Ideal) x0 x1 x3) (val_main_v47 (F := Ideal) x2) (ix2 r j))
        + Cert.KArr.layerArr (val_main_v69 (F := Ideal) x0 x1 x2 x3) (val_main_v71 (F := Ideal) x2) (ix2 r j))
        + Cert.KArr.layerArr (val_main_v93 (F := Ideal) x0 x1 x2 x3) (val_main_v95 (F := Ideal) x2) (ix2 r j)) * Cert.Law.third = _
  rw [layer1 x0 x1 x2 x3 hfin, layer2 x0 x1 x2 x3 hfin, layer3 x0 x1 x2 x3 hfin, hZ, Cert.ReferenceIdeal.RStage.mean_apply]
  exact Cert.Law.mean3 _ _ _

end Cert.Bridge

end
-- ==== Proof.KChain.lean ====
/-
  The kernel program's buffers at each boundary are the reference's stages.

  The kernel program's host stretches apply, operation for operation, the reference's own operations: the edge lists and
  their wrapped copies, the degree normalisation, the gather–scale–segment-sum of a node table, the slices of the noise. So
  the buffer a stretch writes holds the reference's stage of the same name whenever the table it aggregates does; and a
  region turns an aggregated table and a noise slice into the perturbed layer, which is the reference's next stage
  (the noise being real). Following the seven segments from the launch to the return, the kernel's two results are the
  reference's two results.
-/
import proofs.«112868_j41523743817917_2_alg».proof.Proof.Gen.KernelIdeal.Frame
import proofs.«112868_j41523743817917_2_alg».proof.Proof.KReg0
import proofs.«112868_j41523743817917_2_alg».proof.Proof.KReg1
import proofs.«112868_j41523743817917_2_alg».proof.Proof.KReg2
import proofs.«112868_j41523743817917_2_alg».proof.Proof.Bridge
import Idealize.ShloMosaic.Lib.StableHlo.Run

set_option maxRecDepth 16384

noncomputable section

namespace Cert.KernelIdeal.KChain

open Cert.KernelIdeal Cert.KernelIdeal.Gen Cert.ReferenceIdeal.ReadP
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The four arguments as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)

/-- The zero table the running sum starts from. -/
def zeroTable : FVec Ideal S225000x64 .f32 := broadcastInDim S225000x64 ![] bcast_S_S225000x64 (constant (F := Ideal) S_ .f32 0x00000000#32)

theorem zeroTable_apply (i : S225000x64.Idx) : zeroTable i = 0 := Cert.Law.word_zero

/-! ## The two programs' dimension records are the same records -/
theorem rec_0 : Cert.KernelIdeal.gather_S225000_S3200000x1_S3200000_n_0_n_n_0_1_1 = Cert.ReferenceIdeal.gather_S225000_S3200000x1_S3200000_n_0_n_n_0_1_1 := rfl
theorem rec_1 : Cert.KernelIdeal.gather_S225000x64_S3200000x1_S3200000x64_1_0_n_n_0_1_164 = Cert.ReferenceIdeal.gather_S225000x64_S3200000x1_S3200000x64_1_0_n_n_0_1_164 := rfl
theorem rec_2 : Cert.KernelIdeal.scatter_S225000_S3200000x1_S3200000_n_0_0_1 = Cert.ReferenceIdeal.scatter_S225000_S3200000x1_S3200000_n_0_0_1 := rfl
theorem rec_3 : Cert.KernelIdeal.scatter_S225000x64_S3200000x1_S3200000x64_1_0_0_1 = Cert.ReferenceIdeal.scatter_S225000x64_S3200000x1_S3200000x64_1_0_0_1 := rfl

/-! ## The first stretch, in two parts: the edge lists and the concatenated table, then the rest over them -/

theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons a l ih => exact ih _

/-- The contents after the first five operations of the first stretch. -/
def P0 : Valuation τ sig (Elt Ideal) := StableHlo.after ((hostOps0 (F := Ideal)).take 5) (W0 m ρ c)

theorem w1_split (b : DevRef τ sig) : W1 m ρ c b = StableHlo.after ((hostOps0 (F := Ideal)).drop 5) (P0 m ρ c) b := by
  show StableHlo.after hostOps0 (W0 m ρ c) b = _
  unfold P0
  rw [← after_append, List.take_append_drop]

theorem p0_src : P0 m ρ c (Proc.devRef .tc main_call0_v2) = val_main_v2 (F := Ideal) (A3 m c) := by
  unfold P0
  simp only [hostOps0, List.take_succ_cons, List.take_zero]
  after_results_simp <;> rfl
theorem p0_dst : P0 m ρ c (Proc.devRef .tc main_call0_v4) = val_main_v4 (F := Ideal) (A3 m c) := by
  unfold P0
  simp only [hostOps0, List.take_succ_cons, List.take_zero]
  after_results_simp <;> rfl
theorem p0_table : P0 m ρ c (Proc.devRef .tc main_call0_v0) = val_main_v0 (F := Ideal) (A0 m c) (A1 m c) := by
  unfold P0
  simp only [hostOps0, List.take_succ_cons, List.take_zero]
  after_results_simp <;> rfl
theorem p0_noise : P0 m ρ c (Proc.devRef .tc main_arg2) = A2 m c := by
  unfold P0
  simp only [hostOps0, List.take_succ_cons, List.take_zero]
  after_results_simp <;> rfl

theorem w1_src : W1 m ρ c (Proc.devRef .tc main_call0_v2) = val_main_v2 (F := Ideal) (A3 m c) := by
  rw [w1_split]
  generalize hP : P0 m ρ c = P
  have h := p0_src m ρ c; rw [hP] at h
  simp only [hostOps0, List.drop_succ_cons, List.drop_zero]
  after_results_simp
  exact h
theorem w1_dst : W1 m ρ c (Proc.devRef .tc main_call0_v4) = val_main_v4 (F := Ideal) (A3 m c) := by
  rw [w1_split]
  generalize hP : P0 m ρ c = P
  have h := p0_dst m ρ c; rw [hP] at h
  simp only [hostOps0, List.drop_succ_cons, List.drop_zero]
  after_results_simp
  exact h
theorem w1_noise : W1 m ρ c (Proc.devRef .tc main_arg2) = A2 m c := by
  rw [w1_split]
  generalize hP : P0 m ρ c = P
  have h := p0_noise m ρ c; rw [hP] at h
  simp only [hostOps0, List.drop_succ_cons, List.drop_zero]
  after_results_simp
  exact h

set_option maxRecDepth 100000 in
theorem w1_norm : W1 m ρ c (Proc.devRef .tc main_call0_v32) = val_main_v32 (F := Ideal) (A3 m c) := by
  rw [w1_split]
  generalize hP : P0 m ρ c = P
  have h2 := p0_src m ρ c; rw [hP] at h2
  have h4 := p0_dst m ρ c; rw [hP] at h4
  simp only [hostOps0, List.drop_succ_cons, List.drop_zero]
  after_results_simp
  simp only [cast_cast, cast_eq, h2, h4, val_main_cst, val_main_v5, val_main_cst_0, val_main_v6, val_main_v7, val_main_v8, val_main_cst_1, val_main_v9, val_main_v10, val_main_cst_2, val_main_v11, val_main_v12, val_main_cst_3, val_main_call0_v0, val_main_call0_v1, val_main_v13, val_main_v14, val_main_cst_4, val_main_v15, val_main_v16, val_main_cst_5, val_main_call1_v0, val_main_call1_v1, val_main_v17, val_main_c, val_main_v18, val_main_v19, val_main_c_6, val_main_v20, val_main_v21, val_main_v22, val_main_v23, val_main_v24, val_main_c_7, val_main_v25, val_main_v26, val_main_c_8, val_main_v27, val_main_v28, val_main_v29, val_main_v30, val_main_v31, val_main_v32, rec_0, rec_1, rec_2, rec_3]
  first | done | rfl

set_option maxRecDepth 100000 in
theorem w1_agg : W1 m ρ c (Proc.devRef .tc main_call0_v46) = val_main_v45 (F := Ideal) (A0 m c) (A1 m c) (A3 m c) := by
  rw [w1_split]
  generalize hP : P0 m ρ c = P
  have h0 := p0_table m ρ c; rw [hP] at h0
  have h2 := p0_src m ρ c; rw [hP] at h2
  have h4 := p0_dst m ρ c; rw [hP] at h4
  simp only [hostOps0, List.drop_succ_cons, List.drop_zero]
  after_results_simp
  simp only [cast_cast, cast_eq, h0, h2, h4, val_main_cst, val_main_v5, val_main_cst_0, val_main_v6, val_main_v7, val_main_v8, val_main_cst_1, val_main_v9, val_main_v10, val_main_cst_2, val_main_v11, val_main_v12, val_main_cst_3, val_main_call0_v0, val_main_call0_v1, val_main_v13, val_main_v14, val_main_cst_4, val_main_v15, val_main_v16, val_main_cst_5, val_main_call1_v0, val_main_call1_v1, val_main_v17, val_main_c, val_main_v18, val_main_v19, val_main_c_6, val_main_v20, val_main_v21, val_main_v22, val_main_v23, val_main_v24, val_main_c_7, val_main_v25, val_main_v26, val_main_c_8, val_main_v27, val_main_v28, val_main_v29, val_main_v30, val_main_v31, val_main_v32, val_main_c_9, val_main_v33, val_main_v34, val_main_c_10, val_main_v35, val_main_v36, val_main_v37, val_main_v38, val_main_v39, val_main_v40, val_main_v41, val_main_v42, val_main_cst_11, val_main_v43, val_main_v44, val_main_v45, rec_0, rec_1, rec_2, rec_3]
  first | done | rfl

theorem w1_nz : W1 m ρ c (Proc.devRef .tc main_call0_v48) = val_main_v47 (F := Ideal) (A2 m c) := by
  show StableHlo.after hostOps0 (W0 m ρ c) (Proc.devRef .tc main_call0_v48) = _
  after_results_simp <;> rfl

theorem w1_zero : W1 m ρ c (Proc.devRef .tc main_call0_v33) = zeroTable := by
  show StableHlo.after hostOps0 (W0 m ρ c) (Proc.devRef .tc main_call0_v33) = _
  after_results_simp <;> rfl

/-! ## Buffers no region writes, carried along: the edge lists, the edge weights, the noise argument -/

theorem w2_src : W2 m ρ c (Proc.devRef .tc main_call0_v2) = val_main_v2 (F := Ideal) (A3 m c) := (W2_of_ne m ρ c main_call0_v2 (by decide)).trans (w1_src m ρ c)
theorem w3_src : W3 m ρ c (Proc.devRef .tc main_call0_v2) = val_main_v2 (F := Ideal) (A3 m c) := by
  refine Eq.trans ?_ (w2_src m ρ c)
  show StableHlo.after hostOps1 (W2 m ρ c) (Proc.devRef .tc main_call0_v2) = _
  after_results_simp
theorem w4_src : W4 m ρ c (Proc.devRef .tc main_call0_v2) = val_main_v2 (F := Ideal) (A3 m c) := (W4_of_ne m ρ c main_call0_v2 (by decide)).trans (w3_src m ρ c)
theorem w5_src : W5 m ρ c (Proc.devRef .tc main_call0_v2) = val_main_v2 (F := Ideal) (A3 m c) := by
  refine Eq.trans ?_ (w4_src m ρ c)
  show StableHlo.after hostOps2 (W4 m ρ c) (Proc.devRef .tc main_call0_v2) = _
  after_results_simp

theorem w2_dst : W2 m ρ c (Proc.devRef .tc main_call0_v4) = val_main_v4 (F := Ideal) (A3 m c) := (W2_of_ne m ρ c main_call0_v4 (by decide)).trans (w1_dst m ρ c)
theorem w3_dst : W3 m ρ c (Proc.devRef .tc main_call0_v4) = val_main_v4 (F := Ideal) (A3 m c) := by
  refine Eq.trans ?_ (w2_dst m ρ c)
  show StableHlo.after hostOps1 (W2 m ρ c) (Proc.devRef .tc main_call0_v4) = _
  after_results_simp
theorem w4_dst : W4 m ρ c (Proc.devRef .tc main_call0_v4) = val_main_v4 (F := Ideal) (A3 m c) := (W4_of_ne m ρ c main_call0_v4 (by decide)).trans (w3_dst m ρ c)
theorem w5_dst : W5 m ρ c (Proc.devRef .tc main_call0_v4) = val_main_v4 (F := Ideal) (A3 m c) := by
  refine Eq.trans ?_ (w4_dst m ρ c)
  show StableHlo.after hostOps2 (W4 m ρ c) (Proc.devRef .tc main_call0_v4) = _
  after_results_simp

theorem w2_norm : W2 m ρ c (Proc.devRef .tc main_call0_v32) = val_main_v32 (F := Ideal) (A3 m c) := (W2_of_ne m ρ c main_call0_v32 (by decide)).trans (w1_norm m ρ c)
theorem w3_norm : W3 m ρ c (Proc.devRef .tc main_call0_v32) = val_main_v32 (F := Ideal) (A3 m c) := by
  refine Eq.trans ?_ (w2_norm m ρ c)
  show StableHlo.after hostOps1 (W2 m ρ c) (Proc.devRef .tc main_call0_v32) = _
  after_results_simp
theorem w4_norm : W4 m ρ c (Proc.devRef .tc main_call0_v32) = val_main_v32 (F := Ideal) (A3 m c) := (W4_of_ne m ρ c main_call0_v32 (by decide)).trans (w3_norm m ρ c)
theorem w5_norm : W5 m ρ c (Proc.devRef .tc main_call0_v32) = val_main_v32 (F := Ideal) (A3 m c) := by
  refine Eq.trans ?_ (w4_norm m ρ c)
  show StableHlo.after hostOps2 (W4 m ρ c) (Proc.devRef .tc main_call0_v32) = _
  after_results_simp

theorem w2_noise : W2 m ρ c (Proc.devRef .tc main_arg2) = A2 m c := (W2_of_ne m ρ c main_arg2 (by decide)).trans (w1_noise m ρ c)
theorem w3_noise : W3 m ρ c (Proc.devRef .tc main_arg2) = A2 m c := by
  refine Eq.trans ?_ (w2_noise m ρ c)
  show StableHlo.after hostOps1 (W2 m ρ c) (Proc.devRef .tc main_arg2) = _
  after_results_simp
theorem w4_noise : W4 m ρ c (Proc.devRef .tc main_arg2) = A2 m c := (W4_of_ne m ρ c main_arg2 (by decide)).trans (w3_noise m ρ c)
theorem w5_noise : W5 m ρ c (Proc.devRef .tc main_arg2) = A2 m c := by
  refine Eq.trans ?_ (w4_noise m ρ c)
  show StableHlo.after hostOps2 (W4 m ρ c) (Proc.devRef .tc main_arg2) = _
  after_results_simp

/-! ## The first region -/

theorem w2_layer (hfin : ∀ i, ∃ v : ℝ, A2 m c i = (v : EReal)) : W2 m ρ c (Proc.devRef .tc main_call0_v49_0) = val_main_v56 (F := Ideal) (A0 m c) (A1 m c) (A2 m c) (A3 m c) := by
  refine (W2_arr m ρ c 3).trans ?_
  rw [Cert.KernelIdeal.KReg0.final_3 (V1 m ρ) c]
  show Cert.KArr.layerArr (W1 m ρ c (Proc.devRef .tc main_call0_v46)) (W1 m ρ c (Proc.devRef .tc main_call0_v48)) = _
  rw [w1_agg, w1_nz]
  exact Cert.Bridge.layer1 _ _ _ _ hfin

theorem w2_acc : W2 m ρ c (Proc.devRef .tc main_call0_v49_1)
    = Cert.KArr.accArr zeroTable (val_main_v45 (F := Ideal) (A0 m c) (A1 m c) (A3 m c)) (val_main_v47 (F := Ideal) (A2 m c)) := by
  refine (W2_arr m ρ c 4).trans ?_
  rw [Cert.KernelIdeal.KReg0.final_4 (V1 m ρ) c]
  show Cert.KArr.accArr (W1 m ρ c (Proc.devRef .tc main_call0_v33)) (W1 m ρ c (Proc.devRef .tc main_call0_v46)) (W1 m ρ c (Proc.devRef .tc main_call0_v48)) = _
  rw [w1_agg, w1_nz, w1_zero]

/-! ## The second stretch -/

set_option maxRecDepth 100000 in
theorem w3_agg (hfin : ∀ i, ∃ v : ℝ, A2 m c i = (v : EReal)) : W3 m ρ c (Proc.devRef .tc main_call0_v62) = val_main_v69 (F := Ideal) (A0 m c) (A1 m c) (A2 m c) (A3 m c) := by
  show StableHlo.after hostOps1 (W2 m ρ c) (Proc.devRef .tc main_call0_v62) = _
  have hx := w2_layer m ρ c hfin
  have h2 := w2_src m ρ c
  have h4 := w2_dst m ρ c
  have h32 := w2_norm m ρ c
  generalize W2 m ρ c = W at hx h2 h4 h32 ⊢
  after_results_simp
  simp only [cast_cast, cast_eq, hx, h2, h4, h32, val_main_c_14, val_main_v57, val_main_v58, val_main_c_15, val_main_v59, val_main_v60, val_main_v61, val_main_v62, val_main_v63, val_main_v64, val_main_v65, val_main_v66, val_main_cst_16, val_main_v67, val_main_v68, val_main_v69, rec_0, rec_1, rec_2, rec_3]
  first | done | rfl

theorem w3_nz : W3 m ρ c (Proc.devRef .tc main_call0_v64) = val_main_v71 (F := Ideal) (A2 m c) := by
  show StableHlo.after hostOps1 (W2 m ρ c) (Proc.devRef .tc main_call0_v64) = _
  have hn := w2_noise m ρ c
  generalize W2 m ρ c = W at hn ⊢
  after_results_simp
  simp only [cast_cast, cast_eq, hn]
  first | done | rfl

theorem w3_acc : W3 m ρ c (Proc.devRef .tc main_call0_v49_1) = W2 m ρ c (Proc.devRef .tc main_call0_v49_1) := by
  show StableHlo.after hostOps1 (W2 m ρ c) (Proc.devRef .tc main_call0_v49_1) = _
  after_results_simp

/-! ## The second region -/

theorem w4_layer (hfin : ∀ i, ∃ v : ℝ, A2 m c i = (v : EReal)) : W4 m ρ c (Proc.devRef .tc main_call0_v65_0) = val_main_v80 (F := Ideal) (A0 m c) (A1 m c) (A2 m c) (A3 m c) := by
  refine (W4_arr m ρ c 3).trans ?_
  rw [Cert.KernelIdeal.KReg1.final_3 (V3 m ρ) c]
  show Cert.KArr.layerArr (W3 m ρ c (Proc.devRef .tc main_call0_v62)) (W3 m ρ c (Proc.devRef .tc main_call0_v64)) = _
  rw [w3_agg m ρ c hfin, w3_nz]
  exact Cert.Bridge.layer2 _ _ _ _ hfin

theorem w4_acc (hfin : ∀ i, ∃ v : ℝ, A2 m c i = (v : EReal)) : W4 m ρ c (Proc.devRef .tc main_call0_v65_1)
    = Cert.KArr.accArr (Cert.KArr.accArr zeroTable (val_main_v45 (F := Ideal) (A0 m c) (A1 m c) (A3 m c)) (val_main_v47 (F := Ideal) (A2 m c)))
        (val_main_v69 (F := Ideal) (A0 m c) (A1 m c) (A2 m c) (A3 m c)) (val_main_v71 (F := Ideal) (A2 m c)) := by
  refine (W4_arr m ρ c 4).trans ?_
  rw [Cert.KernelIdeal.KReg1.final_4 (V3 m ρ) c]
  show Cert.KArr.accArr (W3 m ρ c (Proc.devRef .tc main_call0_v49_1)) (W3 m ρ c (Proc.devRef .tc main_call0_v62)) (W3 m ρ c (Proc.devRef .tc main_call0_v64)) = _
  rw [w3_agg m ρ c hfin, w3_nz, w3_acc, w2_acc]

/-! ## The third stretch -/

set_option maxRecDepth 100000 in
theorem w5_agg (hfin : ∀ i, ∃ v : ℝ, A2 m c i = (v : EReal)) : W5 m ρ c (Proc.devRef .tc main_call0_v78) = val_main_v93 (F := Ideal) (A0 m c) (A1 m c) (A2 m c) (A3 m c) := by
  show StableHlo.after hostOps2 (W4 m ρ c) (Proc.devRef .tc main_call0_v78) = _
  have hx := w4_layer m ρ c hfin
  have h2 := w4_src m ρ c
  have h4 := w4_dst m ρ c
  have h32 := w4_norm m ρ c
  generalize W4 m ρ c = W at hx h2 h4 h32 ⊢
  after_results_simp
  simp only [cast_cast, cast_eq, hx, h2, h4, h32, val_main_c_19, val_main_v81, val_main_v82, val_main_c_20, val_main_v83, val_main_v84, val_main_v85, val_main_v86, val_main_v87, val_main_v88, val_main_v89, val_main_v90, val_main_cst_21, val_main_v91, val_main_v92, val_main_v93, rec_0, rec_1, rec_2, rec_3]
  first | done | rfl

theorem w5_nz : W5 m ρ c (Proc.devRef .tc main_call0_v80) = val_main_v95 (F := Ideal) (A2 m c) := by
  show StableHlo.after hostOps2 (W4 m ρ c) (Proc.devRef .tc main_call0_v80) = _
  have hn := w4_noise m ρ c
  generalize W4 m ρ c = W at hn ⊢
  after_results_simp
  simp only [cast_cast, cast_eq, hn]
  first | done | rfl

theorem w5_acc : W5 m ρ c (Proc.devRef .tc main_call0_v65_1) = W4 m ρ c (Proc.devRef .tc main_call0_v65_1) := by
  show StableHlo.after hostOps2 (W4 m ρ c) (Proc.devRef .tc main_call0_v65_1) = _
  after_results_simp

/-! ## The third region, and the results -/

theorem w6_mean (hfin : ∀ i, ∃ v : ℝ, A2 m c i = (v : EReal)) : W6 m ρ c (Proc.devRef .tc main_call0_v81) = val_main_v111 (F := Ideal) (A0 m c) (A1 m c) (A2 m c) (A3 m c) := by
  refine (W6_arr m ρ c 3).trans ?_
  rw [Cert.KernelIdeal.KReg2.final_3 (V5 m ρ) c]
  show Cert.KArr.meanArr (W5 m ρ c (Proc.devRef .tc main_call0_v65_1)) (W5 m ρ c (Proc.devRef .tc main_call0_v78)) (W5 m ρ c (Proc.devRef .tc main_call0_v80)) = _
  rw [w5_agg m ρ c hfin, w5_nz, w5_acc, w4_acc m ρ c hfin]
  exact Cert.Bridge.mean _ _ _ _ hfin zeroTable zeroTable_apply

/-- The first result: the first 150000 rows of the mean table. -/
theorem result0 (hfin : ∀ i, ∃ v : ℝ, A2 m c i = (v : EReal)) : W7 m ρ c (Proc.devRef .tc main_v0_0) = val_main_v112 (F := Ideal) (A0 m c) (A1 m c) (A2 m c) (A3 m c) := by
  show StableHlo.after hostOps3 (W6 m ρ c) (Proc.devRef .tc main_v0_0) = _
  have hm := w6_mean m ρ c hfin
  generalize W6 m ρ c = W at hm ⊢
  after_results_simp
  simp only [cast_cast, cast_eq, hm]
  first | done | rfl

/-- The second result: the last 75000 rows. -/
theorem result1 (hfin : ∀ i, ∃ v : ℝ, A2 m c i = (v : EReal)) : W7 m ρ c (Proc.devRef .tc main_v0_1) = val_main_v113 (F := Ideal) (A0 m c) (A1 m c) (A2 m c) (A3 m c) := by
  show StableHlo.after hostOps3 (W6 m ρ c) (Proc.devRef .tc main_v0_1) = _
  have hm := w6_mean m ρ c hfin
  generalize W6 m ρ c = W at hm ⊢
  after_results_simp
  simp only [cast_cast, cast_eq, hm]
  first | done | rfl

end Cert.KernelIdeal.KChain

end
-- ==== Proof.RefRunH.lean ====
/-
  The reference program's run.

  The reference's @main is a straight line of 164 host operations. Every weakly fair execution of it terminates with each
  buffer at the fold of the operations' results over the launch contents. That fold is read here in nine consecutive
  chunks — the edge lists and the concatenated table; the degree normalisation, the first aggregation and the first noise
  slice; then, per layer, the perturbation and the next aggregation; finally the stack, its sum and the division by 3 —
  carrying across each boundary only the few buffers later chunks read, each held as the stage of that name. The two
  result buffers end at the last two stages, as functions of the four arguments' launch contents; the arguments are
  never written.
-/
import proofs.«112868_j41523743817917_2_alg».proof.Proof.RefRead
import Idealize.ShloMosaic.Lib.StableHlo.Run

noncomputable section

namespace Cert.ReferenceIdeal.RunH

open Cert.ReferenceIdeal Cert.ReferenceIdeal.Gen Cert.ReferenceIdeal.ReadP
open Idealize.ShloMosaic Idealize.ShloMosaic.TcCoe Idealize.SL.Sem Idealize.ShloMosaic.StableHlo

section Ops

variable {F : FTy → Type} [FloatOps F]

/-- Operations 1 … 5 of the reference's @main. -/
abbrev c0 : List (HloOp τ sig (Elt F)) :=
  [ binary main_arg0 main_arg1 main_v0 ((fun a b => concatenate S225000x64 0 [⟨S150000x64, a⟩, ⟨S75000x64, b⟩] concatenates_S150000x64_S75000x64_S225000x64_d0) : (⟨S150000x64, .f32⟩ : BufTy).Contents (Elt F) → (⟨S75000x64, .f32⟩ : BufTy).Contents (Elt F) → (⟨S225000x64, .f32⟩ : BufTy).Contents (Elt F)),
    unary main_arg3 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg3 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000 ]

/-- Operations 6 … 66 of the reference's @main. -/
abbrev c1 : List (HloOp τ sig (Elt F)) :=
  [ nullary main_cst (constant S_ .f32 0x3F800000#32),
    unary main_cst main_v5 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v6 (broadcastInDim S225000 ![] bcast_S_S225000 : (⟨S_, .f32⟩ : BufTy).Contents (Elt F) → (⟨S225000, .f32⟩ : BufTy).Contents (Elt F)),
    unary main_v4 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S225000_S3200000x1_S3200000_n_0_0_1 x i u) : (⟨S225000, .f32⟩ : BufTy).Contents (Elt F) → (⟨S3200000x1, .i32⟩ : BufTy).Contents (Elt F) → (⟨S3200000, .f32⟩ : BufTy).Contents (Elt F) → (⟨S225000, .f32⟩ : BufTy).Contents (Elt F)),
    nullary main_cst_1 (constant S_ .f32 0x00000000#32),
    unary main_cst_1 main_v9 (broadcastInDim S225000 ![] bcast_S_S225000 : (⟨S_, .f32⟩ : BufTy).Contents (Elt F) → (⟨S225000, .f32⟩ : BufTy).Contents (Elt F)),
    binary main_v8 main_v9 main_v10 (cmpf .ogt : (⟨S225000, .f32⟩ : BufTy).Contents (Elt F) → (⟨S225000, .f32⟩ : BufTy).Contents (Elt F) → (⟨S225000, .i1⟩ : BufTy).Contents (Elt F)),
    nullary main_cst_2 (constant S_ .f32 0x00000000#32),
    unary main_cst_2 main_v11 (broadcastInDim S225000 ![] bcast_S_S225000 : (⟨S_, .f32⟩ : BufTy).Contents (Elt F) → (⟨S225000, .f32⟩ : BufTy).Contents (Elt F)),
    binary main_v8 main_v11 main_v12 (cmpf .ogt : (⟨S225000, .f32⟩ : BufTy).Contents (Elt F) → (⟨S225000, .f32⟩ : BufTy).Contents (Elt F) → (⟨S225000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S225000, .f32⟩) main_call0_v1) (broadcastInDim S225000 ![] bcast_S_S225000),
    TRef.ternary (TRef.of (T := ⟨S225000, .i1⟩) main_v12) (TRef.of (T := ⟨S225000, .f32⟩) main_v8) (TRef.of (T := ⟨S225000, .f32⟩) main_call0_v1) (TRef.of (T := ⟨S225000, .f32⟩) main_v13) select,
    unary main_v13 main_v14 (Host.sqrt : (⟨S225000, .f32⟩ : BufTy).Contents (Elt F) → (⟨S225000, .f32⟩ : BufTy).Contents (Elt F)),
    nullary main_cst_4 (constant S_ .f32 0x3F800000#32),
    unary main_cst_4 main_v15 (broadcastInDim S225000 ![] bcast_S_S225000 : (⟨S_, .f32⟩ : BufTy).Contents (Elt F) → (⟨S225000, .f32⟩ : BufTy).Contents (Elt F)),
    binary main_v15 main_v14 main_v16 (Host.divf : (⟨S225000, .f32⟩ : BufTy).Contents (Elt F) → (⟨S225000, .f32⟩ : BufTy).Contents (Elt F) → (⟨S225000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S225000, .f32⟩) main_call1_v1) (broadcastInDim S225000 ![] bcast_S_S225000),
    TRef.ternary (TRef.of (T := ⟨S225000, .i1⟩) main_v10) (TRef.of (T := ⟨S225000, .f32⟩) main_v16) (TRef.of (T := ⟨S225000, .f32⟩) main_call1_v1) (TRef.of (T := ⟨S225000, .f32⟩) main_v17) select,
    nullary main_c (constantI S_ 32 0#32),
    unary main_c main_v18 (broadcastInDim S3200000 ![] bcast_S_S3200000 : (⟨S_, .i32⟩ : BufTy).Contents (Elt F) → (⟨S3200000, .i32⟩ : BufTy).Contents (Elt F)),
    binary main_v2 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 225000#32),
    unary main_c_6 main_v20 (broadcastInDim S3200000 ![] bcast_S_S3200000 : (⟨S_, .i32⟩ : BufTy).Contents (Elt F) → (⟨S3200000, .i32⟩ : BufTy).Contents (Elt F)),
    binary main_v2 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_v2 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_v17 main_v23 main_v24 ((fun x i => Host.gather gather_S225000_S3200000x1_S3200000_n_0_n_n_0_1_1 x i) : (⟨S225000, .f32⟩ : BufTy).Contents (Elt F) → (⟨S3200000x1, .i32⟩ : BufTy).Contents (Elt F) → (⟨S3200000, .f32⟩ : BufTy).Contents (Elt F)),
    nullary main_c_7 (constantI S_ 32 0#32),
    unary main_c_7 main_v25 (broadcastInDim S3200000 ![] bcast_S_S3200000 : (⟨S_, .i32⟩ : BufTy).Contents (Elt F) → (⟨S3200000, .i32⟩ : BufTy).Contents (Elt F)),
    binary main_v4 main_v25 main_v26 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 225000#32),
    unary main_c_8 main_v27 (broadcastInDim S3200000 ![] bcast_S_S3200000 : (⟨S_, .i32⟩ : BufTy).Contents (Elt F) → (⟨S3200000, .i32⟩ : BufTy).Contents (Elt F)),
    binary main_v4 main_v27 main_v28 (addi : (⟨S3200000, .i32⟩ : BufTy).Contents (Elt F) → (⟨S3200000, .i32⟩ : BufTy).Contents (Elt F) → (⟨S3200000, .i32⟩ : BufTy).Contents (Elt F)),
    ternary main_v26 main_v28 main_v4 main_v29 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v29 main_v30 (broadcastInDim S3200000x1 ![0] bcast_S3200000_S3200000x1_0 : (⟨S3200000, .i32⟩ : BufTy).Contents (Elt F) → (⟨S3200000x1, .i32⟩ : BufTy).Contents (Elt F)),
    binary main_v17 main_v30 main_v31 ((fun x i => Host.gather gather_S225000_S3200000x1_S3200000_n_0_n_n_0_1_1 x i) : (⟨S225000, .f32⟩ : BufTy).Contents (Elt F) → (⟨S3200000x1, .i32⟩ : BufTy).Contents (Elt F) → (⟨S3200000, .f32⟩ : BufTy).Contents (Elt F)),
    binary main_v24 main_v31 main_v32 (mulf : (⟨S3200000, .f32⟩ : BufTy).Contents (Elt F) → (⟨S3200000, .f32⟩ : BufTy).Contents (Elt F) → (⟨S3200000, .f32⟩ : BufTy).Contents (Elt F)),
    nullary main_c_9 (constantI S_ 32 0#32),
    unary main_c_9 main_v33 (broadcastInDim S3200000 ![] bcast_S_S3200000 : (⟨S_, .i32⟩ : BufTy).Contents (Elt F) → (⟨S3200000, .i32⟩ : BufTy).Contents (Elt F)),
    binary main_v2 main_v33 main_v34 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 225000#32),
    unary main_c_10 main_v35 (broadcastInDim S3200000 ![] bcast_S_S3200000 : (⟨S_, .i32⟩ : BufTy).Contents (Elt F) → (⟨S3200000, .i32⟩ : BufTy).Contents (Elt F)),
    binary main_v2 main_v35 main_v36 (addi : (⟨S3200000, .i32⟩ : BufTy).Contents (Elt F) → (⟨S3200000, .i32⟩ : BufTy).Contents (Elt F) → (⟨S3200000, .i32⟩ : BufTy).Contents (Elt F)),
    ternary main_v34 main_v36 main_v2 main_v37 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v37 main_v38 (broadcastInDim S3200000x1 ![0] bcast_S3200000_S3200000x1_0 : (⟨S3200000, .i32⟩ : BufTy).Contents (Elt F) → (⟨S3200000x1, .i32⟩ : BufTy).Contents (Elt F)),
    binary main_v0 main_v38 main_v39 ((fun x i => Host.gather gather_S225000x64_S3200000x1_S3200000x64_1_0_n_n_0_1_164 x i) : (⟨S225000x64, .f32⟩ : BufTy).Contents (Elt F) → (⟨S3200000x1, .i32⟩ : BufTy).Contents (Elt F) → (⟨S3200000x64, .f32⟩ : BufTy).Contents (Elt F)),
    unary main_v32 main_v40 (broadcastInDim S3200000x1 ![0] bcast_S3200000_S3200000x1_0 : (⟨S3200000, .f32⟩ : BufTy).Contents (Elt F) → (⟨S3200000x1, .f32⟩ : BufTy).Contents (Elt F)),
    unary main_v40 main_v41 (broadcastInDim S3200000x64 ![0, 1] bcast_S3200000x1_S3200000x64_0_1 : (⟨S3200000x1, .f32⟩ : BufTy).Contents (Elt F) → (⟨S3200000x64, .f32⟩ : BufTy).Contents (Elt F)),
    binary main_v39 main_v41 main_v42 (mulf : (⟨S3200000x64, .f32⟩ : BufTy).Contents (Elt F) → (⟨S3200000x64, .f32⟩ : BufTy).Contents (Elt F) → (⟨S3200000x64, .f32⟩ : BufTy).Contents (Elt F)),
    nullary main_cst_11 (constant S_ .f32 0x00000000#32),
    unary main_cst_11 main_v43 (broadcastInDim S225000x64 ![] bcast_S_S225000x64 : (⟨S_, .f32⟩ : BufTy).Contents (Elt F) → (⟨S225000x64, .f32⟩ : BufTy).Contents (Elt F)),
    unary main_v4 main_v44 (broadcastInDim S3200000x1 ![0] bcast_S3200000_S3200000x1_0 : (⟨S3200000, .i32⟩ : BufTy).Contents (Elt F) → (⟨S3200000x1, .i32⟩ : BufTy).Contents (Elt F)),
    ternary main_v43 main_v44 main_v42 main_v45 ((fun x i u => Host.scatterAdd scatter_S225000x64_S3200000x1_S3200000x64_1_0_0_1 x i u) : (⟨S225000x64, .f32⟩ : BufTy).Contents (Elt F) → (⟨S3200000x1, .i32⟩ : BufTy).Contents (Elt F) → (⟨S3200000x64, .f32⟩ : BufTy).Contents (Elt F) → (⟨S225000x64, .f32⟩ : BufTy).Contents (Elt F)),
    unary main_arg2 main_v46 ((extractStridedSlice S1x225000x64 ![0, 0, 0] · slices_S3x225000x64_S1x225000x64_0_0_0) : (⟨S3x225000x64, .f32⟩ : BufTy).Contents (Elt F) → (⟨S1x225000x64, .f32⟩ : BufTy).Contents (Elt F)),
    reshape main_v46 main_v47 rfl shapeCasts_S1x225000x64_S225000x64 ]

/-- Operations 67 … 83 of the reference's @main. -/
abbrev c2 : List (HloOp τ sig (Elt F)) :=
  [ TRef.binary (TRef.of (T := ⟨S225000x64, .f32⟩) main_v47) (TRef.of (T := ⟨S225000x64, .f32⟩) main_v47) (TRef.of (T := ⟨S225000x64, .f32⟩) main_call2_v0) mulf,
    TRef.nullary (TRef.of (T := ⟨S_, .f32⟩) main_call2_cst) (constant S_ .f32 0x00000000#32),
    TRef.binary (TRef.of (T := ⟨S225000x64, .f32⟩) main_call2_v0) (TRef.of (T := ⟨S_, .f32⟩) main_call2_cst) (TRef.of (T := ⟨S225000, .f32⟩) main_call2_v1) (fun x v => Host.reduceAdd x v reducesTo_S225000x64_S225000_d1 h_S_),
    TRef.unary (TRef.of (T := ⟨S225000, .f32⟩) main_call2_v1) (TRef.of (T := ⟨S225000x1, .f32⟩) main_call2_v2) (broadcastInDim S225000x1 ![0] bcast_S225000_S225000x1_0),
    TRef.unary (TRef.of (T := ⟨S225000x1, .f32⟩) main_call2_v2) (TRef.of (T := ⟨S225000x1, .f32⟩) main_v48) Host.sqrt,
    nullary main_cst_12 (constant S_ .f32 0x2B8CBCCC#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S225000x1, .f32⟩) main_call3_v1) (broadcastInDim S225000x1 ![] bcast_S_S225000x1),
    TRef.binary (TRef.of (T := ⟨S225000x1, .f32⟩) main_call3_v1) (TRef.of (T := ⟨S225000x1, .f32⟩) main_v48) (TRef.of (T := ⟨S225000x1, .f32⟩) main_v49) maximumf,
    unary main_v49 main_v50 (broadcastInDim S225000x64 ![0, 1] bcast_S225000x1_S225000x64_0_1 : (⟨S225000x1, .f32⟩ : BufTy).Contents (Elt F) → (⟨S225000x64, .f32⟩ : BufTy).Contents (Elt F)),
    binary main_v47 main_v50 main_v51 (Host.divf : (⟨S225000x64, .f32⟩ : BufTy).Contents (Elt F) → (⟨S225000x64, .f32⟩ : BufTy).Contents (Elt F) → (⟨S225000x64, .f32⟩ : BufTy).Contents (Elt F)),
    unary main_v45 main_v52 (Host.sign : (⟨S225000x64, .f32⟩ : BufTy).Contents (Elt F) → (⟨S225000x64, .f32⟩ : BufTy).Contents (Elt F)),
    binary main_v52 main_v51 main_v53 (mulf : (⟨S225000x64, .f32⟩ : BufTy).Contents (Elt F) → (⟨S225000x64, .f32⟩ : BufTy).Contents (Elt F) → (⟨S225000x64, .f32⟩ : BufTy).Contents (Elt F)),
    nullary main_cst_13 (constant S_ .f32 0x3DCCCCCD#32),
    unary main_cst_13 main_v54 (broadcastInDim S225000x64 ![] bcast_S_S225000x64 : (⟨S_, .f32⟩ : BufTy).Contents (Elt F) → (⟨S225000x64, .f32⟩ : BufTy).Contents (Elt F)),
    binary main_v53 main_v54 main_v55 (mulf : (⟨S225000x64, .f32⟩ : BufTy).Contents (Elt F) → (⟨S225000x64, .f32⟩ : BufTy).Contents (Elt F) → (⟨S225000x64, .f32⟩ : BufTy).Contents (Elt F)),
    binary main_v45 main_v55 main_v56 (addf : (⟨S225000x64, .f32⟩ : BufTy).Contents (Elt F) → (⟨S225000x64, .f32⟩ : BufTy).Contents (Elt F) → (⟨S225000x64, .f32⟩ : BufTy).Contents (Elt F)) ]

/-- Operations 84 … 101 of the reference's @main. -/
abbrev c3 : List (HloOp τ sig (Elt F)) :=
  [ nullary main_c_14 (constantI S_ 32 0#32),
    unary main_c_14 main_v57 (broadcastInDim S3200000 ![] bcast_S_S3200000 : (⟨S_, .i32⟩ : BufTy).Contents (Elt F) → (⟨S3200000, .i32⟩ : BufTy).Contents (Elt F)),
    binary main_v2 main_v57 main_v58 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 225000#32),
    unary main_c_15 main_v59 (broadcastInDim S3200000 ![] bcast_S_S3200000 : (⟨S_, .i32⟩ : BufTy).Contents (Elt F) → (⟨S3200000, .i32⟩ : BufTy).Contents (Elt F)),
    binary main_v2 main_v59 main_v60 (addi : (⟨S3200000, .i32⟩ : BufTy).Contents (Elt F) → (⟨S3200000, .i32⟩ : BufTy).Contents (Elt F) → (⟨S3200000, .i32⟩ : BufTy).Contents (Elt F)),
    ternary main_v58 main_v60 main_v2 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v61 main_v62 (broadcastInDim S3200000x1 ![0] bcast_S3200000_S3200000x1_0 : (⟨S3200000, .i32⟩ : BufTy).Contents (Elt F) → (⟨S3200000x1, .i32⟩ : BufTy).Contents (Elt F)),
    binary main_v56 main_v62 main_v63 ((fun x i => Host.gather gather_S225000x64_S3200000x1_S3200000x64_1_0_n_n_0_1_164 x i) : (⟨S225000x64, .f32⟩ : BufTy).Contents (Elt F) → (⟨S3200000x1, .i32⟩ : BufTy).Contents (Elt F) → (⟨S3200000x64, .f32⟩ : BufTy).Contents (Elt F)),
    unary main_v32 main_v64 (broadcastInDim S3200000x1 ![0] bcast_S3200000_S3200000x1_0 : (⟨S3200000, .f32⟩ : BufTy).Contents (Elt F) → (⟨S3200000x1, .f32⟩ : BufTy).Contents (Elt F)),
    unary main_v64 main_v65 (broadcastInDim S3200000x64 ![0, 1] bcast_S3200000x1_S3200000x64_0_1 : (⟨S3200000x1, .f32⟩ : BufTy).Contents (Elt F) → (⟨S3200000x64, .f32⟩ : BufTy).Contents (Elt F)),
    binary main_v63 main_v65 main_v66 (mulf : (⟨S3200000x64, .f32⟩ : BufTy).Contents (Elt F) → (⟨S3200000x64, .f32⟩ : BufTy).Contents (Elt F) → (⟨S3200000x64, .f32⟩ : BufTy).Contents (Elt F)),
    nullary main_cst_16 (constant S_ .f32 0x00000000#32),
    unary main_cst_16 main_v67 (broadcastInDim S225000x64 ![] bcast_S_S225000x64 : (⟨S_, .f32⟩ : BufTy).Contents (Elt F) → (⟨S225000x64, .f32⟩ : BufTy).Contents (Elt F)),
    unary main_v4 main_v68 (broadcastInDim S3200000x1 ![0] bcast_S3200000_S3200000x1_0 : (⟨S3200000, .i32⟩ : BufTy).Contents (Elt F) → (⟨S3200000x1, .i32⟩ : BufTy).Contents (Elt F)),
    ternary main_v67 main_v68 main_v66 main_v69 ((fun x i u => Host.scatterAdd scatter_S225000x64_S3200000x1_S3200000x64_1_0_0_1 x i u) : (⟨S225000x64, .f32⟩ : BufTy).Contents (Elt F) → (⟨S3200000x1, .i32⟩ : BufTy).Contents (Elt F) → (⟨S3200000x64, .f32⟩ : BufTy).Contents (Elt F) → (⟨S225000x64, .f32⟩ : BufTy).Contents (Elt F)),
    unary main_arg2 main_v70 ((extractStridedSlice S1x225000x64 ![1, 0, 0] · slices_S3x225000x64_S1x225000x64_1_0_0) : (⟨S3x225000x64, .f32⟩ : BufTy).Contents (Elt F) → (⟨S1x225000x64, .f32⟩ : BufTy).Contents (Elt F)),
    reshape main_v70 main_v71 rfl shapeCasts_S1x225000x64_S225000x64 ]

/-- Operations 102 … 118 of the reference's @main. -/
abbrev c4 : List (HloOp τ sig (Elt F)) :=
  [ TRef.binary (TRef.of (T := ⟨S225000x64, .f32⟩) main_v71) (TRef.of (T := ⟨S225000x64, .f32⟩) main_v71) (TRef.of (T := ⟨S225000x64, .f32⟩) main_call4_v0) mulf,
    TRef.nullary (TRef.of (T := ⟨S_, .f32⟩) main_call4_cst) (constant S_ .f32 0x00000000#32),
    TRef.binary (TRef.of (T := ⟨S225000x64, .f32⟩) main_call4_v0) (TRef.of (T := ⟨S_, .f32⟩) main_call4_cst) (TRef.of (T := ⟨S225000, .f32⟩) main_call4_v1) (fun x v => Host.reduceAdd x v reducesTo_S225000x64_S225000_d1 h_S_),
    TRef.unary (TRef.of (T := ⟨S225000, .f32⟩) main_call4_v1) (TRef.of (T := ⟨S225000x1, .f32⟩) main_call4_v2) (broadcastInDim S225000x1 ![0] bcast_S225000_S225000x1_0),
    TRef.unary (TRef.of (T := ⟨S225000x1, .f32⟩) main_call4_v2) (TRef.of (T := ⟨S225000x1, .f32⟩) main_v72) Host.sqrt,
    nullary main_cst_17 (constant S_ .f32 0x2B8CBCCC#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S225000x1, .f32⟩) main_call5_v1) (broadcastInDim S225000x1 ![] bcast_S_S225000x1),
    TRef.binary (TRef.of (T := ⟨S225000x1, .f32⟩) main_call5_v1) (TRef.of (T := ⟨S225000x1, .f32⟩) main_v72) (TRef.of (T := ⟨S225000x1, .f32⟩) main_v73) maximumf,
    unary main_v73 main_v74 (broadcastInDim S225000x64 ![0, 1] bcast_S225000x1_S225000x64_0_1 : (⟨S225000x1, .f32⟩ : BufTy).Contents (Elt F) → (⟨S225000x64, .f32⟩ : BufTy).Contents (Elt F)),
    binary main_v71 main_v74 main_v75 (Host.divf : (⟨S225000x64, .f32⟩ : BufTy).Contents (Elt F) → (⟨S225000x64, .f32⟩ : BufTy).Contents (Elt F) → (⟨S225000x64, .f32⟩ : BufTy).Contents (Elt F)),
    unary main_v69 main_v76 (Host.sign : (⟨S225000x64, .f32⟩ : BufTy).Contents (Elt F) → (⟨S225000x64, .f32⟩ : BufTy).Contents (Elt F)),
    binary main_v76 main_v75 main_v77 (mulf : (⟨S225000x64, .f32⟩ : BufTy).Contents (Elt F) → (⟨S225000x64, .f32⟩ : BufTy).Contents (Elt F) → (⟨S225000x64, .f32⟩ : BufTy).Contents (Elt F)),
    nullary main_cst_18 (constant S_ .f32 0x3DCCCCCD#32),
    unary main_cst_18 main_v78 (broadcastInDim S225000x64 ![] bcast_S_S225000x64 : (⟨S_, .f32⟩ : BufTy).Contents (Elt F) → (⟨S225000x64, .f32⟩ : BufTy).Contents (Elt F)),
    binary main_v77 main_v78 main_v79 (mulf : (⟨S225000x64, .f32⟩ : BufTy).Contents (Elt F) → (⟨S225000x64, .f32⟩ : BufTy).Contents (Elt F) → (⟨S225000x64, .f32⟩ : BufTy).Contents (Elt F)),
    binary main_v69 main_v79 main_v80 (addf : (⟨S225000x64, .f32⟩ : BufTy).Contents (Elt F) → (⟨S225000x64, .f32⟩ : BufTy).Contents (Elt F) → (⟨S225000x64, .f32⟩ : BufTy).Contents (Elt F)) ]

/-- Operations 119 … 136 of the reference's @main. -/
abbrev c5 : List (HloOp τ sig (Elt F)) :=
  [ nullary main_c_19 (constantI S_ 32 0#32),
    unary main_c_19 main_v81 (broadcastInDim S3200000 ![] bcast_S_S3200000 : (⟨S_, .i32⟩ : BufTy).Contents (Elt F) → (⟨S3200000, .i32⟩ : BufTy).Contents (Elt F)),
    binary main_v2 main_v81 main_v82 (cmpi .slt : (⟨S3200000, .i32⟩ : BufTy).Contents (Elt F) → (⟨S3200000, .i32⟩ : BufTy).Contents (Elt F) → (⟨S3200000, .i1⟩ : BufTy).Contents (Elt F)),
    nullary main_c_20 (constantI S_ 32 225000#32),
    unary main_c_20 main_v83 (broadcastInDim S3200000 ![] bcast_S_S3200000 : (⟨S_, .i32⟩ : BufTy).Contents (Elt F) → (⟨S3200000, .i32⟩ : BufTy).Contents (Elt F)),
    binary main_v2 main_v83 main_v84 (addi : (⟨S3200000, .i32⟩ : BufTy).Contents (Elt F) → (⟨S3200000, .i32⟩ : BufTy).Contents (Elt F) → (⟨S3200000, .i32⟩ : BufTy).Contents (Elt F)),
    ternary main_v82 main_v84 main_v2 main_v85 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v85 main_v86 (broadcastInDim S3200000x1 ![0] bcast_S3200000_S3200000x1_0 : (⟨S3200000, .i32⟩ : BufTy).Contents (Elt F) → (⟨S3200000x1, .i32⟩ : BufTy).Contents (Elt F)),
    binary main_v80 main_v86 main_v87 ((fun x i => Host.gather gather_S225000x64_S3200000x1_S3200000x64_1_0_n_n_0_1_164 x i) : (⟨S225000x64, .f32⟩ : BufTy).Contents (Elt F) → (⟨S3200000x1, .i32⟩ : BufTy).Contents (Elt F) → (⟨S3200000x64, .f32⟩ : BufTy).Contents (Elt F)),
    unary main_v32 main_v88 (broadcastInDim S3200000x1 ![0] bcast_S3200000_S3200000x1_0 : (⟨S3200000, .f32⟩ : BufTy).Contents (Elt F) → (⟨S3200000x1, .f32⟩ : BufTy).Contents (Elt F)),
    unary main_v88 main_v89 (broadcastInDim S3200000x64 ![0, 1] bcast_S3200000x1_S3200000x64_0_1 : (⟨S3200000x1, .f32⟩ : BufTy).Contents (Elt F) → (⟨S3200000x64, .f32⟩ : BufTy).Contents (Elt F)),
    binary main_v87 main_v89 main_v90 (mulf : (⟨S3200000x64, .f32⟩ : BufTy).Contents (Elt F) → (⟨S3200000x64, .f32⟩ : BufTy).Contents (Elt F) → (⟨S3200000x64, .f32⟩ : BufTy).Contents (Elt F)),
    nullary main_cst_21 (constant S_ .f32 0x00000000#32),
    unary main_cst_21 main_v91 (broadcastInDim S225000x64 ![] bcast_S_S225000x64 : (⟨S_, .f32⟩ : BufTy).Contents (Elt F) → (⟨S225000x64, .f32⟩ : BufTy).Contents (Elt F)),
    unary main_v4 main_v92 (broadcastInDim S3200000x1 ![0] bcast_S3200000_S3200000x1_0 : (⟨S3200000, .i32⟩ : BufTy).Contents (Elt F) → (⟨S3200000x1, .i32⟩ : BufTy).Contents (Elt F)),
    ternary main_v91 main_v92 main_v90 main_v93 ((fun x i u => Host.scatterAdd scatter_S225000x64_S3200000x1_S3200000x64_1_0_0_1 x i u) : (⟨S225000x64, .f32⟩ : BufTy).Contents (Elt F) → (⟨S3200000x1, .i32⟩ : BufTy).Contents (Elt F) → (⟨S3200000x64, .f32⟩ : BufTy).Contents (Elt F) → (⟨S225000x64, .f32⟩ : BufTy).Contents (Elt F)),
    unary main_arg2 main_v94 ((extractStridedSlice S1x225000x64 ![2, 0, 0] · slices_S3x225000x64_S1x225000x64_2_0_0) : (⟨S3x225000x64, .f32⟩ : BufTy).Contents (Elt F) → (⟨S1x225000x64, .f32⟩ : BufTy).Contents (Elt F)),
    reshape main_v94 main_v95 rfl shapeCasts_S1x225000x64_S225000x64 ]

/-- Operations 137 … 153 of the reference's @main. -/
abbrev c6 : List (HloOp τ sig (Elt F)) :=
  [ TRef.binary (TRef.of (T := ⟨S225000x64, .f32⟩) main_v95) (TRef.of (T := ⟨S225000x64, .f32⟩) main_v95) (TRef.of (T := ⟨S225000x64, .f32⟩) main_call6_v0) mulf,
    TRef.nullary (TRef.of (T := ⟨S_, .f32⟩) main_call6_cst) (constant S_ .f32 0x00000000#32),
    TRef.binary (TRef.of (T := ⟨S225000x64, .f32⟩) main_call6_v0) (TRef.of (T := ⟨S_, .f32⟩) main_call6_cst) (TRef.of (T := ⟨S225000, .f32⟩) main_call6_v1) (fun x v => Host.reduceAdd x v reducesTo_S225000x64_S225000_d1 h_S_),
    TRef.unary (TRef.of (T := ⟨S225000, .f32⟩) main_call6_v1) (TRef.of (T := ⟨S225000x1, .f32⟩) main_call6_v2) (broadcastInDim S225000x1 ![0] bcast_S225000_S225000x1_0),
    TRef.unary (TRef.of (T := ⟨S225000x1, .f32⟩) main_call6_v2) (TRef.of (T := ⟨S225000x1, .f32⟩) main_v96) Host.sqrt,
    nullary main_cst_22 (constant S_ .f32 0x2B8CBCCC#32),
    TRef.unary (TRef.of (T := ⟨S_, .f32⟩) main_cst_22) (TRef.of (T := ⟨S_, .f32⟩) main_call7_v0) id,
    TRef.unary (TRef.of (T := ⟨S_, .f32⟩) main_call7_v0) (TRef.of (T := ⟨S225000x1, .f32⟩) main_call7_v1) (broadcastInDim S225000x1 ![] bcast_S_S225000x1),
    TRef.binary (TRef.of (T := ⟨S225000x1, .f32⟩) main_call7_v1) (TRef.of (T := ⟨S225000x1, .f32⟩) main_v96) (TRef.of (T := ⟨S225000x1, .f32⟩) main_v97) maximumf,
    unary main_v97 main_v98 (broadcastInDim S225000x64 ![0, 1] bcast_S225000x1_S225000x64_0_1 : (⟨S225000x1, .f32⟩ : BufTy).Contents (Elt F) → (⟨S225000x64, .f32⟩ : BufTy).Contents (Elt F)),
    binary main_v95 main_v98 main_v99 (Host.divf : (⟨S225000x64, .f32⟩ : BufTy).Contents (Elt F) → (⟨S225000x64, .f32⟩ : BufTy).Contents (Elt F) → (⟨S225000x64, .f32⟩ : BufTy).Contents (Elt F)),
    unary main_v93 main_v100 (Host.sign : (⟨S225000x64, .f32⟩ : BufTy).Contents (Elt F) → (⟨S225000x64, .f32⟩ : BufTy).Contents (Elt F)),
    binary main_v100 main_v99 main_v101 (mulf : (⟨S225000x64, .f32⟩ : BufTy).Contents (Elt F) → (⟨S225000x64, .f32⟩ : BufTy).Contents (Elt F) → (⟨S225000x64, .f32⟩ : BufTy).Contents (Elt F)),
    nullary main_cst_23 (constant S_ .f32 0x3DCCCCCD#32),
    unary main_cst_23 main_v102 (broadcastInDim S225000x64 ![] bcast_S_S225000x64 : (⟨S_, .f32⟩ : BufTy).Contents (Elt F) → (⟨S225000x64, .f32⟩ : BufTy).Contents (Elt F)),
    binary main_v101 main_v102 main_v103 (mulf : (⟨S225000x64, .f32⟩ : BufTy).Contents (Elt F) → (⟨S225000x64, .f32⟩ : BufTy).Contents (Elt F) → (⟨S225000x64, .f32⟩ : BufTy).Contents (Elt F)),
    binary main_v93 main_v103 main_v104 (addf : (⟨S225000x64, .f32⟩ : BufTy).Contents (Elt F) → (⟨S225000x64, .f32⟩ : BufTy).Contents (Elt F) → (⟨S225000x64, .f32⟩ : BufTy).Contents (Elt F)) ]

/-- Operations 154 … 156 of the reference's @main. -/
abbrev c7 : List (HloOp τ sig (Elt F)) :=
  [ unary main_v56 main_v105 (broadcastInDim S225000x1x64 ![0, 2] bcast_S225000x64_S225000x1x64_0_2 : (⟨S225000x64, .f32⟩ : BufTy).Contents (Elt F) → (⟨S225000x1x64, .f32⟩ : BufTy).Contents (Elt F)),
    unary main_v80 main_v106 (broadcastInDim S225000x1x64 ![0, 2] bcast_S225000x64_S225000x1x64_0_2 : (⟨S225000x64, .f32⟩ : BufTy).Contents (Elt F) → (⟨S225000x1x64, .f32⟩ : BufTy).Contents (Elt F)),
    unary main_v104 main_v107 (broadcastInDim S225000x1x64 ![0, 2] bcast_S225000x64_S225000x1x64_0_2 : (⟨S225000x64, .f32⟩ : BufTy).Contents (Elt F) → (⟨S225000x1x64, .f32⟩ : BufTy).Contents (Elt F)) ]

/-- Operations 157 … 164 of the reference's @main. -/
abbrev c8 : List (HloOp τ sig (Elt F)) :=
  [ nary ![main_v105, main_v106, main_v107] main_v108 (fun u => concatenate S225000x3x64 1 [⟨S225000x1x64, u 0⟩, ⟨S225000x1x64, u 1⟩, ⟨S225000x1x64, u 2⟩] concatenates_S225000x1x64_S225000x1x64_S225000x1x64_S225000x3x64_d1),
    nullary main_cst_24 (constant S_ .f32 0x00000000#32),
    binary main_v108 main_cst_24 main_v109 ((fun x v => Host.reduceAdd x v reducesTo_S225000x3x64_S225000x64_d1 h_S_) : (⟨S225000x3x64, .f32⟩ : BufTy).Contents (Elt F) → (⟨S_, .f32⟩ : BufTy).Contents (Elt F) → (⟨S225000x64, .f32⟩ : BufTy).Contents (Elt F)),
    nullary main_cst_25 (constant S_ .f32 0x40400000#32),
    unary main_cst_25 main_v110 (broadcastInDim S225000x64 ![] bcast_S_S225000x64 : (⟨S_, .f32⟩ : BufTy).Contents (Elt F) → (⟨S225000x64, .f32⟩ : BufTy).Contents (Elt F)),
    binary main_v109 main_v110 main_v111 (Host.divf : (⟨S225000x64, .f32⟩ : BufTy).Contents (Elt F) → (⟨S225000x64, .f32⟩ : BufTy).Contents (Elt F) → (⟨S225000x64, .f32⟩ : BufTy).Contents (Elt F)),
    unary main_v111 main_v112 ((extractStridedSlice S150000x64 ![0, 0] · slices_S225000x64_S150000x64_0_0) : (⟨S225000x64, .f32⟩ : BufTy).Contents (Elt F) → (⟨S150000x64, .f32⟩ : BufTy).Contents (Elt F)),
    unary main_v111 main_v113 ((extractStridedSlice S75000x64 ![150000, 0] · slices_S225000x64_S75000x64_150000_0) : (⟨S225000x64, .f32⟩ : BufTy).Contents (Elt F) → (⟨S75000x64, .f32⟩ : BufTy).Contents (Elt F)) ]

/-- @main's 164 operations, in order. -/
abbrev ops : List (HloOp τ sig (Elt F)) := c0 ++ (c1 ++ (c2 ++ (c3 ++ (c4 ++ (c5 ++ (c6 ++ (c7 ++ c8)))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub ..⟩

end Ops

/-! ## The fold, chunk by chunk -/

theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons a l ih => exact ih _

variable (V : Valuation τ sig (Elt Ideal))

/-- The four arguments' contents. -/
abbrev a0 := V (Proc.devRef .tc main_arg0)
abbrev a1 := V (Proc.devRef .tc main_arg1)
abbrev a2 := V (Proc.devRef .tc main_arg2)
abbrev a3 := V (Proc.devRef .tc main_arg3)

/-- The contents at each chunk boundary. -/
def Q0 : Valuation τ sig (Elt Ideal) := V
def Q1 : Valuation τ sig (Elt Ideal) := StableHlo.after (c0 (F := Ideal)) (Q0 V)
def Q2 : Valuation τ sig (Elt Ideal) := StableHlo.after (c1 (F := Ideal)) (Q1 V)
def Q3 : Valuation τ sig (Elt Ideal) := StableHlo.after (c2 (F := Ideal)) (Q2 V)
def Q4 : Valuation τ sig (Elt Ideal) := StableHlo.after (c3 (F := Ideal)) (Q3 V)
def Q5 : Valuation τ sig (Elt Ideal) := StableHlo.after (c4 (F := Ideal)) (Q4 V)
def Q6 : Valuation τ sig (Elt Ideal) := StableHlo.after (c5 (F := Ideal)) (Q5 V)
def Q7 : Valuation τ sig (Elt Ideal) := StableHlo.after (c6 (F := Ideal)) (Q6 V)
def Q8 : Valuation τ sig (Elt Ideal) := StableHlo.after (c7 (F := Ideal)) (Q7 V)
def Q9 : Valuation τ sig (Elt Ideal) := StableHlo.after (c8 (F := Ideal)) (Q8 V)

theorem after_ops (b : DevRef τ sig) : StableHlo.after (ops (F := Ideal)) V b = Q9 V b := by
  unfold Q9 Q8 Q7 Q6 Q5 Q4 Q3 Q2 Q1 Q0
  simp only [ops, after_append]

theorem q0_arg2 : Q0 V (Proc.devRef .tc main_arg2) = a2 V := rfl

theorem q1_v0 : Q1 V (Proc.devRef .tc main_v0) = val_main_v0 (F := Ideal) (a0 V) (a1 V) := by
  unfold Q1 Q0
  simp only [c0]
  after_results_simp <;> rfl

theorem q1_v2 : Q1 V (Proc.devRef .tc main_v2) = val_main_v2 (F := Ideal) (a3 V) := by
  unfold Q1 Q0
  simp only [c0]
  after_results_simp <;> rfl

theorem q1_v4 : Q1 V (Proc.devRef .tc main_v4) = val_main_v4 (F := Ideal) (a3 V) := by
  unfold Q1 Q0
  simp only [c0]
  after_results_simp <;> rfl

theorem q1_arg2 : Q1 V (Proc.devRef .tc main_arg2) = a2 V := by
  unfold Q1
  refine Eq.trans ?_ (q0_arg2 V)
  generalize Q0 V = W
  simp only [c0]
  after_results_simp

set_option maxRecDepth 100000 in
theorem q2_v32 : Q2 V (Proc.devRef .tc main_v32) = val_main_v32 (F := Ideal) (a3 V) := by
  unfold Q2
  have h0 := q1_v2 V
  have h1 := q1_v4 V
  generalize Q1 V = W at h0 h1 ⊢
  simp only [c1]
  after_results_simp
  simp only [cast_cast, cast_eq, h0, h1, val_main_cst, val_main_v5, val_main_cst_0, val_main_v6, val_main_v7, val_main_v8, val_main_cst_1, val_main_v9, val_main_v10, val_main_cst_2, val_main_v11, val_main_v12, val_main_cst_3, val_main_call0_v0, val_main_call0_v1, val_main_v13, val_main_v14, val_main_cst_4, val_main_v15, val_main_v16, val_main_cst_5, val_main_call1_v0, val_main_call1_v1, val_main_v17, val_main_c, val_main_v18, val_main_v19, val_main_c_6, val_main_v20, val_main_v21, val_main_v22, val_main_v23, val_main_v24, val_main_c_7, val_main_v25, val_main_v26, val_main_c_8, val_main_v27, val_main_v28, val_main_v29, val_main_v30, val_main_v31, val_main_v32]
  first | done | rfl

set_option maxRecDepth 100000 in
theorem q2_v45 : Q2 V (Proc.devRef .tc main_v45) = val_main_v45 (F := Ideal) (a0 V) (a1 V) (a3 V) := by
  unfold Q2
  have h0 := q1_v0 V
  have h1 := q1_v2 V
  have h2 := q1_v4 V
  generalize Q1 V = W at h0 h1 h2 ⊢
  simp only [c1]
  after_results_simp
  simp only [cast_cast, cast_eq, h0, h1, h2, val_main_cst, val_main_v5, val_main_cst_0, val_main_v6, val_main_v7, val_main_v8, val_main_cst_1, val_main_v9, val_main_v10, val_main_cst_2, val_main_v11, val_main_v12, val_main_cst_3, val_main_call0_v0, val_main_call0_v1, val_main_v13, val_main_v14, val_main_cst_4, val_main_v15, val_main_v16, val_main_cst_5, val_main_call1_v0, val_main_call1_v1, val_main_v17, val_main_c, val_main_v18, val_main_v19, val_main_c_6, val_main_v20, val_main_v21, val_main_v22, val_main_v23, val_main_v24, val_main_c_7, val_main_v25, val_main_v26, val_main_c_8, val_main_v27, val_main_v28, val_main_v29, val_main_v30, val_main_v31, val_main_v32, val_main_c_9, val_main_v33, val_main_v34, val_main_c_10, val_main_v35, val_main_v36, val_main_v37, val_main_v38, val_main_v39, val_main_v40, val_main_v41, val_main_v42, val_main_cst_11, val_main_v43, val_main_v44, val_main_v45]
  first | done | rfl

set_option maxRecDepth 100000 in
theorem q2_v47 : Q2 V (Proc.devRef .tc main_v47) = val_main_v47 (F := Ideal) (a2 V) := by
  unfold Q2
  have h0 := q1_arg2 V
  generalize Q1 V = W at h0 ⊢
  simp only [c1]
  after_results_simp
  simp only [cast_cast, cast_eq, h0]
  first | done | rfl

theorem q2_v2 : Q2 V (Proc.devRef .tc main_v2) = val_main_v2 (F := Ideal) (a3 V) := by
  unfold Q2
  refine Eq.trans ?_ (q1_v2 V)
  generalize Q1 V = W
  simp only [c1]
  after_results_simp

theorem q2_v4 : Q2 V (Proc.devRef .tc main_v4) = val_main_v4 (F := Ideal) (a3 V) := by
  unfold Q2
  refine Eq.trans ?_ (q1_v4 V)
  generalize Q1 V = W
  simp only [c1]
  after_results_simp

theorem q2_arg2 : Q2 V (Proc.devRef .tc main_arg2) = a2 V := by
  unfold Q2
  refine Eq.trans ?_ (q1_arg2 V)
  generalize Q1 V = W
  simp only [c1]
  after_results_simp

set_option maxRecDepth 100000 in
theorem q3_v56 : Q3 V (Proc.devRef .tc main_v56) = val_main_v56 (F := Ideal) (a0 V) (a1 V) (a2 V) (a3 V) := by
  unfold Q3
  have h0 := q2_v45 V
  have h1 := q2_v47 V
  generalize Q2 V = W at h0 h1 ⊢
  simp only [c2]
  after_results_simp
  simp only [cast_cast, cast_eq, h0, h1, val_main_call2_v0, val_main_call2_cst, val_main_call2_v1, val_main_call2_v2, val_main_v48, val_main_cst_12, val_main_call3_v0, val_main_call3_v1, val_main_v49, val_main_v50, val_main_v51, val_main_v52, val_main_v53, val_main_cst_13, val_main_v54, val_main_v55, val_main_v56]
  first | done | rfl

theorem q3_v2 : Q3 V (Proc.devRef .tc main_v2) = val_main_v2 (F := Ideal) (a3 V) := by
  unfold Q3
  refine Eq.trans ?_ (q2_v2 V)
  generalize Q2 V = W
  simp only [c2]
  after_results_simp

theorem q3_v4 : Q3 V (Proc.devRef .tc main_v4) = val_main_v4 (F := Ideal) (a3 V) := by
  unfold Q3
  refine Eq.trans ?_ (q2_v4 V)
  generalize Q2 V = W
  simp only [c2]
  after_results_simp

theorem q3_v32 : Q3 V (Proc.devRef .tc main_v32) = val_main_v32 (F := Ideal) (a3 V) := by
  unfold Q3
  refine Eq.trans ?_ (q2_v32 V)
  generalize Q2 V = W
  simp only [c2]
  after_results_simp

theorem q3_arg2 : Q3 V (Proc.devRef .tc main_arg2) = a2 V := by
  unfold Q3
  refine Eq.trans ?_ (q2_arg2 V)
  generalize Q2 V = W
  simp only [c2]
  after_results_simp

set_option maxRecDepth 100000 in
theorem q4_v69 : Q4 V (Proc.devRef .tc main_v69) = val_main_v69 (F := Ideal) (a0 V) (a1 V) (a2 V) (a3 V) := by
  unfold Q4
  have h0 := q3_v56 V
  have h1 := q3_v2 V
  have h2 := q3_v4 V
  have h3 := q3_v32 V
  generalize Q3 V = W at h0 h1 h2 h3 ⊢
  simp only [c3]
  after_results_simp
  simp only [cast_cast, cast_eq, h0, h1, h2, h3, val_main_c_14, val_main_v57, val_main_v58, val_main_c_15, val_main_v59, val_main_v60, val_main_v61, val_main_v62, val_main_v63, val_main_v64, val_main_v65, val_main_v66, val_main_cst_16, val_main_v67, val_main_v68, val_main_v69]
  first | done | rfl

set_option maxRecDepth 100000 in
theorem q4_v71 : Q4 V (Proc.devRef .tc main_v71) = val_main_v71 (F := Ideal) (a2 V) := by
  unfold Q4
  have h0 := q3_arg2 V
  generalize Q3 V = W at h0 ⊢
  simp only [c3]
  after_results_simp
  simp only [cast_cast, cast_eq, h0]
  first | done | rfl

theorem q4_v2 : Q4 V (Proc.devRef .tc main_v2) = val_main_v2 (F := Ideal) (a3 V) := by
  unfold Q4
  refine Eq.trans ?_ (q3_v2 V)
  generalize Q3 V = W
  simp only [c3]
  after_results_simp

theorem q4_v4 : Q4 V (Proc.devRef .tc main_v4) = val_main_v4 (F := Ideal) (a3 V) := by
  unfold Q4
  refine Eq.trans ?_ (q3_v4 V)
  generalize Q3 V = W
  simp only [c3]
  after_results_simp

theorem q4_v32 : Q4 V (Proc.devRef .tc main_v32) = val_main_v32 (F := Ideal) (a3 V) := by
  unfold Q4
  refine Eq.trans ?_ (q3_v32 V)
  generalize Q3 V = W
  simp only [c3]
  after_results_simp

theorem q4_arg2 : Q4 V (Proc.devRef .tc main_arg2) = a2 V := by
  unfold Q4
  refine Eq.trans ?_ (q3_arg2 V)
  generalize Q3 V = W
  simp only [c3]
  after_results_simp

theorem q4_v56 : Q4 V (Proc.devRef .tc main_v56) = val_main_v56 (F := Ideal) (a0 V) (a1 V) (a2 V) (a3 V) := by
  unfold Q4
  refine Eq.trans ?_ (q3_v56 V)
  generalize Q3 V = W
  simp only [c3]
  after_results_simp

set_option maxRecDepth 100000 in
theorem q5_v80 : Q5 V (Proc.devRef .tc main_v80) = val_main_v80 (F := Ideal) (a0 V) (a1 V) (a2 V) (a3 V) := by
  unfold Q5
  have h0 := q4_v69 V
  have h1 := q4_v71 V
  generalize Q4 V = W at h0 h1 ⊢
  simp only [c4]
  after_results_simp
  simp only [cast_cast, cast_eq, h0, h1, val_main_call4_v0, val_main_call4_cst, val_main_call4_v1, val_main_call4_v2, val_main_v72, val_main_cst_17, val_main_call5_v0, val_main_call5_v1, val_main_v73, val_main_v74, val_main_v75, val_main_v76, val_main_v77, val_main_cst_18, val_main_v78, val_main_v79, val_main_v80]
  first | done | rfl

theorem q5_v2 : Q5 V (Proc.devRef .tc main_v2) = val_main_v2 (F := Ideal) (a3 V) := by
  unfold Q5
  refine Eq.trans ?_ (q4_v2 V)
  generalize Q4 V = W
  simp only [c4]
  after_results_simp

theorem q5_v4 : Q5 V (Proc.devRef .tc main_v4) = val_main_v4 (F := Ideal) (a3 V) := by
  unfold Q5
  refine Eq.trans ?_ (q4_v4 V)
  generalize Q4 V = W
  simp only [c4]
  after_results_simp

theorem q5_v32 : Q5 V (Proc.devRef .tc main_v32) = val_main_v32 (F := Ideal) (a3 V) := by
  unfold Q5
  refine Eq.trans ?_ (q4_v32 V)
  generalize Q4 V = W
  simp only [c4]
  after_results_simp

theorem q5_arg2 : Q5 V (Proc.devRef .tc main_arg2) = a2 V := by
  unfold Q5
  refine Eq.trans ?_ (q4_arg2 V)
  generalize Q4 V = W
  simp only [c4]
  after_results_simp

theorem q5_v56 : Q5 V (Proc.devRef .tc main_v56) = val_main_v56 (F := Ideal) (a0 V) (a1 V) (a2 V) (a3 V) := by
  unfold Q5
  refine Eq.trans ?_ (q4_v56 V)
  generalize Q4 V = W
  simp only [c4]
  after_results_simp

set_option maxRecDepth 100000 in
theorem q6_v93 : Q6 V (Proc.devRef .tc main_v93) = val_main_v93 (F := Ideal) (a0 V) (a1 V) (a2 V) (a3 V) := by
  unfold Q6
  have h0 := q5_v80 V
  have h1 := q5_v2 V
  have h2 := q5_v4 V
  have h3 := q5_v32 V
  generalize Q5 V = W at h0 h1 h2 h3 ⊢
  simp only [c5]
  after_results_simp
  simp only [cast_cast, cast_eq, h0, h1, h2, h3, val_main_c_19, val_main_v81, val_main_v82, val_main_c_20, val_main_v83, val_main_v84, val_main_v85, val_main_v86, val_main_v87, val_main_v88, val_main_v89, val_main_v90, val_main_cst_21, val_main_v91, val_main_v92, val_main_v93]
  first | done | rfl

set_option maxRecDepth 100000 in
theorem q6_v95 : Q6 V (Proc.devRef .tc main_v95) = val_main_v95 (F := Ideal) (a2 V) := by
  unfold Q6
  have h0 := q5_arg2 V
  generalize Q5 V = W at h0 ⊢
  simp only [c5]
  after_results_simp
  simp only [cast_cast, cast_eq, h0]
  first | done | rfl

theorem q6_v56 : Q6 V (Proc.devRef .tc main_v56) = val_main_v56 (F := Ideal) (a0 V) (a1 V) (a2 V) (a3 V) := by
  unfold Q6
  refine Eq.trans ?_ (q5_v56 V)
  generalize Q5 V = W
  simp only [c5]
  after_results_simp

theorem q6_v80 : Q6 V (Proc.devRef .tc main_v80) = val_main_v80 (F := Ideal) (a0 V) (a1 V) (a2 V) (a3 V) := by
  unfold Q6
  refine Eq.trans ?_ (q5_v80 V)
  generalize Q5 V = W
  simp only [c5]
  after_results_simp

set_option maxRecDepth 100000 in
theorem q7_v104 : Q7 V (Proc.devRef .tc main_v104) = val_main_v104 (F := Ideal) (a0 V) (a1 V) (a2 V) (a3 V) := by
  unfold Q7
  have h0 := q6_v93 V
  have h1 := q6_v95 V
  generalize Q6 V = W at h0 h1 ⊢
  simp only [c6]
  after_results_simp
  simp only [cast_cast, cast_eq, h0, h1, val_main_call6_v0, val_main_call6_cst, val_main_call6_v1, val_main_call6_v2, val_main_v96, val_main_cst_22, val_main_call7_v0, val_main_call7_v1, val_main_v97, val_main_v98, val_main_v99, val_main_v100, val_main_v101, val_main_cst_23, val_main_v102, val_main_v103, val_main_v104]
  first | done | rfl

theorem q7_v56 : Q7 V (Proc.devRef .tc main_v56) = val_main_v56 (F := Ideal) (a0 V) (a1 V) (a2 V) (a3 V) := by
  unfold Q7
  refine Eq.trans ?_ (q6_v56 V)
  generalize Q6 V = W
  simp only [c6]
  after_results_simp

theorem q7_v80 : Q7 V (Proc.devRef .tc main_v80) = val_main_v80 (F := Ideal) (a0 V) (a1 V) (a2 V) (a3 V) := by
  unfold Q7
  refine Eq.trans ?_ (q6_v80 V)
  generalize Q6 V = W
  simp only [c6]
  after_results_simp

set_option maxRecDepth 100000 in
theorem q8_v105 : Q8 V (Proc.devRef .tc main_v105) = val_main_v105 (F := Ideal) (a0 V) (a1 V) (a2 V) (a3 V) := by
  unfold Q8
  have h0 := q7_v56 V
  generalize Q7 V = W at h0 ⊢
  simp only [c7]
  after_results_simp
  simp only [cast_cast, cast_eq, h0, val_main_v105]
  first | done | rfl

set_option maxRecDepth 100000 in
theorem q8_v106 : Q8 V (Proc.devRef .tc main_v106) = val_main_v106 (F := Ideal) (a0 V) (a1 V) (a2 V) (a3 V) := by
  unfold Q8
  have h0 := q7_v80 V
  generalize Q7 V = W at h0 ⊢
  simp only [c7]
  after_results_simp
  simp only [cast_cast, cast_eq, h0, val_main_v106]
  first | done | rfl

set_option maxRecDepth 100000 in
theorem q8_v107 : Q8 V (Proc.devRef .tc main_v107) = val_main_v107 (F := Ideal) (a0 V) (a1 V) (a2 V) (a3 V) := by
  unfold Q8
  have h0 := q7_v104 V
  generalize Q7 V = W at h0 ⊢
  simp only [c7]
  after_results_simp
  simp only [cast_cast, cast_eq, h0, val_main_v107]
  first | done | rfl

set_option maxRecDepth 100000 in
theorem q9_v112 : Q9 V (Proc.devRef .tc main_v112) = val_main_v112 (F := Ideal) (a0 V) (a1 V) (a2 V) (a3 V) := by
  unfold Q9
  have h0 := q8_v105 V
  have h1 := q8_v106 V
  have h2 := q8_v107 V
  generalize Q8 V = W at h0 h1 h2 ⊢
  simp only [c8]
  after_results_simp
  show extractStridedSlice S150000x64 ![0, 0] (Host.divf (F := Ideal) (Host.reduceAdd (F := Ideal) (concatenate S225000x3x64 1 [⟨S225000x1x64, W (Proc.devRef .tc main_v105)⟩, ⟨S225000x1x64, W (Proc.devRef .tc main_v106)⟩, ⟨S225000x1x64, W (Proc.devRef .tc main_v107)⟩] concatenates_S225000x1x64_S225000x1x64_S225000x1x64_S225000x3x64_d1) (constant (F := Ideal) S_ .f32 0x00000000#32) reducesTo_S225000x3x64_S225000x64_d1 h_S_) (broadcastInDim S225000x64 ![] bcast_S_S225000x64 (constant (F := Ideal) S_ .f32 0x40400000#32))) slices_S225000x64_S150000x64_0_0 = _
  rw [h0, h1, h2]
  simp only [val_main_v108, val_main_cst_24, val_main_v109, val_main_cst_25, val_main_v110, val_main_v111, val_main_v112]

set_option maxRecDepth 100000 in
theorem q9_v113 : Q9 V (Proc.devRef .tc main_v113) = val_main_v113 (F := Ideal) (a0 V) (a1 V) (a2 V) (a3 V) := by
  unfold Q9
  have h0 := q8_v105 V
  have h1 := q8_v106 V
  have h2 := q8_v107 V
  generalize Q8 V = W at h0 h1 h2 ⊢
  simp only [c8]
  after_results_simp
  show extractStridedSlice S75000x64 ![150000, 0] (Host.divf (F := Ideal) (Host.reduceAdd (F := Ideal) (concatenate S225000x3x64 1 [⟨S225000x1x64, W (Proc.devRef .tc main_v105)⟩, ⟨S225000x1x64, W (Proc.devRef .tc main_v106)⟩, ⟨S225000x1x64, W (Proc.devRef .tc main_v107)⟩] concatenates_S225000x1x64_S225000x1x64_S225000x1x64_S225000x3x64_d1) (constant (F := Ideal) S_ .f32 0x00000000#32) reducesTo_S225000x3x64_S225000x64_d1 h_S_) (broadcastInDim S225000x64 ![] bcast_S_S225000x64 (constant (F := Ideal) S_ .f32 0x40400000#32))) slices_S225000x64_S75000x64_150000_0 = _
  rw [h0, h1, h2]
  simp only [val_main_v108, val_main_cst_24, val_main_v109, val_main_cst_25, val_main_v110, val_main_v111, val_main_v113]

/-! ## The run -/

set_option maxRecDepth 8192 in
set_option maxHeartbeats 65600000 in
/-- Every weakly fair execution of the reference terminates with its two results at the last two stages of the arguments'
    launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v113) = val_main_v113 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v112).trans ((after_ops _ _).trans (q9_v112 _)),
      (h c main_v113).trans ((after_ops _ _).trans (q9_v113 _)),
      (h c main_arg0).trans (by simp only [ops, c0, c1, c2, c3, c4, c5, c6, c7, c8, List.cons_append, List.nil_append]; after_results_simp <;> rfl),
      (h c main_arg1).trans (by simp only [ops, c0, c1, c2, c3, c4, c5, c6, c7, c8, List.cons_append, List.nil_append]; after_results_simp <;> rfl),
      (h c main_arg2).trans (by simp only [ops, c0, c1, c2, c3, c4, c5, c6, c7, c8, List.cons_append, List.nil_append]; after_results_simp <;> rfl),
      (h c main_arg3).trans (by simp only [ops, c0, c1, c2, c3, c4, c5, c6, c7, c8, List.cons_append, List.nil_append]; after_results_simp <;> rfl)⟩)
    (run_seq scopedRefs_eq scopedSems_eq defs main (fun _ => ops) main_eq (fun _ => ops_sub) m ρ)

end Cert.ReferenceIdeal.RunH

end
-- ==== Proof.Finite.lean ====
/-
  The precondition read back: every noise entry is a real number.

  The precondition is the conjunction of three "all entries have magnitude below +∞", one per float argument. Read at its
  one index it is 1, so each conjunct is 1, so the third one's reduction met a 1 at every noise entry: the entry's
  magnitude max(x, -x) is below +∞, which on the extended reals leaves only the real numbers.
-/
import proofs.«112868_j41523743817917_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose magnitude is below +∞ is a real number. -/
theorem real_of_abs_lt (x : EReal) (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every entry of the noise argument is a real number. -/
theorem noise_real (a0 : FVec Ideal S150000x64 .f32) (a1 : FVec Ideal S75000x64 .f32) (a2 : FVec Ideal S3x225000x64 .f32) (a3 : IVec S2x3200000 32)
    (h : fn (F := Ideal) a0 a1 a2 a3 = fun _ => 1#1) (i : S3x225000x64.Idx) : ∃ v : ℝ, a2 i = (v : EReal) := by
  have h0 := congrFun h ValueIdx.ix0
  dsimp only [fn] at h0
  obtain ⟨-, h2⟩ := IntOp.andi_eq_one.mp h0
  have hi := Host.reduce_andi_all _ _ _ _ ValueIdx.ix0 h2 i
  exact real_of_abs_lt (a2 i) hi

end Cert.Finite

end
-- ==== Proof.lean ====
/-
  The certificate of the three-layer perturbed graph convolution: the kernel program (host gather–scale–segment-sum
  around three pipelined regions that perturb, accumulate and finally average) against the plain reference.

  Frames: the two kernel programs' by their generated frame runs; the reference's by its run with the results dropped.
  Preserves: the ledger's seven entries — per region the named squared floor and the sign window, and the mean's 1/3.
  Algebraic: the kernel program's run keeps its two results at the last boundary's contents; those contents are, boundary
  by boundary, the reference's stages (the noise real by the precondition), and the reference's run ends at its last two
  stages of its own arguments; the arguments agree, so the results are equal.
-/
import proofs.«112868_j41523743817917_2_alg».proof.Defs
import proofs.«112868_j41523743817917_2_alg».proof.Proof.Gen.Kernel
import proofs.«112868_j41523743817917_2_alg».proof.Proof.Gen.Kernel.Frame
import proofs.«112868_j41523743817917_2_alg».proof.Proof.Gen.KernelIdeal
import proofs.«112868_j41523743817917_2_alg».proof.Proof.Gen.KernelIdeal.Frame
import proofs.«112868_j41523743817917_2_alg».proof.Proof.Gen.ReferenceIdeal
import proofs.«112868_j41523743817917_2_alg».proof.Proof.Gen.Pre_finite_inputs
import proofs.«112868_j41523743817917_2_alg».proof.Proof.KRun
import proofs.«112868_j41523743817917_2_alg».proof.Proof.KChain
import proofs.«112868_j41523743817917_2_alg».proof.Proof.RefRunH
import proofs.«112868_j41523743817917_2_alg».proof.Proof.RefRead
import proofs.«112868_j41523743817917_2_alg».proof.Proof.Finite
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunH.run m ρ)

/-- The ledger's entries, in order: in each of the three regions the squared floor's name and the sign window; then the mean's
    factor. -/
theorem preserves : Cert.preserves_Kernel_KernelIdeal :=
  ⟨IdealRules.named_const.statement Cert.KernelIdeal.κ "norm_floor_sq" .f32 0x179ABE15#32 ((5316911940649 / 5316911983139663491615228241121378304 : ℝ) : EReal) rfl,
   IdealRules.sign_bit.statement Cert.KernelIdeal.S3000x64 .f32,
   IdealRules.named_const.statement Cert.KernelIdeal.κ "norm_floor_sq" .f32 0x179ABE15#32 ((5316911940649 / 5316911983139663491615228241121378304 : ℝ) : EReal) rfl,
   IdealRules.sign_bit.statement Cert.KernelIdeal.S3000x64 .f32,
   IdealRules.named_const.statement Cert.KernelIdeal.κ "norm_floor_sq" .f32 0x179ABE15#32 ((5316911940649 / 5316911983139663491615228241121378304 : ℝ) : EReal) rfl,
   IdealRules.sign_bit.statement Cert.KernelIdeal.S3000x64 .f32,
   IdealRules.named_const.statement Cert.KernelIdeal.κ "inv_3" .f32 0x3EAAAAAB#32 ((1 / 3 : ℝ) : EReal) rfl⟩

/-- Both runs end at the reference's last two stages of the kernel program's arguments. -/
theorem algebraic : Cert.algebraic_KernelIdeal_ReferenceIdeal := by
  intro m ρ m' ρ' hpre hagree
  have hfin : ∀ (c : Dev Cert.KernelIdeal.nD) i, ∃ v : ℝ, Cert.KernelIdeal.KChain.A2 m c i = (v : EReal) := fun c i =>
    Cert.Finite.noise_real _ _ _ _ (hpre c) i
  refine ⟨fun c => Cert.ReferenceIdeal.ReadP.val_main_v112 (F := Ideal) (Cert.KernelIdeal.KChain.A0 m c) (Cert.KernelIdeal.KChain.A1 m c) (Cert.KernelIdeal.KChain.A2 m c) (Cert.KernelIdeal.KChain.A3 m c),
    fun c => Cert.ReferenceIdeal.ReadP.val_main_v113 (F := Ideal) (Cert.KernelIdeal.KChain.A0 m c) (Cert.KernelIdeal.KChain.A1 m c) (Cert.KernelIdeal.KChain.A2 m c) (Cert.KernelIdeal.KChain.A3 m c), ?_, ?_⟩
  · refine (θ_run Cert.KernelIdeal.defs _ _).mono (fun _ h c => ?_) (Cert.KernelIdeal.KRun.run (F := Ideal) m ρ)
    obtain ⟨h0, h1, hargs⟩ := h c
    exact ⟨h0.trans (Cert.KernelIdeal.KChain.result0 m ρ c (hfin c)), h1.trans (Cert.KernelIdeal.KChain.result1 m ρ c (hfin c)), hargs⟩
  · refine (θ_run Cert.ReferenceIdeal.defs _ _).mono (fun _ h c => ?_) (Cert.ReferenceIdeal.RunH.run m' ρ')
    obtain ⟨h0, h1, hargs⟩ := h c
    obtain ⟨e0, e1, e2, e3⟩ := hagree c
    refine ⟨h0.trans ?_, h1.trans ?_, hargs⟩
    · rw [e0, e1, e2, e3]
    · rw [e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
